-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S524288x64 : Shape := ⟨2, ![524288, 64]⟩
abbrev S524288x2 : Shape := ⟨2, ![524288, 2]⟩
abbrev S320x256 : Shape := ⟨2, ![320, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S384x256 : Shape := ⟨2, ![384, 256]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S524288x64 : S_.BroadcastsInDim S524288x64 (![] : Fin 0 → Fin S524288x64.rank)
  reducesTo_S524288x64_S_d0_1 : S524288x64.ReducesTo [0, 1] S_
  bcast_S_S320x256 : S_.BroadcastsInDim S320x256 (![] : Fin 0 → Fin S320x256.rank)
  reducesTo_S320x256_S_d0_1 : S320x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S384x256 : S_.BroadcastsInDim S384x256 (![] : Fin 0 → Fin S384x256.rank)
  reducesTo_S384x256_S_d0_1 : S384x256.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S256 .f32) (main_arg13 : FVec F S256x128 .f32) (main_arg14 : FVec F S128 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x128 .f32 := Host.absf main_arg13
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg8 : FVec F S128 .f32) (main_arg9 : FVec F S384x256 .f32) (main_arg10 : FVec F S256 .f32) (main_arg11 : FVec F S256x256 .f32) (main_arg12 : FVec F S256 .f32) (main_arg13 : FVec F S256x128 .f32) (main_arg14 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S384x256 .f32 := Host.absf main_arg9
  let main_cst_14 : FVec F S_ .f32 := constant S_ .f32 0x7F800000#32
  let main_v40 : FVec F S384x256 .f32 := broadcastInDim S384x256 ![] bcast_S_S384x256 main_cst_14
  let main_v41 : IVec S384x256 1 := cmpf .olt main_v39 main_v40
  let main_c_15 : IVec S_ 1 := constantI S_ 1 1#1
  let main_v42 : IVec S_ 1 := (fun x v => Host.reduce IntOp.andi x v reducesTo_S384x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg12 main_arg13 main_arg14 main_v48 main_v49 main_v50

def fn_part1 {F : FTy → Type} [FloatOps F] (main_arg5 : FVec F S256x256 .f32) (main_arg6 : FVec F S256 .f32) (main_arg7 : FVec F S256x128 .f32) (main_arg8 : FVec F S128 .f32) (main_arg9 : FVec F S384x256 .f32) (main_arg10 : FVec F S256 .f32) (main_arg11 : FVec F S256x256 .f32) (main_arg12 : FVec F S256 .f32) (main_arg13 : FVec F S256x128 .f32) (main_arg14 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S65536x128 .f32) (main_arg1 : FVec F S524288x64 .f32) (main_arg2 : IVec S524288x2 32) (main_arg3 : FVec F S320x256 .f32) (main_arg4 : FVec F S256 .f32) (main_arg5 : FVec F S256x256 .f32) (main_arg6 : FVec F S256 .f32) (main_arg7 : FVec F S256x128 .f32) (main_arg8 : FVec F S128 .f32) (main_arg9 : FVec F S384x256 .f32) (main_arg10 : FVec F S256 .f32) (main_arg11 : FVec F S256x256 .f32) (main_arg12 : FVec F S256 .f32) (main_arg13 : FVec F S256x128 .f32) (main_arg14 : FVec F S128 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S524288x64 .f32 := Host.absf main_arg1
  let main_cst_0 : FVec F S_ .f32 := constant S_ .f32 0x7F800000#32
  let main_v5 : FVec F S524288x64 .f32 := broadcastInDim S524288x64 ![] bcast_S_S524288x64 main_cst_0
  let main_v6 : IVec S524288x64 1 := cmpf .olt main_v4 main_v5
  let main_c_1 : IVec S_ 1 := constantI S_ 1 1#1
  let main_v7 : IVec S_ 1 := (fun x v => Host.reduce IntOp.andi x v reducesTo_S524288x64_S_d0_1 h_S_) main_v6 main_c_1
  let main_v8 : IVec S_ 1 := andi main_v3 main_v7
  let main_v9 : FVec F S320x256 .f32 := Host.absf main_arg3
  let main_cst_2 : FVec F S_ .f32 := constant S_ .f32 0x7F800000#32
  let main_v10 : FVec F S320x256 .f32 := broadcastInDim S320x256 ![] bcast_S_S320x256 main_cst_2
  let main_v11 : IVec S320x256 1 := cmpf .olt main_v9 main_v10
  let main_c_3 : IVec S_ 1 := constantI S_ 1 1#1
  let main_v12 : IVec S_ 1 := (fun x v => Host.reduce IntOp.andi x v reducesTo_S320x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_v13 main_v16
-- ==== Kernel.lean ====
abbrev S65536x128 : Shape := ⟨2, ![65536, 128]⟩
abbrev S524288x64 : Shape := ⟨2, ![524288, 64]⟩
abbrev S524288x2 : Shape := ⟨2, ![524288, 2]⟩
abbrev S320x256 : Shape := ⟨2, ![320, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S384x256 : Shape := ⟨2, ![384, 256]⟩
abbrev S524288x1 : Shape := ⟨2, ![524288, 1]⟩
abbrev S524288 : Shape := ⟨1, ![524288]⟩
abbrev S_ : Shape := ⟨0, ![]⟩
abbrev S524288x128 : Shape := ⟨2, ![524288, 128]⟩
abbrev S128x256 : Shape := ⟨2, ![128, 256]⟩
abbrev S64x256 : Shape := ⟨2, ![64, 256]⟩
abbrev S1x256 : Shape := ⟨2, ![1, 256]⟩
abbrev S1x128 : Shape := ⟨2, ![1, 128]⟩
abbrev S4096x128 : Shape := ⟨2, ![4096, 128]⟩
abbrev S4096x64 : Shape := ⟨2, ![4096, 64]⟩
abbrev S4096x256 : Shape := ⟨2, ![4096, 256]⟩
abbrev S1048576x128 : Shape := ⟨2, ![1048576, 128]⟩
abbrev S1048576 : Shape := ⟨1, ![1048576]⟩
abbrev S1048576x1 : Shape := ⟨2, ![1048576, 1]⟩
abbrev S2048x128 : Shape := ⟨2, ![2048, 128]⟩
abbrev S2048x256 : Shape := ⟨2, ![2048, 256]⟩

abbrev nBuf : Space → Nat
  | .hbm => 64
  | .vmem => 32
  | .smem => 0
  | _ => 0

abbrev bufTy : (tb : Table) → Fin (tcTables nBuf tb) → BufTy
  | .hbm, ⟨0, _⟩ => ⟨S65536x128, .f32⟩
  | .hbm, ⟨1, _⟩ => ⟨S524288x64, .f32⟩
  | .hbm, ⟨2, _⟩ => ⟨S524288x2, .i32⟩
  | .hbm, ⟨3, _⟩ => ⟨S320x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S384x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x128, .f32⟩
  | .hbm, ⟨14, _⟩ => ⟨S128, .f32⟩
  | .hbm, ⟨15, _⟩ => ⟨S524288x1, .i32⟩
  | .hbm, ⟨16, _⟩ => ⟨S524288, .i32⟩
  | .hbm, ⟨17, _⟩ => ⟨S524288x1, .i32⟩
  | .hbm, ⟨18, _⟩ => ⟨S524288, .i32⟩
  | .hbm, ⟨19, _⟩ => ⟨S65536x128, .bf16⟩
  | .hbm, ⟨20, _⟩ => ⟨S524288x64, .bf16⟩
  | .hbm, ⟨21, _⟩ => ⟨S_, .i32⟩
  | .hbm, ⟨22, _⟩ => ⟨S524288, .i32⟩
  | .hbm, ⟨23, _⟩ => ⟨S524288, .i1⟩
  | .hbm, ⟨24, _⟩ => ⟨S_, .i32⟩
  | .hbm, ⟨25, _⟩ => ⟨S524288, .i32⟩
  | .hbm, ⟨26, _⟩ => ⟨S524288, .i32⟩
  | .hbm, ⟨27, _⟩ => ⟨S524288, .i32⟩
  | .hbm, ⟨28, _⟩ => ⟨S524288x1, .i32⟩
  | .hbm, ⟨29, _⟩ => ⟨S524288x128, .bf16⟩
  | .hbm, ⟨30, _⟩ => ⟨S_, .i32⟩
  | .hbm, ⟨31, _⟩ => ⟨S524288, .i32⟩
  | .hbm, ⟨32, _⟩ => ⟨S524288, .i1⟩
  | .hbm, ⟨33, _⟩ => ⟨S_, .i32⟩
  | .hbm, ⟨34, _⟩ => ⟨S524288, .i32⟩
  | .hbm, ⟨35, _⟩ => ⟨S524288, .i32⟩
  | .hbm, ⟨36, _⟩ => ⟨S524288, .i32⟩
  | .hbm, ⟨37, _⟩ => ⟨S524288x1, .i32⟩
  | .hbm, ⟨38, _⟩ => ⟨S524288x128, .bf16⟩
  | .hbm, ⟨39, _⟩ => ⟨S128x256, .f32⟩
  | .hbm, ⟨40, _⟩ => ⟨S128x256, .bf16⟩
  | .hbm, ⟨41, _⟩ => ⟨S128x256, .f32⟩
  | .hbm, ⟨42, _⟩ => ⟨S128x256, .bf16⟩
  | .hbm, ⟨43, _⟩ => ⟨S64x256, .f32⟩
  | .hbm, ⟨44, _⟩ => ⟨S64x256, .bf16⟩
  | .hbm, ⟨45, _⟩ => ⟨S256x256, .bf16⟩
  | .hbm, ⟨46, _⟩ => ⟨S256x128, .bf16⟩
  | .hbm, ⟨47, _⟩ => ⟨S1x256, .f32⟩
  | .hbm, ⟨48, _⟩ => ⟨S1x256, .f32⟩
  | .hbm, ⟨49, _⟩ => ⟨S1x128, .f32⟩
  | .hbm, ⟨50, _⟩ => ⟨S524288x128, .f32⟩
  | .hbm, ⟨51, _⟩ => ⟨S1048576x128, .f32⟩
  | .hbm, ⟨52, _⟩ => ⟨S1048576, .i32⟩
  | .hbm, ⟨53, _⟩ => ⟨S_, .f32⟩
  | .hbm, ⟨54, _⟩ => ⟨S65536x128, .f32⟩
  | .hbm, ⟨55, _⟩ => ⟨S1048576x1, .i32⟩
  | .hbm, ⟨56, _⟩ => ⟨S65536x128, .f32⟩
  | .hbm, ⟨57, _⟩ => ⟨S128x256, .f32⟩
  | .hbm, ⟨58, _⟩ => ⟨S128x256, .f32⟩
  | .hbm, ⟨59, _⟩ => ⟨S128x256, .f32⟩
  | .hbm, ⟨60, _⟩ => ⟨S1x256, .f32⟩
  | .hbm, ⟨61, _⟩ => ⟨S1x256, .f32⟩
  | .hbm, ⟨62, _⟩ => ⟨S1x128, .f32⟩
  | .hbm, ⟨63, _⟩ => ⟨S65536x128, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x64, .bf16⟩
  | .local _ .vmem, ⟨5, _⟩ => ⟨S4096x64, .bf16⟩
  | .local _ .vmem, ⟨6, _⟩ => ⟨S128x256, .bf16⟩
  | .local _ .vmem, ⟨7, _⟩ => ⟨S128x256, .bf16⟩
  | .local _ .vmem, ⟨8, _⟩ => ⟨S64x256, .bf16⟩
  | .local _ .vmem, ⟨9, _⟩ => ⟨S1x256, .f32⟩
  | .local _ .vmem, ⟨10, _⟩ => ⟨S256x256, .bf16⟩
  | .local _ .vmem, ⟨11, _⟩ => ⟨S1x256, .f32⟩
  | .local _ .vmem, ⟨12, _⟩ => ⟨S256x128, .bf16⟩
  | .local _ .vmem, ⟨13, _⟩ => ⟨S1x128, .f32⟩
  | .local _ .vmem, ⟨14, _⟩ => ⟨S4096x128, .f32⟩
  | .local _ .vmem, ⟨15, _⟩ => ⟨S4096x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S128x256, .f32⟩
  | .local _ .vmem, ⟨23, _⟩ => ⟨S128x256, .f32⟩
  | .local _ .vmem, ⟨24, _⟩ => ⟨S128x256, .f32⟩
  | .local _ .vmem, ⟨25, _⟩ => ⟨S1x256, .f32⟩
  | .local _ .vmem, ⟨26, _⟩ => ⟨S256x256, .f32⟩
  | .local _ .vmem, ⟨27, _⟩ => ⟨S1x256, .f32⟩
  | .local _ .vmem, ⟨28, _⟩ => ⟨S256x128, .f32⟩
  | .local _ .vmem, ⟨29, _⟩ => ⟨S1x128, .f32⟩
  | .local _ .vmem, ⟨30, _⟩ => ⟨S2048x128, .f32⟩
  | .local _ .vmem, ⟨31, _⟩ => ⟨S2048x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_1 : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg11_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem11_1 : DmaSem sig := 31

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi arg0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c2_i32_4 : BitVec 32 := 2#32
  let v11 : BitVec 32 := Scalar.muli c2_i32_4 v10
  let v12 : BitVec 32 := Scalar.subi v0 v11
  let c0_i32_5 : BitVec 32 := 0#32
  let c0_i32_6 : BitVec 32 := 0#32
  ![v12.toNat, c0_i32_5.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2048x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S524288x2_S524288x1_0_0 : S524288x2.Slices ![0, 0] S524288x1
  shapeCasts_S524288x1_S524288 : S524288x1.ShapeCasts S524288
  slices_S524288x2_S524288x1_0_1 : S524288x2.Slices ![0, 1] S524288x1
  bitsLt_bf16_f32 : FTy.bits .bf16 < FTy.bits .f32
  bcast_S_S524288 : S_.BroadcastsInDim S524288 (![] : Fin 0 → Fin S524288.rank)
  bcast_S524288_S524288x1_0 : S524288.BroadcastsInDim S524288x1 (![0] : Fin 1 → Fin S524288x1.rank)
  slices_S320x256_S128x256_0_0 : S320x256.Slices ![0, 0] S128x256
  slices_S320x256_S128x256_128_0 : S320x256.Slices ![128, 0] S128x256
  slices_S320x256_S64x256_256_0 : S320x256.Slices ![256, 0] S64x256
  shapeCasts_S256_S1x256 : S256.ShapeCasts S1x256
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  concatenates_S524288x128_S524288x128_S1048576x128_d0 : Shape.Concatenates [S524288x128, S524288x128] S1048576x128 0
  concatenates_S524288_S524288_S1048576_d0 : Shape.Concatenates [S524288, S524288] S1048576 0
  bcast_S_S65536x128 : S_.BroadcastsInDim S65536x128 (![] : Fin 0 → Fin S65536x128.rank)
  bcast_S1048576_S1048576x1_0 : S1048576.BroadcastsInDim S1048576x1 (![0] : Fin 1 → Fin S1048576x1.rank)
  slices_S384x256_S128x256_0_0 : S384x256.Slices ![0, 0] S128x256
  slices_S384x256_S128x256_128_0 : S384x256.Slices ![128, 0] S128x256
  slices_S384x256_S128x256_256_0 : S384x256.Slices ![256, 0] S128x256
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S1x256_S2048x256 : S1x256.Broadcasts S2048x256
  broadcasts_S1x128_S2048x128 : S1x128.Broadcasts S2048x128
  gather_S65536x128_S524288x1_S524288x128_1_0_n_n_0_1_1128_wf : GatherDims.WF S65536x128 S524288x1 S524288x128 [1] [0] [] [0] [] 1 ![1, 128]
  dot_S4096x128_S128x256_S4096x256_1_0_0_1_n_n_wf : DotDims.WF S4096x128 S128x256 S4096x256 [1] [0] [0] [1] [] []
  dot_S4096x64_S64x256_S4096x256_1_0_0_1_n_n_wf : DotDims.WF S4096x64 S64x256 S4096x256 [1] [0] [0] [1] [] []
  dot_S4096x256_S256x256_S4096x256_1_0_0_1_n_n_wf : DotDims.WF S4096x256 S256x256 S4096x256 [1] [0] [0] [1] [] []
  dot_S4096x256_S256x128_S4096x128_1_0_0_1_n_n_wf : DotDims.WF S4096x256 S256x128 S4096x128 [1] [0] [0] [1] [] []
  scatter_S65536x128_S1048576x1_S1048576x128_1_0_0_1_wf : ScatterDims.WF S65536x128 S1048576x1 S1048576x128 [1] [0] [0] 1
  dot_S2048x128_S128x256_S2048x256_1_0_0_1_n_n_wf : DotDims.WF S2048x128 S128x256 S2048x256 [1] [0] [0] [1] [] []
  dot_S2048x256_S256x256_S2048x256_1_0_0_1_n_n_wf : DotDims.WF S2048x256 S256x256 S2048x256 [1] [0] [0] [1] [] []
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S524288x128.size a
  hwx0_0 : ∀ i : grid0.Coords, EltTy.bits .bf16 = 32 ∨ (Rect.block (s := S524288x128) S4096x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S524288x128.size a
  hwx0_1 : ∀ i : grid0.Coords, EltTy.bits .bf16 = 32 ∨ (Rect.block (s := S524288x128) S4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S524288x64.size a
  hwx0_2 : ∀ i : grid0.Coords, EltTy.bits .bf16 = 32 ∨ (Rect.block (s := S524288x64) S4096x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .bf16 = 32 ∨ (Rect.block (s := S64x256) S64x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .bf16 = 32 ∨ (Rect.block (s := S256x128) S256x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4096x128.size a ≤ S524288x128.size a
  hwx0_11 : ∀ i : grid0.Coords, EltTy.bits .f32 = 32 ∨ (Rect.block (s := S524288x128) S4096x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S65536x128.size a
  hwx1_0 : ∀ i : grid1.Coords, EltTy.bits .f32 = 32 ∨ (Rect.block (s := S65536x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S65536x128.size a
  hwx1_1 : ∀ i : grid1.Coords, EltTy.bits .f32 = 32 ∨ (Rect.block (s := S65536x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S65536x128.size a
  hwx1_2 : ∀ i : grid1.Coords, EltTy.bits .f32 = 32 ∨ (Rect.block (s := S65536x128) S2048x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x256.size a
  hwx1_5 : ∀ i : grid1.Coords, EltTy.bits .f32 = 32 ∨ (Rect.block (s := S128x256) S128x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .f32 = 32 ∨ (Rect.block (s := S256x256) S256x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x128.size a ≤ S256x128.size a
  hwx1_9 : ∀ i : grid1.Coords, EltTy.bits .f32 = 32 ∨ (Rect.block (s := S256x128) S256x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2048x128.size a ≤ S65536x128.size a
  hwx1_11 : ∀ i : grid1.Coords, EltTy.bits .f32 = 32 ∨ (Rect.block (s := S65536x128) S2048x128.size (cc1_transform_11 i) (hinb1_11 i)).WholeWords (EltTy.packing .f32)

variable [Facts₀]

def gather_S65536x128_S524288x1_S524288x128_1_0_n_n_0_1_1128 : GatherDims S65536x128 S524288x1 S524288x128 where
  offsetDims := [1]
  collapsedSliceDims := [0]
  operandBatchingDims := []
  startIndicesBatchingDims := []
  startIndexMap := [0]
  indexVectorDim := 1
  sliceSizes := ![1, 128]
  wf := gather_S65536x128_S524288x1_S524288x128_1_0_n_n_0_1_1128_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def scatter_S65536x128_S1048576x1_S1048576x128_1_0_0_1 : ScatterDims S65536x128 S1048576x1 S1048576x128 where
  updateWindowDims := [1]
  insertedWindowDims := [0]
  scatterDimsToOperandDims := [0]
  indexVectorDim := 1
  wf := scatter_S65536x128_S1048576x1_S1048576x128_1_0_0_1_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_v12) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v30) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v31) S4096x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v41) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg13) S256x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v42) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v43) S2048x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S65536x128 : Shape := ⟨2, ![65536, 128]⟩
abbrev S524288x64 : Shape := ⟨2, ![524288, 64]⟩
abbrev S524288x2 : Shape := ⟨2, ![524288, 2]⟩
abbrev S320x256 : Shape := ⟨2, ![320, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S384x256 : Shape := ⟨2, ![384, 256]⟩
abbrev S524288x1 : Shape := ⟨2, ![524288, 1]⟩
abbrev S524288 : Shape := ⟨1, ![524288]⟩
abbrev S_ : Shape := ⟨0, ![]⟩
abbrev S524288x128 : Shape := ⟨2, ![524288, 128]⟩
abbrev S524288x320 : Shape := ⟨2, ![524288, 320]⟩
abbrev S524288x256 : Shape := ⟨2, ![524288, 256]⟩
abbrev S1x256 : Shape := ⟨2, ![1, 256]⟩
abbrev S1x128 : Shape := ⟨2, ![1, 128]⟩
abbrev S16x2x2048x128 : Shape := ⟨4, ![16, 2, 2048, 128]⟩
abbrev S16x1x2048x128 : Shape := ⟨4, ![16, 1, 2048, 128]⟩
abbrev S16x2048x128 : Shape := ⟨3, ![16, 2048, 128]⟩
abbrev S16x4096x128 : Shape := ⟨3, ![16, 4096, 128]⟩
abbrev S65536x384 : Shape := ⟨2, ![65536, 384]⟩
abbrev S65536x256 : Shape := ⟨2, ![65536, 256]⟩

abbrev nBuf : Space → Nat
  | .hbm => 101
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S524288x64, .f32⟩
  | .hbm, ⟨2, _⟩ => ⟨S524288x2, .i32⟩
  | .hbm, ⟨3, _⟩ => ⟨S320x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S384x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x128, .f32⟩
  | .hbm, ⟨14, _⟩ => ⟨S128, .f32⟩
  | .hbm, ⟨15, _⟩ => ⟨S524288x1, .i32⟩
  | .hbm, ⟨16, _⟩ => ⟨S524288, .i32⟩
  | .hbm, ⟨17, _⟩ => ⟨S_, .i32⟩
  | .hbm, ⟨18, _⟩ => ⟨S524288, .i32⟩
  | .hbm, ⟨19, _⟩ => ⟨S524288, .i1⟩
  | .hbm, ⟨20, _⟩ => ⟨S_, .i32⟩
  | .hbm, ⟨21, _⟩ => ⟨S524288, .i32⟩
  | .hbm, ⟨22, _⟩ => ⟨S524288, .i32⟩
  | .hbm, ⟨23, _⟩ => ⟨S524288, .i32⟩
  | .hbm, ⟨24, _⟩ => ⟨S524288x1, .i32⟩
  | .hbm, ⟨25, _⟩ => ⟨S524288x128, .f32⟩
  | .hbm, ⟨26, _⟩ => ⟨S524288x1, .i32⟩
  | .hbm, ⟨27, _⟩ => ⟨S524288, .i32⟩
  | .hbm, ⟨28, _⟩ => ⟨S_, .i32⟩
  | .hbm, ⟨29, _⟩ => ⟨S524288, .i32⟩
  | .hbm, ⟨30, _⟩ => ⟨S524288, .i1⟩
  | .hbm, ⟨31, _⟩ => ⟨S_, .i32⟩
  | .hbm, ⟨32, _⟩ => ⟨S524288, .i32⟩
  | .hbm, ⟨33, _⟩ => ⟨S524288, .i32⟩
  | .hbm, ⟨34, _⟩ => ⟨S524288, .i32⟩
  | .hbm, ⟨35, _⟩ => ⟨S524288x1, .i32⟩
  | .hbm, ⟨36, _⟩ => ⟨S524288x128, .f32⟩
  | .hbm, ⟨37, _⟩ => ⟨S524288x320, .f32⟩
  | .hbm, ⟨38, _⟩ => ⟨S524288x256, .f32⟩
  | .hbm, ⟨39, _⟩ => ⟨S1x256, .f32⟩
  | .hbm, ⟨40, _⟩ => ⟨S524288x256, .f32⟩
  | .hbm, ⟨41, _⟩ => ⟨S524288x256, .f32⟩
  | .hbm, ⟨42, _⟩ => ⟨S_, .f32⟩
  | .hbm, ⟨43, _⟩ => ⟨S524288x256, .f32⟩
  | .hbm, ⟨44, _⟩ => ⟨S524288x256, .f32⟩
  | .hbm, ⟨45, _⟩ => ⟨S524288x256, .f32⟩
  | .hbm, ⟨46, _⟩ => ⟨S1x256, .f32⟩
  | .hbm, ⟨47, _⟩ => ⟨S524288x256, .f32⟩
  | .hbm, ⟨48, _⟩ => ⟨S524288x256, .f32⟩
  | .hbm, ⟨49, _⟩ => ⟨S_, .f32⟩
  | .hbm, ⟨50, _⟩ => ⟨S524288x256, .f32⟩
  | .hbm, ⟨51, _⟩ => ⟨S524288x256, .f32⟩
  | .hbm, ⟨52, _⟩ => ⟨S524288x128, .f32⟩
  | .hbm, ⟨53, _⟩ => ⟨S1x128, .f32⟩
  | .hbm, ⟨54, _⟩ => ⟨S524288x128, .f32⟩
  | .hbm, ⟨55, _⟩ => ⟨S524288x128, .f32⟩
  | .hbm, ⟨56, _⟩ => ⟨S524288x1, .i32⟩
  | .hbm, ⟨57, _⟩ => ⟨S524288, .i32⟩
  | .hbm, ⟨58, _⟩ => ⟨S_, .f32⟩
  | .hbm, ⟨59, _⟩ => ⟨S65536x128, .f32⟩
  | .hbm, ⟨60, _⟩ => ⟨S524288x1, .i32⟩
  | .hbm, ⟨61, _⟩ => ⟨S65536x128, .f32⟩
  | .hbm, ⟨62, _⟩ => ⟨S524288x1, .i32⟩
  | .hbm, ⟨63, _⟩ => ⟨S524288, .i32⟩
  | .hbm, ⟨64, _⟩ => ⟨S_, .f32⟩
  | .hbm, ⟨65, _⟩ => ⟨S65536x128, .f32⟩
  | .hbm, ⟨66, _⟩ => ⟨S524288x1, .i32⟩
  | .hbm, ⟨67, _⟩ => ⟨S65536x128, .f32⟩
  | .hbm, ⟨68, _⟩ => ⟨S65536x128, .f32⟩
  | .hbm, ⟨69, _⟩ => ⟨S16x2x2048x128, .f32⟩
  | .hbm, ⟨70, _⟩ => ⟨S16x1x2048x128, .f32⟩
  | .hbm, ⟨71, _⟩ => ⟨S16x2048x128, .f32⟩
  | .hbm, ⟨72, _⟩ => ⟨S16x1x2048x128, .f32⟩
  | .hbm, ⟨73, _⟩ => ⟨S16x2048x128, .f32⟩
  | .hbm, ⟨74, _⟩ => ⟨S16x2048x128, .f32⟩
  | .hbm, ⟨75, _⟩ => ⟨S16x1x2048x128, .f32⟩
  | .hbm, ⟨76, _⟩ => ⟨S16x2048x128, .f32⟩
  | .hbm, ⟨77, _⟩ => ⟨S16x1x2048x128, .f32⟩
  | .hbm, ⟨78, _⟩ => ⟨S16x2048x128, .f32⟩
  | .hbm, ⟨79, _⟩ => ⟨S16x2048x128, .f32⟩
  | .hbm, ⟨80, _⟩ => ⟨S16x4096x128, .f32⟩
  | .hbm, ⟨81, _⟩ => ⟨S65536x128, .f32⟩
  | .hbm, ⟨82, _⟩ => ⟨S65536x384, .f32⟩
  | .hbm, ⟨83, _⟩ => ⟨S65536x256, .f32⟩
  | .hbm, ⟨84, _⟩ => ⟨S1x256, .f32⟩
  | .hbm, ⟨85, _⟩ => ⟨S65536x256, .f32⟩
  | .hbm, ⟨86, _⟩ => ⟨S65536x256, .f32⟩
  | .hbm, ⟨87, _⟩ => ⟨S_, .f32⟩
  | .hbm, ⟨88, _⟩ => ⟨S65536x256, .f32⟩
  | .hbm, ⟨89, _⟩ => ⟨S65536x256, .f32⟩
  | .hbm, ⟨90, _⟩ => ⟨S65536x256, .f32⟩
  | .hbm, ⟨91, _⟩ => ⟨S1x256, .f32⟩
  | .hbm, ⟨92, _⟩ => ⟨S65536x256, .f32⟩
  | .hbm, ⟨93, _⟩ => ⟨S65536x256, .f32⟩
  | .hbm, ⟨94, _⟩ => ⟨S_, .f32⟩
  | .hbm, ⟨95, _⟩ => ⟨S65536x256, .f32⟩
  | .hbm, ⟨96, _⟩ => ⟨S65536x256, .f32⟩
  | .hbm, ⟨97, _⟩ => ⟨S65536x128, .f32⟩
  | .hbm, ⟨98, _⟩ => ⟨S1x128, .f32⟩
  | .hbm, ⟨99, _⟩ => ⟨S65536x128, .f32⟩
  | .hbm, ⟨100, _⟩ => ⟨S65536x128, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call0_cst : Ref sig .tc := ⟨.hbm, 42, rfl⟩
abbrev main_call0_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call1_cst : Ref sig .tc := ⟨.hbm, 49, rfl⟩
abbrev main_call1_v0 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_3 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call2_cst : Ref sig .tc := ⟨.hbm, 87, rfl⟩
abbrev main_call2_v0 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call3_cst : Ref sig .tc := ⟨.hbm, 94, rfl⟩
abbrev main_call3_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]

class Facts₀ : Prop where
  slices_S524288x2_S524288x1_0_0 : S524288x2.Slices ![0, 0] S524288x1
  shapeCasts_S524288x1_S524288 : S524288x1.ShapeCasts S524288
  bcast_S_S524288 : S_.BroadcastsInDim S524288 (![] : Fin 0 → Fin S524288.rank)
  bcast_S524288_S524288x1_0 : S524288.BroadcastsInDim S524288x1 (![0] : Fin 1 → Fin S524288x1.rank)
  slices_S524288x2_S524288x1_0_1 : S524288x2.Slices ![0, 1] S524288x1
  concatenates_S524288x128_S524288x128_S524288x64_S524288x320_d1 : Shape.Concatenates [S524288x128, S524288x128, S524288x64] S524288x320 1
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  bcast_S_S524288x256 : S_.BroadcastsInDim S524288x256 (![] : Fin 0 → Fin S524288x256.rank)
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S65536x128 : S_.BroadcastsInDim S65536x128 (![] : Fin 0 → Fin S65536x128.rank)
  shapeCasts_S65536x128_S16x2x2048x128 : S65536x128.ShapeCasts S16x2x2048x128
  slices_S16x2x2048x128_S16x1x2048x128_0_0_0_0 : S16x2x2048x128.Slices ![0, 0, 0, 0] S16x1x2048x128
  shapeCasts_S16x1x2048x128_S16x2048x128 : S16x1x2048x128.ShapeCasts S16x2048x128
  slices_S16x2x2048x128_S16x1x2048x128_0_1_0_0 : S16x2x2048x128.Slices ![0, 1, 0, 0] S16x1x2048x128
  concatenates_S16x2048x128_S16x2048x128_S16x4096x128_d1 : Shape.Concatenates [S16x2048x128, S16x2048x128] S16x4096x128 1
  shapeCasts_S16x4096x128_S65536x128 : S16x4096x128.ShapeCasts S65536x128
  concatenates_S65536x128_S65536x128_S65536x128_S65536x384_d1 : Shape.Concatenates [S65536x128, S65536x128, S65536x128] S65536x384 1
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S1x128_S65536x128_0_1 : S1x128.BroadcastsInDim S65536x128 (![0, 1] : Fin 2 → Fin S65536x128.rank)
  gather_S65536x128_S524288x1_S524288x128_1_0_n_n_0_1_1128_wf : GatherDims.WF S65536x128 S524288x1 S524288x128 [1] [0] [] [0] [] 1 ![1, 128]
  dot_S524288x320_S320x256_S524288x256_1_0_0_1_n_n_wf : DotDims.WF S524288x320 S320x256 S524288x256 [1] [0] [0] [1] [] []
  dot_S524288x256_S256x256_S524288x256_1_0_0_1_n_n_wf : DotDims.WF S524288x256 S256x256 S524288x256 [1] [0] [0] [1] [] []
  dot_S524288x256_S256x128_S524288x128_1_0_0_1_n_n_wf : DotDims.WF S524288x256 S256x128 S524288x128 [1] [0] [0] [1] [] []
  scatter_S65536x128_S524288x1_S524288x128_1_0_0_1_wf : ScatterDims.WF S65536x128 S524288x1 S524288x128 [1] [0] [0] 1
  dot_S65536x384_S384x256_S65536x256_1_0_0_1_n_n_wf : DotDims.WF S65536x384 S384x256 S65536x256 [1] [0] [0] [1] [] []
  dot_S65536x256_S256x256_S65536x256_1_0_0_1_n_n_wf : DotDims.WF S65536x256 S256x256 S65536x256 [1] [0] [0] [1] [] []
  dot_S65536x256_S256x128_S65536x128_1_0_0_1_n_n_wf : DotDims.WF S65536x256 S256x128 S65536x128 [1] [0] [0] [1] [] []

variable [Facts₀]

def gather_S65536x128_S524288x1_S524288x128_1_0_n_n_0_1_1128 : GatherDims S65536x128 S524288x1 S524288x128 where
  offsetDims := [1]
  collapsedSliceDims := [0]
  operandBatchingDims := []
  startIndicesBatchingDims := []
  startIndexMap := [0]
  indexVectorDim := 1
  sliceSizes := ![1, 128]
  wf := gather_S65536x128_S524288x1_S524288x128_1_0_n_n_0_1_1128_wf
def dot_S524288x320_S320x256_S524288x256_1_0_0_1_n_n : DotDims S524288x320 S320x256 S524288x256 where
  lhsContracting := [1]
  rhsContracting := [0]
  lhsNonContracting := [0]
  rhsNonContracting := [1]
  lhsBatch := []
  rhsBatch := []
  wf := dot_S524288x320_S320x256_S524288x256_1_0_0_1_n_n_wf
def dot_S524288x256_S256x256_S524288x256_1_0_0_1_n_n : DotDims S524288x256 S256x256 S524288x256 where
  lhsContracting := [1]
  rhsContracting := [0]
  lhsNonContracting := [0]
  rhsNonContracting := [1]
  lhsBatch := []
  rhsBatch := []
  wf := dot_S524288x256_S256x256_S524288x256_1_0_0_1_n_n_wf
def dot_S524288x256_S256x128_S524288x128_1_0_0_1_n_n : DotDims S524288x256 S256x128 S524288x128 where
  lhsContracting := [1]
  rhsContracting := [0]
  lhsNonContracting := [0]
  rhsNonContracting := [1]
  lhsBatch := []
  rhsBatch := []
  wf := dot_S524288x256_S256x128_S524288x128_1_0_0_1_n_n_wf
def scatter_S65536x128_S524288x1_S524288x128_1_0_0_1 : ScatterDims S65536x128 S524288x1 S524288x128 where
  updateWindowDims := [1]
  insertedWindowDims := [0]
  scatterDimsToOperandDims := [0]
  indexVectorDim := 1
  wf := scatter_S65536x128_S524288x1_S524288x128_1_0_0_1_wf
def dot_S65536x384_S384x256_S65536x256_1_0_0_1_n_n : DotDims S65536x384 S384x256 S65536x256 where
  lhsContracting := [1]
  rhsContracting := [0]
  lhsNonContracting := [0]
  rhsNonContracting := [1]
  lhsBatch := []
  rhsBatch := []
  wf := dot_S65536x384_S384x256_S65536x256_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf

class Facts : Prop extends Facts₀ where

variable [Facts]
-- ==== Proof.K.Region0.lean ====
/- The region-local half of the frame of pallas_call 0 (`cc0__message_kernel`), at any float instance and at any
   contents `V` of the TensorCore's buffers when the region is entered: each window's block at a grid point,
   what the body leaves in the output window's staging buffer as ONE pure term of its eleven loads, the body's
   triple, the proof data of the pipeline, and the body obligation at every point. -/
import proofs.«100937_j83021717831844_2_alg».proof.Proof.Gen.Kernel.Launch
import proofs.«100937_j83021717831844_2_alg».proof.Proof.Gen.Kernel.Skeleton
import proofs.«100937_j83021717831844_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not: where the
    pipeline does not fetch, the block index has not moved, and the body leaves every input block in place. Stated
    for ANY proof data whose array is `V`'s and whose body leaves the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The zero offsets of a whole-buffer rectangle of rank two. -/
theorem off_zero2 : (![0, 0] : Fin 2 → Nat) = fun _ => 0 := funext fun a => by fin_cases a <;> rfl

/-- What the body stores, as ONE pure term of its eleven loads (a load of the whole rectangle is the identity). -/
def out0 (x0 : Vec F S4096x128 .bf16) (x1 : Vec F S4096x128 .bf16) (x2 : Vec F S4096x64 .bf16) (x3 : Vec F S128x256 .bf16) (x4 : Vec F S128x256 .bf16) (x5 : Vec F S64x256 .bf16) (x6 : Vec F S1x256 .f32) (x7 : Vec F S256x256 .bf16) (x8 : Vec F S1x256 .f32) (x9 : Vec F S256x128 .bf16) (x10 : Vec F S1x128 .f32) : Vec F S4096x128 .f32 :=
  k0_pay1 (k0_pay2 x0 x1 x2 x3 x4 x5 x6 x7 x8) x9 x10

/-- The one store covers the output buffer. -/
theorem cover0 (p0 : Vec F S4096x128 .f32) (y : S4096x128.Idx) :
    ∃ pc ∈ ([⟨Rect.unit (s := S4096x128) ![0, 0] S4096x128.size inb_S4096x128_S4096x128_0_0, p0⟩] : List (View.Piece (Elt F) S4096x128 .f32)), y ∈ pc.1.set :=
  ⟨_, List.mem_singleton_self _, View.mem_set_unit_zero off_zero2 inb_S4096x128_S4096x128_0_0 y⟩

/-! ## The body's triple -/

set_option maxHeartbeats 4000000 in
/-- The body on whole staging memrefs, the inputs' at read contents `xW` and the output's at anything (the body
    loads it once, unused, before storing), runs to the continuation holding the inputs' as they were and the output's
    at `out0` of the inputs'. -/
theorem sound_kernel0 (c : Dev nD) (E : Set ℕ) (i : grid0.Coords) (a0 : Memref sig .tc .vmem S4096x128 .bf16) (ha0 : a0.IsWhole) (a1 : Memref sig .tc .vmem S4096x128 .bf16) (ha1 : a1.IsWhole) (a2 : Memref sig .tc .vmem S4096x64 .bf16) (ha2 : a2.IsWhole) (a3 : Memref sig .tc .vmem S128x256 .bf16) (ha3 : a3.IsWhole) (a4 : Memref sig .tc .vmem S128x256 .bf16) (ha4 : a4.IsWhole) (a5 : Memref sig .tc .vmem S64x256 .bf16) (ha5 : a5.IsWhole) (a6 : Memref sig .tc .vmem S1x256 .f32) (ha6 : a6.IsWhole) (a7 : Memref sig .tc .vmem S256x256 .bf16) (ha7 : a7.IsWhole) (a8 : Memref sig .tc .vmem S1x256 .f32) (ha8 : a8.IsWhole) (a9 : Memref sig .tc .vmem S256x128 .bf16) (ha9 : a9.IsWhole) (a10 : Memref sig .tc .vmem S1x128 .f32) (ha10 : a10.IsWhole) (a11 : Memref sig .tc .vmem S4096x128 .f32) (ha11 : a11.IsWhole)
    (x0 : Vec F S4096x128 .bf16) (x1 : Vec F S4096x128 .bf16) (x2 : Vec F S4096x64 .bf16) (x3 : Vec F S128x256 .bf16) (x4 : Vec F S128x256 .bf16) (x5 : Vec F S64x256 .bf16) (x6 : Vec F S1x256 .f32) (x7 : Vec F S256x256 .bf16) (x8 : Vec F S1x256 .f32) (x9 : Vec F S256x128 .bf16) (x10 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare (out0 x0 x1 x2 x3 x4 x5 x6 x7 x8 x9 x10)) -∗ K ⟨⟩))
      ⊢ wp frame (wpE (defs₀ (F := F)) Variants.none c none) E (cc0__message_kernel i a0 ha0 a1 ha1 a2 ha2 a3 ha3 a4 ha4 a5 ha5 a6 ha6 a7 ha7 a8 ha8 a9 ha9 a10 ha10 a11 ha11) K := by
  simp only [cc0__message_kernel_eq_skeleton]; unfold cc0__message_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0; subst hf1; subst hf2; subst hf3; subst hf4; subst hf5; subst hf6; subst hf7; subst hf8; subst hf9; subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  refine (View.read_writes_eq_canon _ _ _ (cover0 _)).trans ?_
  rw [View.canon_unit_zero off_zero2]
  simp only [View.readAt_eq_ld]
  simp only [View.ld_unit_zero (S := S4096x128) off_zero2, View.ld_unit_zero (S := S4096x64) off_zero2, View.ld_unit_zero (S := S128x256) off_zero2, View.ld_unit_zero (S := S64x256) off_zero2, View.ld_unit_zero (S := S1x256) off_zero2, View.ld_unit_zero (S := S256x256) off_zero2, View.ld_unit_zero (S := S256x128) off_zero2, View.ld_unit_zero (S := S1x128) off_zero2]
  rfl

/-! ## The pipeline's proof data -/

/-- The proof data of pipeline 0 on core `c`: the arrays as the region finds them; after the body at point `t` each
    input's buffer at its block and the output's at `out0` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 2000000 in
/-- The body at any point: the inputs' memrefs hold their blocks, so the triple applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Region1.lean ====
/- The region-local half of the frame of pallas_call 1 (`cc1__update_kernel`), at any float instance and at any
   contents `V` of the TensorCore's buffers when the region is entered: each window's block at a grid point,
   what the body leaves in the output window's staging buffer as ONE pure term of its eleven loads, the body's
   triple, the proof data of the pipeline, and the body obligation at every point. -/
import proofs.«100937_j83021717831844_2_alg».proof.Proof.Gen.Kernel.Launch
import proofs.«100937_j83021717831844_2_alg».proof.Proof.Gen.Kernel.Skeleton
import proofs.«100937_j83021717831844_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not: where the
    pipeline does not fetch, the block index has not moved, and the body leaves every input block in place. Stated
    for ANY proof data whose array is `V`'s and whose body leaves the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- The zero offsets of a whole-buffer rectangle of rank two. -/
theorem off_zero2 : (![0, 0] : Fin 2 → Nat) = fun _ => 0 := funext fun a => by fin_cases a <;> rfl

/-- What the body stores, as ONE pure term of its eleven loads (a load of the whole rectangle is the identity). -/
def out1 (x0 : Vec F S2048x128 .f32) (x1 : Vec F S2048x128 .f32) (x2 : Vec F S2048x128 .f32) (x3 : Vec F S128x256 .f32) (x4 : Vec F S128x256 .f32) (x5 : Vec F S128x256 .f32) (x6 : Vec F S1x256 .f32) (x7 : Vec F S256x256 .f32) (x8 : Vec F S1x256 .f32) (x9 : Vec F S256x128 .f32) (x10 : Vec F S1x128 .f32) : Vec F S2048x128 .f32 :=
  k1_pay1 (k1_pay2 x0 x1 x2 x3 x4 x5 x6 x7 x8) x9 x10

/-- The one store covers the output buffer. -/
theorem cover1 (p0 : Vec F S2048x128 .f32) (y : S2048x128.Idx) :
    ∃ pc ∈ ([⟨Rect.unit (s := S2048x128) ![0, 0] S2048x128.size inb_S2048x128_S2048x128_0_0, p0⟩] : List (View.Piece (Elt F) S2048x128 .f32)), y ∈ pc.1.set :=
  ⟨_, List.mem_singleton_self _, View.mem_set_unit_zero off_zero2 inb_S2048x128_S2048x128_0_0 y⟩

/-! ## The body's triple -/

set_option maxHeartbeats 4000000 in
/-- The body on whole staging memrefs, the inputs' at read contents `xW` and the output's at anything (the body
    loads it once, unused, before storing), runs to the continuation holding the inputs' as they were and the output's
    at `out1` of the inputs'. -/
theorem sound_kernel1 (c : Dev nD) (E : Set ℕ) (i : grid1.Coords) (a0 : Memref sig .tc .vmem S2048x128 .f32) (ha0 : a0.IsWhole) (a1 : Memref sig .tc .vmem S2048x128 .f32) (ha1 : a1.IsWhole) (a2 : Memref sig .tc .vmem S2048x128 .f32) (ha2 : a2.IsWhole) (a3 : Memref sig .tc .vmem S128x256 .f32) (ha3 : a3.IsWhole) (a4 : Memref sig .tc .vmem S128x256 .f32) (ha4 : a4.IsWhole) (a5 : Memref sig .tc .vmem S128x256 .f32) (ha5 : a5.IsWhole) (a6 : Memref sig .tc .vmem S1x256 .f32) (ha6 : a6.IsWhole) (a7 : Memref sig .tc .vmem S256x256 .f32) (ha7 : a7.IsWhole) (a8 : Memref sig .tc .vmem S1x256 .f32) (ha8 : a8.IsWhole) (a9 : Memref sig .tc .vmem S256x128 .f32) (ha9 : a9.IsWhole) (a10 : Memref sig .tc .vmem S1x128 .f32) (ha10 : a10.IsWhole) (a11 : Memref sig .tc .vmem S2048x128 .f32) (ha11 : a11.IsWhole)
    (x0 : Vec F S2048x128 .f32) (x1 : Vec F S2048x128 .f32) (x2 : Vec F S2048x128 .f32) (x3 : Vec F S128x256 .f32) (x4 : Vec F S128x256 .f32) (x5 : Vec F S128x256 .f32) (x6 : Vec F S1x256 .f32) (x7 : Vec F S256x256 .f32) (x8 : Vec F S1x256 .f32) (x9 : Vec F S256x128 .f32) (x10 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare (out1 x0 x1 x2 x3 x4 x5 x6 x7 x8 x9 x10)) -∗ K ⟨⟩))
      ⊢ wp frame (wpE (defs₀ (F := F)) Variants.none c none) E (cc1__update_kernel i a0 ha0 a1 ha1 a2 ha2 a3 ha3 a4 ha4 a5 ha5 a6 ha6 a7 ha7 a8 ha8 a9 ha9 a10 ha10 a11 ha11) K := by
  simp only [cc1__update_kernel_eq_skeleton]; unfold cc1__update_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0; subst hf1; subst hf2; subst hf3; subst hf4; subst hf5; subst hf6; subst hf7; subst hf8; subst hf9; subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  refine (View.read_writes_eq_canon _ _ _ (cover1 _)).trans ?_
  rw [View.canon_unit_zero off_zero2]
  simp only [View.readAt_eq_ld]
  simp only [View.ld_unit_zero (S := S2048x128) off_zero2, View.ld_unit_zero (S := S128x256) off_zero2, View.ld_unit_zero (S := S1x256) off_zero2, View.ld_unit_zero (S := S256x256) off_zero2, View.ld_unit_zero (S := S256x128) off_zero2, View.ld_unit_zero (S := S1x128) off_zero2]
  rfl

/-! ## The pipeline's proof data -/

/-- The proof data of pipeline 1 on core `c`: the arrays as the region finds them; after the body at point `t` each
    input's buffer at its block and the output's at `out1` of the input blocks; the invariant the scoped rest and the
    generator register, untouched; nothing owed; the two windows on the first argument array each hold it at a half share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = out1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

set_option maxHeartbeats 2000000 in
/-- The body at any point: the inputs' memrefs hold their blocks, so the triple applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.LibArrBufs.lean ====
/-
  The distinct buffers behind a pipeline's windowed arrays, listed, and one buffer dealt between two readers.

  When a kernel is handed ONE array through several input windows (an operand read once by row blocks and once
  whole, say), the windows' array references are not pairwise distinct, and what the launch hands the pipeline is
  one points-to per DISTINCT buffer: `Pipeline.arrBufs`, a separating conjunction over the image of the windows'
  array references. For a program whose windows are listed this is the chain of the listed buffers' points-tos at
  the full share (`arrBufs_eq_of_list`), and a buffer read by two windows is split into its left and right half
  shares at the same contents (`pointsTo_halves`), one half for each window: together they make the proof data's
  `arrays` at the region's entry when input windows share an array.
-/
import Idealize.ShloMosaic.Lib.Pipeline.Kit

noncomputable section

namespace SharedArrays

open Idealize.ShloMosaic Idealize.ShloMosaic.Pipeline Idealize.ShloMosaic.TcCoe
open Idealize.SL
open Idealize.SL.BI (sProp bigSep bigSepL bigSep_eq_bigSepL_of_eq)
open scoped Idealize.SL.BI
open Idealize.SL.BI.BIBase Idealize.SL.BI.Laws Idealize.SL.Sem Idealize.SL.ProofMode
open Idealize.SL.RA

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {gr : Nat} {W : Nat} (win : Fin W → WinSpec sig gr) (c : Dev nD)

/-- The distinct buffers behind the windows' arrays, listed without repetition: `arrBufs` is the chain of their
    points-tos, each whole at the full share at the contents `V` gives it. -/
theorem arrBufs_eq_of_list (V : (b : Ref sig .tc) → Buf Val ((c.tc : Thread nD τ).loc b)) (l : List (Ref sig .tc))
    (h : Finset.univ.image (arrRef win) = l.toFinset) (hl : l.Nodup) :
    (arrBufs (Ix := Ix) (Name := Name) (U := U) (Lvl := Lvl) win c V : sProp 𝕄)
      = bigSepL l fun b => ((c.tc : Thread nD τ).loc b) ↦{fullShare} V b := by
  unfold arrBufs; exact bigSep_eq_bigSepL_of_eq l h hl _

/-- A buffer held whole at the full share is held twice at the two half shares, the contents the same: what two
    input windows reading one array each take of it. -/
theorem pointsTo_halves (ℓ : Loc nD τ sig) (f : Buf Val ℓ) :
    (ℓ ↦{fullShare} f : sProp 𝕄) ⊢ iprop((ℓ ↦{fullShare.left} f) ∗ ℓ ↦{fullShare.right} f) :=
  (pointsTo_share (PosShare.mem_left_op_right fullShare)).1

/-- The two halves make the whole again. -/
theorem pointsTo_halves_join (ℓ : Loc nD τ sig) (f : Buf Val ℓ) :
    iprop((ℓ ↦{fullShare.left} f) ∗ ℓ ↦{fullShare.right} f) ⊢ (ℓ ↦{fullShare} f : sProp 𝕄) :=
  (pointsTo_share (PosShare.mem_left_op_right fullShare)).2

end SharedArrays

end
-- ==== Proof.K.Run.lean ====
/-
  The run of the whole program: @main as four segments — the host lines before the first kernel, the message kernel's
  region, the host lines between, the update kernel's region — composed in order, each entered from the buffer
  contents the one before it left.

  The buffer contents at the four boundaries are a fold from the launch memory: after the first host lines every
  buffer holds what those lines compute; after the first region its output array holds what the write-backs of all
  128 grid points left and every other buffer is unchanged; after the second host lines, their results; after the
  second region only its output array has changed. The first region's windows read twelve distinct arrays. The second
  region reads the node states through TWO windows (each node's own block and its partner graph's block), so that
  array is one buffer behind two windows: at the region's entry it is dealt as two half shares, one per window, and
  at the exit the halves are joined again.

  The run ends with every unscoped buffer at the last boundary's contents; read at the result buffer this is the
  second region's written-back output, and at an argument buffer it is the launch contents, because no host line
  writes an argument and no region may change one. Everything here holds at any float instance.
-/
import proofs.«100937_j83021717831844_2_alg».proof.Proof.K.Region0
import proofs.«100937_j83021717831844_2_alg».proof.Proof.K.Region1
import proofs.«100937_j83021717831844_2_alg».proof.Proof.Gen.Kernel.Regions
import proofs.«100937_j83021717831844_2_alg».proof.Proof.LibArrBufs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The second region's arrays: one buffer behind two windows -/

section Shared
variable (V : (c : Dev nD) → (b : Ref sig .tc) → Buf (Elt F) ((c : Thread nD τ).loc b)) (c : Dev nD)

/-- The distinct buffers behind the second region's twelve windows: the node states once. -/
abbrev arrs1 : List (Ref sig .tc) := [main_arg0, main_v36, main_v37, main_v38, main_v39, main_v40, main_arg11, main_v41, main_arg13, main_v42, main_v43]
theorem arrs1_image : Finset.univ.image (Pipeline.arrRef spec1) = arrs1.toFinset := by decide
theorem arrs1_nodup : arrs1.Nodup := by decide

/-- The distinct buffers behind the region's arrays, each whole at the full share, one by one. -/
theorem arrBufs1_eq (V' : (b : Ref sig .tc) → Buf (Elt F) ((c : Thread nD τ).loc b)) :
    (Pipeline.arrBufs (Ix := Unit) (Name := ℕ) (U := UR sig nD τ) (Lvl := ℕ) (cfgs 1).spec c V' : sProp 𝕄)
      = iprop((((c : Thread nD τ).loc main_arg0) ↦{fullShare} V' main_arg0)
        ∗ (((c : Thread nD τ).loc main_v36) ↦{fullShare} V' main_v36) ∗ (((c : Thread nD τ).loc main_v37) ↦{fullShare} V' main_v37)
        ∗ (((c : Thread nD τ).loc main_v38) ↦{fullShare} V' main_v38) ∗ (((c : Thread nD τ).loc main_v39) ↦{fullShare} V' main_v39)
        ∗ (((c : Thread nD τ).loc main_v40) ↦{fullShare} V' main_v40) ∗ (((c : Thread nD τ).loc main_arg11) ↦{fullShare} V' main_arg11)
        ∗ (((c : Thread nD τ).loc main_v41) ↦{fullShare} V' main_v41) ∗ (((c : Thread nD τ).loc main_arg13) ↦{fullShare} V' main_arg13)
        ∗ (((c : Thread nD τ).loc main_v42) ↦{fullShare} V' main_v42) ∗ (((c : Thread nD τ).loc main_v43) ↦{fullShare} V' main_v43)) :=
  SharedArrays.arrBufs_eq_of_list (cfgs 1).spec c V' arrs1 arrs1_image arrs1_nodup

set_option backward.isDefEq.respectTransparency.types false in
/-- The region's arrays, window by window: the node states at the left half share for window 0 and at the right half
    share for window 1, every other array whole at the full share. -/
theorem arrays1_eq (G : (w : Fin cfg1.W) → Buf (Elt F) ((cfg1.win w).arr.view.loc (c.tc : Thread nD τ))) :
    ((dat1 V c).arrays G : sProp 𝕄)
      = iprop((((c : Thread nD τ).loc main_arg0) ↦{fullShare.left} G 0) ∗ (((c : Thread nD τ).loc main_arg0) ↦{fullShare.right} G 1)
        ∗ (((c : Thread nD τ).loc main_v36) ↦{fullShare} G 2) ∗ (((c : Thread nD τ).loc main_v37) ↦{fullShare} G 3)
        ∗ (((c : Thread nD τ).loc main_v38) ↦{fullShare} G 4) ∗ (((c : Thread nD τ).loc main_v39) ↦{fullShare} G 5)
        ∗ (((c : Thread nD τ).loc main_v40) ↦{fullShare} G 6) ∗ (((c : Thread nD τ).loc main_arg11) ↦{fullShare} G 7)
        ∗ (((c : Thread nD τ).loc main_v41) ↦{fullShare} G 8) ∗ (((c : Thread nD τ).loc main_arg13) ↦{fullShare} G 9)
        ∗ (((c : Thread nD τ).loc main_v42) ↦{fullShare} G 10) ∗ (((c : Thread nD τ).loc main_v43) ↦{fullShare} G 11)) := by
  unfold Dat.arrays
  refine (bigSep_congr (Ψ := fun w : Fin cfg1.W => ((cfg1.win w).arr.view.loc (c.tc : Thread nD τ)) ↦{(dat1 V c).share w} G w)
    fun w _ => by rw [(arr_whole1 w).set_eq_univ]).trans ?_
  rw [bigSep_W1]
  rfl

/-- Each input array is never written back: it ends as the region found it. -/
theorem kept1 (w : Fin cfg1.W) (hin : (cfg1.win w).isOut = false) : (dat1 V c).arrAt w cfg1.N = (dat1 V c).A w :=
  (dat1 V c).arrAt_in w hin cfg1.N

set_option backward.isDefEq.respectTransparency.types false in
/-- ENTRY: a core's unscoped buffers at the contents `V` are the region's arrays at their entry contents — the node
    states dealt as two half shares, one for each of the two windows reading them — and the buffers no window names. -/
theorem hsplit1 : (unscopedBufs c (V c) : sProp 𝕄)
    ⊢ iprop((dat1 V c).arrays ((dat1 V c).arrAt · 0) ∗ Pipeline.unscopedRest spec1 c (V c)) := by
  rw [Pipeline.unscopedBufs_split₀ (p := (1 : Fin 2)) cfgs (by decide) c (V c)]
  refine BIClass.sep_mono ?_ .rfl
  rw [arrBufs1_eq, arrays1_eq]
  iintro ⟨H0, H2, H3, H4, H5, H6, H7, H8, H9, H10, H11⟩
  ihave H01 := (SharedArrays.pointsTo_halves ((c : Thread nD τ).loc main_arg0) (V c main_arg0)) $$ H0
  icases H01 with ⟨Ha, Hb⟩
  isplitl [Ha]; · iexact Ha
  isplitl [Hb]; · iexact Hb
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 4000000 in
set_option backward.isDefEq.respectTransparency.types false in
/-- The region's arrays at ANY contents `G` that hold, window by window, what `V'` holds at the window's buffer — the two
    half shares of the node states joined — are the distinct buffers behind the arrays, whole at `V'`. -/
theorem arrays1_join (G : (w : Fin cfg1.W) → Buf (Elt F) ((cfg1.win w).arr.view.loc (c.tc : Thread nD τ)))
    (V' : (b : Ref sig .tc) → Buf (Elt F) ((c : Thread nD τ).loc b))
    (h0 : G 0 = V' main_arg0) (h1 : G 1 = V' main_arg0) (h2 : G 2 = V' main_v36) (h3 : G 3 = V' main_v37) (h4 : G 4 = V' main_v38)
    (h5 : G 5 = V' main_v39) (h6 : G 6 = V' main_v40) (h7 : G 7 = V' main_arg11) (h8 : G 8 = V' main_v41) (h9 : G 9 = V' main_arg13)
    (h10 : G 10 = V' main_v42) (h11 : G 11 = V' main_v43) :
    ((dat1 V c).arrays G : sProp 𝕄) ⊢ Pipeline.arrBufs (Ix := Unit) (Name := ℕ) (U := UR sig nD τ) (Lvl := ℕ) (cfgs 1).spec c V' := by
  have cv : ∀ {ℓ : Loc nD τ sig} (q : PosShare TreeShare) (f g : Buf (Elt F) ℓ), f = g → ((ℓ ↦{q} f : sProp 𝕄) ⊢ (ℓ ↦{q} g)) :=
    fun q f g h => h ▸ .rfl
  rw [arrBufs1_eq, arrays1_eq]
  iintro ⟨Ha, Hb, H2, H3, H4, H5, H6, H7, H8, H9, H10, H11⟩
  isplitl [Ha Hb]
  · iapply (SharedArrays.pointsTo_halves_join ((c : Thread nD τ).loc main_arg0) (V' main_arg0))
    isplitl [Ha]
    · iapply (cv fullShare.left _ _ h0); iexact Ha
    · iapply (cv fullShare.right _ _ h1); iexact Hb
  isplitl [H2]; · iapply (cv fullShare _ _ h2); iexact H2
  isplitl [H3]; · iapply (cv fullShare _ _ h3); iexact H3
  isplitl [H4]; · iapply (cv fullShare _ _ h4); iexact H4
  isplitl [H5]; · iapply (cv fullShare _ _ h5); iexact H5
  isplitl [H6]; · iapply (cv fullShare _ _ h6); iexact H6
  isplitl [H7]; · iapply (cv fullShare _ _ h7); iexact H7
  isplitl [H8]; · iapply (cv fullShare _ _ h8); iexact H8
  isplitl [H9]; · iapply (cv fullShare _ _ h9); iexact H9
  isplitl [H10]; · iapply (cv fullShare _ _ h10); iexact H10
  iapply (cv fullShare _ _ h11); iexact H11

set_option backward.isDefEq.respectTransparency.types false in
/-- EXIT: the region's arrays at their final contents — every input as entered, the output at what the write-backs
    left — and the buffers no window names make the core's unscoped buffers at contents `V'` that agree with `V` off the
    output array and hold the written-back output there. -/
theorem hjoin1 (V' : (b : Ref sig .tc) → Buf (Elt F) ((c : Thread nD τ).loc b))
    (hout : V' main_v43 = (dat1 V c).arrAt 11 cfg1.N) (hne : ∀ b, b ≠ main_v43 → V' b = V c b) :
    iprop((dat1 V c).arrays ((dat1 V c).arrAt · cfg1.N) ∗ Pipeline.unscopedRest spec1 c (V c))
      ⊢ (unscopedBufs c V' : sProp 𝕄) := by
  rw [Pipeline.unscopedBufs_split₀ (p := (1 : Fin 2)) cfgs (by decide) c V']
  refine BIClass.sep_mono ?_ ?_
  · exact arrays1_join V c (fun w => (dat1 V c).arrAt w cfg1.N) V'
      ((kept1 V c 0 rfl).trans (hne main_arg0 (by decide)).symm) ((kept1 V c 1 rfl).trans (hne main_arg0 (by decide)).symm)
      ((kept1 V c 2 rfl).trans (hne main_v36 (by decide)).symm) ((kept1 V c 3 rfl).trans (hne main_v37 (by decide)).symm)
      ((kept1 V c 4 rfl).trans (hne main_v38 (by decide)).symm) ((kept1 V c 5 rfl).trans (hne main_v39 (by decide)).symm)
      ((kept1 V c 6 rfl).trans (hne main_v40 (by decide)).symm) ((kept1 V c 7 rfl).trans (hne main_arg11 (by decide)).symm)
      ((kept1 V c 8 rfl).trans (hne main_v41 (by decide)).symm) ((kept1 V c 9 rfl).trans (hne main_arg13 (by decide)).symm)
      ((kept1 V c 10 rfl).trans (hne main_v42 (by decide)).symm) hout.symm
  · unfold Pipeline.unscopedRest
    exact Entails.of_eq (bigSep_congr fun b hb => by
      rw [hne b fun h => (Finset.mem_sdiff.mp hb).2 (h ▸ (by decide : main_v43 ∈ Finset.univ.image (Pipeline.arrRef spec1)))])
end Shared

variable (m : (ℓ : Loc nD τ sig) → Buf (Elt F) ℓ) (ρ : Dev nD → PrngReg)

/-! ## The buffer contents at each boundary of @main -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second region only its output array has changed. -/
def W4 (c : Dev nD) : Valuation τ sig (Elt F) :=
  Function.update (W3 m ρ c) (Proc.devRef .tc main_v43) ((dat1 (V3 m ρ) c).arrAt 11 cfg1.N)
abbrev V4 : (c : Dev nD) → (b : Ref sig .tc) → Buf (Elt F) ((c : Thread nD τ).loc b) := fun c b => W4 m ρ c b
theorem W4_out (c : Dev nD) : W4 m ρ c (Proc.devRef .tc main_v43) = (dat1 (V3 m ρ) c).arrAt 11 cfg1.N := by
  unfold W4; exact Function.update_self ..
theorem W4_of_ne (c : Dev nD) (b : Ref sig .tc) (hb : b ≠ main_v43) :
    W4 m ρ c (Proc.devRef .tc b) = W3 m ρ c (Proc.devRef .tc b) := by
  unfold W4; exact Function.update_of_ne (StableHlo.devRef_ne_of_ne hb) ..

/-! ## The proof data family and the thread states -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The first region: its arrays are distinct buffers -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region: windows 0 and 1 both read the node states -/

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs c (V3 m ρ c) : sProp 𝕄)
        ⊢ iprop((pdats m ρ 1 c).arrays ((pdats m ρ 1 c).arrAt · 0) ∗ Pipeline.unscopedRest spec1 c (V3 m ρ c)) := hsplit1 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V3 m ρ c))
        ⊢ (unscopedBufs c (V4 m ρ c) : sProp 𝕄) :=
      hjoin1 (V3 m ρ) c (V4 m ρ c) (W4_out m ρ c) (fun b hb => W4_of_ne m ρ c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main terminates, faults nowhere, and ends with every unscoped buffer of every
    core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## What the run leaves: the arguments as launched, the result at the second region's write-backs -/

/-- A buffer that no host line writes and no region may change ends as launched. -/
theorem W4_arg (c : Dev nD) (r : Ref sig .tc) (h4 : r ≠ main_v43) (h3 : r ∉ hostOps1_W) (h2 : ∀ w, Pipeline.arrRef spec0 w ≠ r)
    (h1 : r ∉ hostOps0_W) : W4 m ρ c (Proc.devRef .tc r) = m ((c : Thread nD τ).loc r) :=
  (W4_of_ne m ρ c r h4).trans <| (StableHlo.after_of_writes_sub hostOps1 _ hostOps1_writes h3).trans <|
    (W2_of_ne m ρ c r h2).trans <| (StableHlo.after_of_writes_sub hostOps0 _ hostOps0_writes h1).trans rfl

/-- The run, read at the result and at the fifteen arguments. -/
theorem run_main : θ_run defs (onTc (τ := τ) (main (F := F))) ⟨m, fun _ => 0, ρ⟩ (fun r => ∀ c : Dev nD,
      r.2.mem ((c.tc : Thread nD τ).loc main_v43) = (dat1 (V3 m ρ) c).arrAt 11 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_v43 (by decide))).trans (W4_out m ρ c),
     (h c _ (mem_uc main_arg0 (by decide))).trans (W4_arg m ρ c main_arg0 (by decide) (by decide) (by decide) (by decide)),
     (h c _ (mem_uc main_arg1 (by decide))).trans (W4_arg m ρ c main_arg1 (by decide) (by decide) (by decide) (by decide)),
     (h c _ (mem_uc main_arg2 (by decide))).trans (W4_arg m ρ c main_arg2 (by decide) (by decide) (by decide) (by decide)),
     (h c _ (mem_uc main_arg3 (by decide))).trans (W4_arg m ρ c main_arg3 (by decide) (by decide) (by decide) (by decide)),
     (h c _ (mem_uc main_arg4 (by decide))).trans (W4_arg m ρ c main_arg4 (by decide) (by decide) (by decide) (by decide)),
     (h c _ (mem_uc main_arg5 (by decide))).trans (W4_arg m ρ c main_arg5 (by decide) (by decide) (by decide) (by decide)),
     (h c _ (mem_uc main_arg6 (by decide))).trans (W4_arg m ρ c main_arg6 (by decide) (by decide) (by decide) (by decide)),
     (h c _ (mem_uc main_arg7 (by decide))).trans (W4_arg m ρ c main_arg7 (by decide) (by decide) (by decide) (by decide)),
     (h c _ (mem_uc main_arg8 (by decide))).trans (W4_arg m ρ c main_arg8 (by decide) (by decide) (by decide) (by decide)),
     (h c _ (mem_uc main_arg9 (by decide))).trans (W4_arg m ρ c main_arg9 (by decide) (by decide) (by decide) (by decide)),
     (h c _ (mem_uc main_arg10 (by decide))).trans (W4_arg m ρ c main_arg10 (by decide) (by decide) (by decide) (by decide)),
     (h c _ (mem_uc main_arg11 (by decide))).trans (W4_arg m ρ c main_arg11 (by decide) (by decide) (by decide) (by decide)),
     (h c _ (mem_uc main_arg12 (by decide))).trans (W4_arg m ρ c main_arg12 (by decide) (by decide) (by decide) (by decide)),
     (h c _ (mem_uc main_arg13 (by decide))).trans (W4_arg m ρ c main_arg13 (by decide) (by decide) (by decide) (by decide)),
     (h c _ (mem_uc main_arg14 (by decide))).trans (W4_arg m ρ c main_arg14 (by decide) (by decide) (by decide) (by decide))⟩)
    (run_all m ρ)

end Cert.Kernel.Hand

end
-- ==== Proof.KI.Region0.lean ====
/- The region-local half of the frame of pallas_call 0 (`cc0__message_kernel`), at any float instance and at any
   contents `V` of the TensorCore's buffers when the region is entered: each window's block at a grid point,
   what the body leaves in the output window's staging buffer as ONE pure term of its eleven loads, the body's
   triple, the proof data of the pipeline, and the body obligation at every point. -/
import proofs.«100937_j83021717831844_2_alg».proof.Proof.Gen.KernelIdeal.Launch
import proofs.«100937_j83021717831844_2_alg».proof.Proof.Gen.KernelIdeal.Skeleton
import proofs.«100937_j83021717831844_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not: where the
    pipeline does not fetch, the block index has not moved, and the body leaves every input block in place. Stated
    for ANY proof data whose array is `V`'s and whose body leaves the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The zero offsets of a whole-buffer rectangle of rank two. -/
theorem off_zero2 : (![0, 0] : Fin 2 → Nat) = fun _ => 0 := funext fun a => by fin_cases a <;> rfl

/-- What the body stores, as ONE pure term of its eleven loads (a load of the whole rectangle is the identity). -/
def out0 (x0 : Vec F S4096x128 .bf16) (x1 : Vec F S4096x128 .bf16) (x2 : Vec F S4096x64 .bf16) (x3 : Vec F S128x256 .bf16) (x4 : Vec F S128x256 .bf16) (x5 : Vec F S64x256 .bf16) (x6 : Vec F S1x256 .f32) (x7 : Vec F S256x256 .bf16) (x8 : Vec F S1x256 .f32) (x9 : Vec F S256x128 .bf16) (x10 : Vec F S1x128 .f32) : Vec F S4096x128 .f32 :=
  k0_pay1 (k0_pay2 x0 x1 x2 x3 x4 x5 x6 x7 x8) x9 x10

/-- The one store covers the output buffer. -/
theorem cover0 (p0 : Vec F S4096x128 .f32) (y : S4096x128.Idx) :
    ∃ pc ∈ ([⟨Rect.unit (s := S4096x128) ![0, 0] S4096x128.size inb_S4096x128_S4096x128_0_0, p0⟩] : List (View.Piece (Elt F) S4096x128 .f32)), y ∈ pc.1.set :=
  ⟨_, List.mem_singleton_self _, View.mem_set_unit_zero off_zero2 inb_S4096x128_S4096x128_0_0 y⟩

/-! ## The body's triple -/

set_option maxHeartbeats 4000000 in
/-- The body on whole staging memrefs, the inputs' at read contents `xW` and the output's at anything (the body
    loads it once, unused, before storing), runs to the continuation holding the inputs' as they were and the output's
    at `out0` of the inputs'. -/
theorem sound_kernel0 (c : Dev nD) (E : Set ℕ) (i : grid0.Coords) (a0 : Memref sig .tc .vmem S4096x128 .bf16) (ha0 : a0.IsWhole) (a1 : Memref sig .tc .vmem S4096x128 .bf16) (ha1 : a1.IsWhole) (a2 : Memref sig .tc .vmem S4096x64 .bf16) (ha2 : a2.IsWhole) (a3 : Memref sig .tc .vmem S128x256 .bf16) (ha3 : a3.IsWhole) (a4 : Memref sig .tc .vmem S128x256 .bf16) (ha4 : a4.IsWhole) (a5 : Memref sig .tc .vmem S64x256 .bf16) (ha5 : a5.IsWhole) (a6 : Memref sig .tc .vmem S1x256 .f32) (ha6 : a6.IsWhole) (a7 : Memref sig .tc .vmem S256x256 .bf16) (ha7 : a7.IsWhole) (a8 : Memref sig .tc .vmem S1x256 .f32) (ha8 : a8.IsWhole) (a9 : Memref sig .tc .vmem S256x128 .bf16) (ha9 : a9.IsWhole) (a10 : Memref sig .tc .vmem S1x128 .f32) (ha10 : a10.IsWhole) (a11 : Memref sig .tc .vmem S4096x128 .f32) (ha11 : a11.IsWhole)
    (x0 : Vec F S4096x128 .bf16) (x1 : Vec F S4096x128 .bf16) (x2 : Vec F S4096x64 .bf16) (x3 : Vec F S128x256 .bf16) (x4 : Vec F S128x256 .bf16) (x5 : Vec F S64x256 .bf16) (x6 : Vec F S1x256 .f32) (x7 : Vec F S256x256 .bf16) (x8 : Vec F S1x256 .f32) (x9 : Vec F S256x128 .bf16) (x10 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare (out0 x0 x1 x2 x3 x4 x5 x6 x7 x8 x9 x10)) -∗ K ⟨⟩))
      ⊢ wp frame (wpE (defs₀ (F := F)) Variants.none c none) E (cc0__message_kernel i a0 ha0 a1 ha1 a2 ha2 a3 ha3 a4 ha4 a5 ha5 a6 ha6 a7 ha7 a8 ha8 a9 ha9 a10 ha10 a11 ha11) K := by
  simp only [cc0__message_kernel_eq_skeleton]; unfold cc0__message_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0; subst hf1; subst hf2; subst hf3; subst hf4; subst hf5; subst hf6; subst hf7; subst hf8; subst hf9; subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  refine (View.read_writes_eq_canon _ _ _ (cover0 _)).trans ?_
  rw [View.canon_unit_zero off_zero2]
  simp only [View.readAt_eq_ld]
  simp only [View.ld_unit_zero (S := S4096x128) off_zero2, View.ld_unit_zero (S := S4096x64) off_zero2, View.ld_unit_zero (S := S128x256) off_zero2, View.ld_unit_zero (S := S64x256) off_zero2, View.ld_unit_zero (S := S1x256) off_zero2, View.ld_unit_zero (S := S256x256) off_zero2, View.ld_unit_zero (S := S256x128) off_zero2, View.ld_unit_zero (S := S1x128) off_zero2]
  rfl

/-! ## The pipeline's proof data -/

/-- The proof data of pipeline 0 on core `c`: the arrays as the region finds them; after the body at point `t` each
    input's buffer at its block and the output's at `out0` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 2000000 in
/-- The body at any point: the inputs' memrefs hold their blocks, so the triple applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Region1.lean ====
/- The region-local half of the frame of pallas_call 1 (`cc1__update_kernel`), at any float instance and at any
   contents `V` of the TensorCore's buffers when the region is entered: each window's block at a grid point,
   what the body leaves in the output window's staging buffer as ONE pure term of its eleven loads, the body's
   triple, the proof data of the pipeline, and the body obligation at every point. -/
import proofs.«100937_j83021717831844_2_alg».proof.Proof.Gen.KernelIdeal.Launch
import proofs.«100937_j83021717831844_2_alg».proof.Proof.Gen.KernelIdeal.Skeleton
import proofs.«100937_j83021717831844_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not: where the
    pipeline does not fetch, the block index has not moved, and the body leaves every input block in place. Stated
    for ANY proof data whose array is `V`'s and whose body leaves the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- The zero offsets of a whole-buffer rectangle of rank two. -/
theorem off_zero2 : (![0, 0] : Fin 2 → Nat) = fun _ => 0 := funext fun a => by fin_cases a <;> rfl

/-- What the body stores, as ONE pure term of its eleven loads (a load of the whole rectangle is the identity). -/
def out1 (x0 : Vec F S2048x128 .f32) (x1 : Vec F S2048x128 .f32) (x2 : Vec F S2048x128 .f32) (x3 : Vec F S128x256 .f32) (x4 : Vec F S128x256 .f32) (x5 : Vec F S128x256 .f32) (x6 : Vec F S1x256 .f32) (x7 : Vec F S256x256 .f32) (x8 : Vec F S1x256 .f32) (x9 : Vec F S256x128 .f32) (x10 : Vec F S1x128 .f32) : Vec F S2048x128 .f32 :=
  k1_pay1 (k1_pay2 x0 x1 x2 x3 x4 x5 x6 x7 x8) x9 x10

/-- The one store covers the output buffer. -/
theorem cover1 (p0 : Vec F S2048x128 .f32) (y : S2048x128.Idx) :
    ∃ pc ∈ ([⟨Rect.unit (s := S2048x128) ![0, 0] S2048x128.size inb_S2048x128_S2048x128_0_0, p0⟩] : List (View.Piece (Elt F) S2048x128 .f32)), y ∈ pc.1.set :=
  ⟨_, List.mem_singleton_self _, View.mem_set_unit_zero off_zero2 inb_S2048x128_S2048x128_0_0 y⟩

/-! ## The body's triple -/

set_option maxHeartbeats 4000000 in
/-- The body on whole staging memrefs, the inputs' at read contents `xW` and the output's at anything (the body
    loads it once, unused, before storing), runs to the continuation holding the inputs' as they were and the output's
    at `out1` of the inputs'. -/
theorem sound_kernel1 (c : Dev nD) (E : Set ℕ) (i : grid1.Coords) (a0 : Memref sig .tc .vmem S2048x128 .f32) (ha0 : a0.IsWhole) (a1 : Memref sig .tc .vmem S2048x128 .f32) (ha1 : a1.IsWhole) (a2 : Memref sig .tc .vmem S2048x128 .f32) (ha2 : a2.IsWhole) (a3 : Memref sig .tc .vmem S128x256 .f32) (ha3 : a3.IsWhole) (a4 : Memref sig .tc .vmem S128x256 .f32) (ha4 : a4.IsWhole) (a5 : Memref sig .tc .vmem S128x256 .f32) (ha5 : a5.IsWhole) (a6 : Memref sig .tc .vmem S1x256 .f32) (ha6 : a6.IsWhole) (a7 : Memref sig .tc .vmem S256x256 .f32) (ha7 : a7.IsWhole) (a8 : Memref sig .tc .vmem S1x256 .f32) (ha8 : a8.IsWhole) (a9 : Memref sig .tc .vmem S256x128 .f32) (ha9 : a9.IsWhole) (a10 : Memref sig .tc .vmem S1x128 .f32) (ha10 : a10.IsWhole) (a11 : Memref sig .tc .vmem S2048x128 .f32) (ha11 : a11.IsWhole)
    (x0 : Vec F S2048x128 .f32) (x1 : Vec F S2048x128 .f32) (x2 : Vec F S2048x128 .f32) (x3 : Vec F S128x256 .f32) (x4 : Vec F S128x256 .f32) (x5 : Vec F S128x256 .f32) (x6 : Vec F S1x256 .f32) (x7 : Vec F S256x256 .f32) (x8 : Vec F S1x256 .f32) (x9 : Vec F S256x128 .f32) (x10 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare (out1 x0 x1 x2 x3 x4 x5 x6 x7 x8 x9 x10)) -∗ K ⟨⟩))
      ⊢ wp frame (wpE (defs₀ (F := F)) Variants.none c none) E (cc1__update_kernel i a0 ha0 a1 ha1 a2 ha2 a3 ha3 a4 ha4 a5 ha5 a6 ha6 a7 ha7 a8 ha8 a9 ha9 a10 ha10 a11 ha11) K := by
  simp only [cc1__update_kernel_eq_skeleton]; unfold cc1__update_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0; subst hf1; subst hf2; subst hf3; subst hf4; subst hf5; subst hf6; subst hf7; subst hf8; subst hf9; subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  refine (View.read_writes_eq_canon _ _ _ (cover1 _)).trans ?_
  rw [View.canon_unit_zero off_zero2]
  simp only [View.readAt_eq_ld]
  simp only [View.ld_unit_zero (S := S2048x128) off_zero2, View.ld_unit_zero (S := S128x256) off_zero2, View.ld_unit_zero (S := S1x256) off_zero2, View.ld_unit_zero (S := S256x256) off_zero2, View.ld_unit_zero (S := S256x128) off_zero2, View.ld_unit_zero (S := S1x128) off_zero2]
  rfl

/-! ## The pipeline's proof data -/

/-- The proof data of pipeline 1 on core `c`: the arrays as the region finds them; after the body at point `t` each
    input's buffer at its block and the output's at `out1` of the input blocks; the invariant the scoped rest and the
    generator register, untouched; nothing owed; the two windows on the first argument array each hold it at a half share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = out1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

set_option maxHeartbeats 2000000 in
/-- The body at any point: the inputs' memrefs hold their blocks, so the triple applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Run.lean ====
/-
  The run of the whole program: @main as four segments — the host lines before the first kernel, the message kernel's
  region, the host lines between, the update kernel's region — composed in order, each entered from the buffer
  contents the one before it left.

  The buffer contents at the four boundaries are a fold from the launch memory: after the first host lines every
  buffer holds what those lines compute; after the first region its output array holds what the write-backs of all
  128 grid points left and every other buffer is unchanged; after the second host lines, their results; after the
  second region only its output array has changed. The first region's windows read twelve distinct arrays. The second
  region reads the node states through TWO windows (each node's own block and its partner graph's block), so that
  array is one buffer behind two windows: at the region's entry it is dealt as two half shares, one per window, and
  at the exit the halves are joined again.

  The run ends with every unscoped buffer at the last boundary's contents; read at the result buffer this is the
  second region's written-back output, and at an argument buffer it is the launch contents, because no host line
  writes an argument and no region may change one. Everything here holds at any float instance.
-/
import proofs.«100937_j83021717831844_2_alg».proof.Proof.KI.Region0
import proofs.«100937_j83021717831844_2_alg».proof.Proof.KI.Region1
import proofs.«100937_j83021717831844_2_alg».proof.Proof.Gen.KernelIdeal.Regions
import proofs.«100937_j83021717831844_2_alg».proof.Proof.LibArrBufs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The second region's arrays: one buffer behind two windows -/

section Shared
variable (V : (c : Dev nD) → (b : Ref sig .tc) → Buf (Elt F) ((c : Thread nD τ).loc b)) (c : Dev nD)

/-- The distinct buffers behind the second region's twelve windows: the node states once. -/
abbrev arrs1 : List (Ref sig .tc) := [main_arg0, main_v36, main_v37, main_v38, main_v39, main_v40, main_arg11, main_v41, main_arg13, main_v42, main_v43]
theorem arrs1_image : Finset.univ.image (Pipeline.arrRef spec1) = arrs1.toFinset := by decide
theorem arrs1_nodup : arrs1.Nodup := by decide

/-- The distinct buffers behind the region's arrays, each whole at the full share, one by one. -/
theorem arrBufs1_eq (V' : (b : Ref sig .tc) → Buf (Elt F) ((c : Thread nD τ).loc b)) :
    (Pipeline.arrBufs (Ix := Unit) (Name := ℕ) (U := UR sig nD τ) (Lvl := ℕ) (cfgs 1).spec c V' : sProp 𝕄)
      = iprop((((c : Thread nD τ).loc main_arg0) ↦{fullShare} V' main_arg0)
        ∗ (((c : Thread nD τ).loc main_v36) ↦{fullShare} V' main_v36) ∗ (((c : Thread nD τ).loc main_v37) ↦{fullShare} V' main_v37)
        ∗ (((c : Thread nD τ).loc main_v38) ↦{fullShare} V' main_v38) ∗ (((c : Thread nD τ).loc main_v39) ↦{fullShare} V' main_v39)
        ∗ (((c : Thread nD τ).loc main_v40) ↦{fullShare} V' main_v40) ∗ (((c : Thread nD τ).loc main_arg11) ↦{fullShare} V' main_arg11)
        ∗ (((c : Thread nD τ).loc main_v41) ↦{fullShare} V' main_v41) ∗ (((c : Thread nD τ).loc main_arg13) ↦{fullShare} V' main_arg13)
        ∗ (((c : Thread nD τ).loc main_v42) ↦{fullShare} V' main_v42) ∗ (((c : Thread nD τ).loc main_v43) ↦{fullShare} V' main_v43)) :=
  SharedArrays.arrBufs_eq_of_list (cfgs 1).spec c V' arrs1 arrs1_image arrs1_nodup

set_option backward.isDefEq.respectTransparency.types false in
/-- The region's arrays, window by window: the node states at the left half share for window 0 and at the right half
    share for window 1, every other array whole at the full share. -/
theorem arrays1_eq (G : (w : Fin cfg1.W) → Buf (Elt F) ((cfg1.win w).arr.view.loc (c.tc : Thread nD τ))) :
    ((dat1 V c).arrays G : sProp 𝕄)
      = iprop((((c : Thread nD τ).loc main_arg0) ↦{fullShare.left} G 0) ∗ (((c : Thread nD τ).loc main_arg0) ↦{fullShare.right} G 1)
        ∗ (((c : Thread nD τ).loc main_v36) ↦{fullShare} G 2) ∗ (((c : Thread nD τ).loc main_v37) ↦{fullShare} G 3)
        ∗ (((c : Thread nD τ).loc main_v38) ↦{fullShare} G 4) ∗ (((c : Thread nD τ).loc main_v39) ↦{fullShare} G 5)
        ∗ (((c : Thread nD τ).loc main_v40) ↦{fullShare} G 6) ∗ (((c : Thread nD τ).loc main_arg11) ↦{fullShare} G 7)
        ∗ (((c : Thread nD τ).loc main_v41) ↦{fullShare} G 8) ∗ (((c : Thread nD τ).loc main_arg13) ↦{fullShare} G 9)
        ∗ (((c : Thread nD τ).loc main_v42) ↦{fullShare} G 10) ∗ (((c : Thread nD τ).loc main_v43) ↦{fullShare} G 11)) := by
  unfold Dat.arrays
  refine (bigSep_congr (Ψ := fun w : Fin cfg1.W => ((cfg1.win w).arr.view.loc (c.tc : Thread nD τ)) ↦{(dat1 V c).share w} G w)
    fun w _ => by rw [(arr_whole1 w).set_eq_univ]).trans ?_
  rw [bigSep_W1]
  rfl

/-- Each input array is never written back: it ends as the region found it. -/
theorem kept1 (w : Fin cfg1.W) (hin : (cfg1.win w).isOut = false) : (dat1 V c).arrAt w cfg1.N = (dat1 V c).A w :=
  (dat1 V c).arrAt_in w hin cfg1.N

set_option backward.isDefEq.respectTransparency.types false in
/-- ENTRY: a core's unscoped buffers at the contents `V` are the region's arrays at their entry contents — the node
    states dealt as two half shares, one for each of the two windows reading them — and the buffers no window names. -/
theorem hsplit1 : (unscopedBufs c (V c) : sProp 𝕄)
    ⊢ iprop((dat1 V c).arrays ((dat1 V c).arrAt · 0) ∗ Pipeline.unscopedRest spec1 c (V c)) := by
  rw [Pipeline.unscopedBufs_split₀ (p := (1 : Fin 2)) cfgs (by decide) c (V c)]
  refine BIClass.sep_mono ?_ .rfl
  rw [arrBufs1_eq, arrays1_eq]
  iintro ⟨H0, H2, H3, H4, H5, H6, H7, H8, H9, H10, H11⟩
  ihave H01 := (SharedArrays.pointsTo_halves ((c : Thread nD τ).loc main_arg0) (V c main_arg0)) $$ H0
  icases H01 with ⟨Ha, Hb⟩
  isplitl [Ha]; · iexact Ha
  isplitl [Hb]; · iexact Hb
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option maxHeartbeats 4000000 in
set_option backward.isDefEq.respectTransparency.types false in
/-- The region's arrays at ANY contents `G` that hold, window by window, what `V'` holds at the window's buffer — the two
    half shares of the node states joined — are the distinct buffers behind the arrays, whole at `V'`. -/
theorem arrays1_join (G : (w : Fin cfg1.W) → Buf (Elt F) ((cfg1.win w).arr.view.loc (c.tc : Thread nD τ)))
    (V' : (b : Ref sig .tc) → Buf (Elt F) ((c : Thread nD τ).loc b))
    (h0 : G 0 = V' main_arg0) (h1 : G 1 = V' main_arg0) (h2 : G 2 = V' main_v36) (h3 : G 3 = V' main_v37) (h4 : G 4 = V' main_v38)
    (h5 : G 5 = V' main_v39) (h6 : G 6 = V' main_v40) (h7 : G 7 = V' main_arg11) (h8 : G 8 = V' main_v41) (h9 : G 9 = V' main_arg13)
    (h10 : G 10 = V' main_v42) (h11 : G 11 = V' main_v43) :
    ((dat1 V c).arrays G : sProp 𝕄) ⊢ Pipeline.arrBufs (Ix := Unit) (Name := ℕ) (U := UR sig nD τ) (Lvl := ℕ) (cfgs 1).spec c V' := by
  have cv : ∀ {ℓ : Loc nD τ sig} (q : PosShare TreeShare) (f g : Buf (Elt F) ℓ), f = g → ((ℓ ↦{q} f : sProp 𝕄) ⊢ (ℓ ↦{q} g)) :=
    fun q f g h => h ▸ .rfl
  rw [arrBufs1_eq, arrays1_eq]
  iintro ⟨Ha, Hb, H2, H3, H4, H5, H6, H7, H8, H9, H10, H11⟩
  isplitl [Ha Hb]
  · iapply (SharedArrays.pointsTo_halves_join ((c : Thread nD τ).loc main_arg0) (V' main_arg0))
    isplitl [Ha]
    · iapply (cv fullShare.left _ _ h0); iexact Ha
    · iapply (cv fullShare.right _ _ h1); iexact Hb
  isplitl [H2]; · iapply (cv fullShare _ _ h2); iexact H2
  isplitl [H3]; · iapply (cv fullShare _ _ h3); iexact H3
  isplitl [H4]; · iapply (cv fullShare _ _ h4); iexact H4
  isplitl [H5]; · iapply (cv fullShare _ _ h5); iexact H5
  isplitl [H6]; · iapply (cv fullShare _ _ h6); iexact H6
  isplitl [H7]; · iapply (cv fullShare _ _ h7); iexact H7
  isplitl [H8]; · iapply (cv fullShare _ _ h8); iexact H8
  isplitl [H9]; · iapply (cv fullShare _ _ h9); iexact H9
  isplitl [H10]; · iapply (cv fullShare _ _ h10); iexact H10
  iapply (cv fullShare _ _ h11); iexact H11

set_option backward.isDefEq.respectTransparency.types false in
/-- EXIT: the region's arrays at their final contents — every input as entered, the output at what the write-backs
    left — and the buffers no window names make the core's unscoped buffers at contents `V'` that agree with `V` off the
    output array and hold the written-back output there. -/
theorem hjoin1 (V' : (b : Ref sig .tc) → Buf (Elt F) ((c : Thread nD τ).loc b))
    (hout : V' main_v43 = (dat1 V c).arrAt 11 cfg1.N) (hne : ∀ b, b ≠ main_v43 → V' b = V c b) :
    iprop((dat1 V c).arrays ((dat1 V c).arrAt · cfg1.N) ∗ Pipeline.unscopedRest spec1 c (V c))
      ⊢ (unscopedBufs c V' : sProp 𝕄) := by
  rw [Pipeline.unscopedBufs_split₀ (p := (1 : Fin 2)) cfgs (by decide) c V']
  refine BIClass.sep_mono ?_ ?_
  · exact arrays1_join V c (fun w => (dat1 V c).arrAt w cfg1.N) V'
      ((kept1 V c 0 rfl).trans (hne main_arg0 (by decide)).symm) ((kept1 V c 1 rfl).trans (hne main_arg0 (by decide)).symm)
      ((kept1 V c 2 rfl).trans (hne main_v36 (by decide)).symm) ((kept1 V c 3 rfl).trans (hne main_v37 (by decide)).symm)
      ((kept1 V c 4 rfl).trans (hne main_v38 (by decide)).symm) ((kept1 V c 5 rfl).trans (hne main_v39 (by decide)).symm)
      ((kept1 V c 6 rfl).trans (hne main_v40 (by decide)).symm) ((kept1 V c 7 rfl).trans (hne main_arg11 (by decide)).symm)
      ((kept1 V c 8 rfl).trans (hne main_v41 (by decide)).symm) ((kept1 V c 9 rfl).trans (hne main_arg13 (by decide)).symm)
      ((kept1 V c 10 rfl).trans (hne main_v42 (by decide)).symm) hout.symm
  · unfold Pipeline.unscopedRest
    exact Entails.of_eq (bigSep_congr fun b hb => by
      rw [hne b fun h => (Finset.mem_sdiff.mp hb).2 (h ▸ (by decide : main_v43 ∈ Finset.univ.image (Pipeline.arrRef spec1)))])
end Shared

variable (m : (ℓ : Loc nD τ sig) → Buf (Elt F) ℓ) (ρ : Dev nD → PrngReg)

/-! ## The buffer contents at each boundary of @main -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second region only its output array has changed. -/
def W4 (c : Dev nD) : Valuation τ sig (Elt F) :=
  Function.update (W3 m ρ c) (Proc.devRef .tc main_v43) ((dat1 (V3 m ρ) c).arrAt 11 cfg1.N)
abbrev V4 : (c : Dev nD) → (b : Ref sig .tc) → Buf (Elt F) ((c : Thread nD τ).loc b) := fun c b => W4 m ρ c b
theorem W4_out (c : Dev nD) : W4 m ρ c (Proc.devRef .tc main_v43) = (dat1 (V3 m ρ) c).arrAt 11 cfg1.N := by
  unfold W4; exact Function.update_self ..
theorem W4_of_ne (c : Dev nD) (b : Ref sig .tc) (hb : b ≠ main_v43) :
    W4 m ρ c (Proc.devRef .tc b) = W3 m ρ c (Proc.devRef .tc b) := by
  unfold W4; exact Function.update_of_ne (StableHlo.devRef_ne_of_ne hb) ..

/-! ## The proof data family and the thread states -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The first region: its arrays are distinct buffers -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region: windows 0 and 1 both read the node states -/

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs c (V3 m ρ c) : sProp 𝕄)
        ⊢ iprop((pdats m ρ 1 c).arrays ((pdats m ρ 1 c).arrAt · 0) ∗ Pipeline.unscopedRest spec1 c (V3 m ρ c)) := hsplit1 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V3 m ρ c))
        ⊢ (unscopedBufs c (V4 m ρ c) : sProp 𝕄) :=
      hjoin1 (V3 m ρ) c (V4 m ρ c) (W4_out m ρ c) (fun b hb => W4_of_ne m ρ c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main terminates, faults nowhere, and ends with every unscoped buffer of every
    core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## What the run leaves: the arguments as launched, the result at the second region's write-backs -/

/-- A buffer that no host line writes and no region may change ends as launched. -/
theorem W4_arg (c : Dev nD) (r : Ref sig .tc) (h4 : r ≠ main_v43) (h3 : r ∉ hostOps1_W) (h2 : ∀ w, Pipeline.arrRef spec0 w ≠ r)
    (h1 : r ∉ hostOps0_W) : W4 m ρ c (Proc.devRef .tc r) = m ((c : Thread nD τ).loc r) :=
  (W4_of_ne m ρ c r h4).trans <| (StableHlo.after_of_writes_sub hostOps1 _ hostOps1_writes h3).trans <|
    (W2_of_ne m ρ c r h2).trans <| (StableHlo.after_of_writes_sub hostOps0 _ hostOps0_writes h1).trans rfl

/-- The run, read at the result and at the fifteen arguments. -/
theorem run_main : θ_run defs (onTc (τ := τ) (main (F := F))) ⟨m, fun _ => 0, ρ⟩ (fun r => ∀ c : Dev nD,
      r.2.mem ((c.tc : Thread nD τ).loc main_v43) = (dat1 (V3 m ρ) c).arrAt 11 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_v43 (by decide))).trans (W4_out m ρ c),
     (h c _ (mem_uc main_arg0 (by decide))).trans (W4_arg m ρ c main_arg0 (by decide) (by decide) (by decide) (by decide)),
     (h c _ (mem_uc main_arg1 (by decide))).trans (W4_arg m ρ c main_arg1 (by decide) (by decide) (by decide) (by decide)),
     (h c _ (mem_uc main_arg2 (by decide))).trans (W4_arg m ρ c main_arg2 (by decide) (by decide) (by decide) (by decide)),
     (h c _ (mem_uc main_arg3 (by decide))).trans (W4_arg m ρ c main_arg3 (by decide) (by decide) (by decide) (by decide)),
     (h c _ (mem_uc main_arg4 (by decide))).trans (W4_arg m ρ c main_arg4 (by decide) (by decide) (by decide) (by decide)),
     (h c _ (mem_uc main_arg5 (by decide))).trans (W4_arg m ρ c main_arg5 (by decide) (by decide) (by decide) (by decide)),
     (h c _ (mem_uc main_arg6 (by decide))).trans (W4_arg m ρ c main_arg6 (by decide) (by decide) (by decide) (by decide)),
     (h c _ (mem_uc main_arg7 (by decide))).trans (W4_arg m ρ c main_arg7 (by decide) (by decide) (by decide) (by decide)),
     (h c _ (mem_uc main_arg8 (by decide))).trans (W4_arg m ρ c main_arg8 (by decide) (by decide) (by decide) (by decide)),
     (h c _ (mem_uc main_arg9 (by decide))).trans (W4_arg m ρ c main_arg9 (by decide) (by decide) (by decide) (by decide)),
     (h c _ (mem_uc main_arg10 (by decide))).trans (W4_arg m ρ c main_arg10 (by decide) (by decide) (by decide) (by decide)),
     (h c _ (mem_uc main_arg11 (by decide))).trans (W4_arg m ρ c main_arg11 (by decide) (by decide) (by decide) (by decide)),
     (h c _ (mem_uc main_arg12 (by decide))).trans (W4_arg m ρ c main_arg12 (by decide) (by decide) (by decide) (by decide)),
     (h c _ (mem_uc main_arg13 (by decide))).trans (W4_arg m ρ c main_arg13 (by decide) (by decide) (by decide) (by decide)),
     (h c _ (mem_uc main_arg14 (by decide))).trans (W4_arg m ρ c main_arg14 (by decide) (by decide) (by decide) (by decide))⟩)
    (run_all m ρ)

end Cert.KernelIdeal.Hand

end
-- ==== Proof.KI.HostReads.lean ====
/-
  What the host lines around the two kernels leave in the buffers the kernels read, as pure terms of the buffers the
  lines read — for ANY contents of those buffers.

  Before the first kernel: the two endpoint columns of the edge list as vectors; each column with negative entries
  wrapped by the node count and broadcast to a column of start indices; the node states converted and gathered at
  those rows (the states of each edge's first and second endpoint); the edge features converted; the first weight
  matrix of the message network cut into its three row groups (128, 128 and 64 rows) and converted; the other two
  weight matrices converted; the three bias vectors as rows. Between the kernels: the messages laid end to end with
  themselves, the two endpoint columns laid end to end, one accumulating scatter of those doubled messages at those
  doubled endpoints into zeros; the first weight matrix of the update network cut into its three row groups of 128;
  its three bias vectors as rows. A line writes only its own result buffer, so every other buffer is unchanged.
-/
import proofs.«100937_j83021717831844_2_alg».proof.Proof.Gen.KernelIdeal.Launch
import Idealize.ShloMosaic.Lib.StableHlo.Run

noncomputable section

namespace Cert.KernelIdeal.Hand

open Idealize.ShloMosaic Idealize.ShloMosaic.TcCoe Idealize.ShloMosaic.StableHlo
open Cert.KernelIdeal Cert.KernelIdeal.Facts₀ Cert.KernelIdeal.Facts

variable {F : FTy → Type} [FloatOps F]

/-- Column 0 of the edge list (each edge's first endpoint) as a vector. -/
def column0 (vx : (⟨S524288x2, .i32⟩ : BufTy).Contents (Elt F)) : (⟨S524288, .i32⟩ : BufTy).Contents (Elt F) :=
  shapeCast S524288 (extractStridedSlice S524288x1 ![0, 0] vx slices_S524288x2_S524288x1_0_0) shapeCasts_S524288x1_S524288
/-- Column 1 (each edge's second endpoint). -/
def column1 (vx : (⟨S524288x2, .i32⟩ : BufTy).Contents (Elt F)) : (⟨S524288, .i32⟩ : BufTy).Contents (Elt F) :=
  shapeCast S524288 (extractStridedSlice S524288x1 ![0, 1] vx slices_S524288x2_S524288x1_0_1) shapeCasts_S524288x1_S524288
/-- An endpoint vector with negative entries wrapped by the node count, as a column of start indices. -/
def startRows (I : (⟨S524288, .i32⟩ : BufTy).Contents (Elt F)) : (⟨S524288x1, .i32⟩ : BufTy).Contents (Elt F) :=
  broadcastInDim S524288x1 ![0] bcast_S524288_S524288x1_0
    (select (cmpi .slt I (broadcastInDim S524288 ![] bcast_S_S524288 (constantI S_ 32 0#32)))
      (addi I (broadcastInDim S524288 ![] bcast_S_S524288 (constantI S_ 32 65536#32))) I)

section Before
variable (W : Valuation τ sig (Elt F))

theorem before_v1 : after (Gen.hostOps0 (F := F)) W (main_v1 : DevRef τ sig) = column0 (W (main_arg2 : DevRef τ sig)) := by
  after_results_simp; rfl
theorem before_v3 : after (Gen.hostOps0 (F := F)) W (main_v3 : DevRef τ sig) = column1 (W (main_arg2 : DevRef τ sig)) := by
  after_results_simp; rfl
theorem before_v12 : after (Gen.hostOps0 (F := F)) W (main_v12 : DevRef τ sig)
    = Host.gather gather_S65536x128_S524288x1_S524288x128_1_0_n_n_0_1_1128
        (truncf .bf16 (W (main_arg0 : DevRef τ sig)) bitsLt_bf16_f32) (startRows (column0 (W (main_arg2 : DevRef τ sig)))) := by
  after_results_simp; rfl
theorem before_v19 : after (Gen.hostOps0 (F := F)) W (main_v19 : DevRef τ sig)
    = Host.gather gather_S65536x128_S524288x1_S524288x128_1_0_n_n_0_1_1128
        (truncf .bf16 (W (main_arg0 : DevRef τ sig)) bitsLt_bf16_f32) (startRows (column1 (W (main_arg2 : DevRef τ sig)))) := by
  after_results_simp; rfl
theorem before_v5 : after (Gen.hostOps0 (F := F)) W (main_v5 : DevRef τ sig) = truncf .bf16 (W (main_arg1 : DevRef τ sig)) bitsLt_bf16_f32 := by
  after_results_simp
theorem before_v21 : after (Gen.hostOps0 (F := F)) W (main_v21 : DevRef τ sig)
    = truncf .bf16 (extractStridedSlice S128x256 ![0, 0] (W (main_arg3 : DevRef τ sig)) slices_S320x256_S128x256_0_0) bitsLt_bf16_f32 := by
  after_results_simp
theorem before_v23 : after (Gen.hostOps0 (F := F)) W (main_v23 : DevRef τ sig)
    = truncf .bf16 (extractStridedSlice S128x256 ![128, 0] (W (main_arg3 : DevRef τ sig)) slices_S320x256_S128x256_128_0) bitsLt_bf16_f32 := by
  after_results_simp
theorem before_v25 : after (Gen.hostOps0 (F := F)) W (main_v25 : DevRef τ sig)
    = truncf .bf16 (extractStridedSlice S64x256 ![256, 0] (W (main_arg3 : DevRef τ sig)) slices_S320x256_S64x256_256_0) bitsLt_bf16_f32 := by
  after_results_simp
theorem before_v26 : after (Gen.hostOps0 (F := F)) W (main_v26 : DevRef τ sig) = truncf .bf16 (W (main_arg5 : DevRef τ sig)) bitsLt_bf16_f32 := by
  after_results_simp
theorem before_v27 : after (Gen.hostOps0 (F := F)) W (main_v27 : DevRef τ sig) = truncf .bf16 (W (main_arg7 : DevRef τ sig)) bitsLt_bf16_f32 := by
  after_results_simp
theorem before_v28 : after (Gen.hostOps0 (F := F)) W (main_v28 : DevRef τ sig) = shapeCast S1x256 (W (main_arg4 : DevRef τ sig)) shapeCasts_S256_S1x256 := by
  after_results_simp; rfl
theorem before_v29 : after (Gen.hostOps0 (F := F)) W (main_v29 : DevRef τ sig) = shapeCast S1x256 (W (main_arg6 : DevRef τ sig)) shapeCasts_S256_S1x256 := by
  after_results_simp; rfl
theorem before_v30 : after (Gen.hostOps0 (F := F)) W (main_v30 : DevRef τ sig) = shapeCast S1x128 (W (main_arg8 : DevRef τ sig)) shapeCasts_S128_S1x128 := by
  after_results_simp; rfl
end Before

section Between
variable (W : Valuation τ sig (Elt F))

theorem between_v36 : after (Gen.hostOps1 (F := F)) W (main_v36 : DevRef τ sig)
    = Host.scatterAdd scatter_S65536x128_S1048576x1_S1048576x128_1_0_0_1
        (broadcastInDim S65536x128 ![] bcast_S_S65536x128 (constant S_ .f32 0x00000000#32))
        (broadcastInDim S1048576x1 ![0] bcast_S1048576_S1048576x1_0
          (concatenate S1048576 0 [⟨S524288, W (main_v1 : DevRef τ sig)⟩, ⟨S524288, W (main_v3 : DevRef τ sig)⟩] concatenates_S524288_S524288_S1048576_d0))
        (concatenate S1048576x128 0 [⟨S524288x128, W (main_v31 : DevRef τ sig)⟩, ⟨S524288x128, W (main_v31 : DevRef τ sig)⟩]
          concatenates_S524288x128_S524288x128_S1048576x128_d0) := by
  after_results
theorem between_v37 : after (Gen.hostOps1 (F := F)) W (main_v37 : DevRef τ sig)
    = extractStridedSlice S128x256 ![0, 0] (W (main_arg9 : DevRef τ sig)) slices_S384x256_S128x256_0_0 := by
  after_results_simp
theorem between_v38 : after (Gen.hostOps1 (F := F)) W (main_v38 : DevRef τ sig)
    = extractStridedSlice S128x256 ![128, 0] (W (main_arg9 : DevRef τ sig)) slices_S384x256_S128x256_128_0 := by
  after_results_simp
theorem between_v39 : after (Gen.hostOps1 (F := F)) W (main_v39 : DevRef τ sig)
    = extractStridedSlice S128x256 ![256, 0] (W (main_arg9 : DevRef τ sig)) slices_S384x256_S128x256_256_0 := by
  after_results_simp
theorem between_v40 : after (Gen.hostOps1 (F := F)) W (main_v40 : DevRef τ sig) = shapeCast S1x256 (W (main_arg10 : DevRef τ sig)) shapeCasts_S256_S1x256 := by
  after_results_simp; rfl
theorem between_v41 : after (Gen.hostOps1 (F := F)) W (main_v41 : DevRef τ sig) = shapeCast S1x256 (W (main_arg12 : DevRef τ sig)) shapeCasts_S256_S1x256 := by
  after_results_simp; rfl
theorem between_v42 : after (Gen.hostOps1 (F := F)) W (main_v42 : DevRef τ sig) = shapeCast S1x128 (W (main_arg14 : DevRef τ sig)) shapeCasts_S128_S1x128 := by
  after_results_simp; rfl
end Between

end Cert.KernelIdeal.Hand

end
-- ==== Proof.KI.Blocks0.lean ====
/- From the blocks of pallas_call 0 to its arrays, at any float instance and any region-entry contents `V`: what each
   input window's block reads of its array (a row of a row-blocked array; the array itself for a window that is the
   whole array), and the output array after the region as any function its stored blocks agree with. -/
import proofs.«100937_j83021717831844_2_alg».proof.Proof.KI.Region0
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

section Blocks0
variable (V : (c : Dev nD) → (b : Ref sig .tc) → Buf (Elt F) ((c : Thread nD τ).loc b))

/-! ## The printed index maps, decided once over the grid -/

/-- The row-blocked windows' block indices at point `t`: block `t`, in the one column of blocks. -/
theorem index0_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0 :=
  (by decide +kernel : ∀ t : Fin grid0.N, _)

/-- The whole-array windows' block index is zero at every point. -/
theorem index0_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- A grid point is below 128. -/
theorem pt_lt0 (t : Fin cfg0.N) : t.val < 128 := lt_of_lt_of_eq t.isLt N_0

/-! ## The row-blocked inputs: row `p` of block `t` is a row of the array -/

theorem iblk0_row0 (c : Dev nD) (t : Fin cfg0.N) (p : Fin 4096) (k : Fin 128) :
    iblk0 V c 0 t (ix2 p k) = V c (Pipeline.arrRef spec0 0) (ix2 ⟨4096 * t.val + p.val, by
      have ht := pt_lt0 t; have hp := p.isLt; omega⟩ k) := by
  obtain ⟨e0, e1, -, -, -, -, -, -⟩ := index0_rows t
  have ht := pt_lt0 t
  show V c (Pipeline.arrRef spec0 0) (((cfg0.win 0).blk t).view.emb (ix2 p k)) = _
  refine congrArg _ ?_
  funext a; apply Fin.ext
  match a with
  | ⟨0, _⟩ => show win0_0.index t (0 : Fin 2) * 4096 + 1 * p.val = 4096 * t.val + p.val; omega
  | ⟨1, _⟩ => show win0_0.index t (1 : Fin 2) * 128 + 1 * k.val = k.val; omega

theorem iblk0_row1 (c : Dev nD) (t : Fin cfg0.N) (p : Fin 4096) (k : Fin 128) :
    iblk0 V c 1 t (ix2 p k) = V c (Pipeline.arrRef spec0 1) (ix2 ⟨4096 * t.val + p.val, by
      have ht := pt_lt0 t; have hp := p.isLt; omega⟩ k) := by
  obtain ⟨-, -, e0, e1, -, -, -, -⟩ := index0_rows t
  have ht := pt_lt0 t
  show V c (Pipeline.arrRef spec0 1) (((cfg0.win 1).blk t).view.emb (ix2 p k)) = _
  refine congrArg _ ?_
  funext a; apply Fin.ext
  match a with
  | ⟨0, _⟩ => show win0_1.index t (0 : Fin 2) * 4096 + 1 * p.val = 4096 * t.val + p.val; omega
  | ⟨1, _⟩ => show win0_1.index t (1 : Fin 2) * 128 + 1 * k.val = k.val; omega

theorem iblk0_row2 (c : Dev nD) (t : Fin cfg0.N) (p : Fin 4096) (k : Fin 64) :
    iblk0 V c 2 t (ix2 p k) = V c (Pipeline.arrRef spec0 2) (ix2 ⟨4096 * t.val + p.val, by
      have ht := pt_lt0 t; have hp := p.isLt; omega⟩ k) := by
  obtain ⟨-, -, -, -, e0, e1, -, -⟩ := index0_rows t
  have ht := pt_lt0 t
  show V c (Pipeline.arrRef spec0 2) (((cfg0.win 2).blk t).view.emb (ix2 p k)) = _
  refine congrArg _ ?_
  funext a; apply Fin.ext
  match a with
  | ⟨0, _⟩ => show win0_2.index t (0 : Fin 2) * 4096 + 1 * p.val = 4096 * t.val + p.val; omega
  | ⟨1, _⟩ => show win0_2.index t (1 : Fin 2) * 64 + 1 * k.val = k.val; omega

/-! ## The whole-array inputs: the block is the array -/

theorem iblk0_whole3 (c : Dev nD) (t : Fin cfg0.N) : iblk0 V c 3 t = V c (Pipeline.arrRef spec0 3) := by
  obtain ⟨e0, e1, -, -, -, -, -, -, -, -, -, -, -, -, -, -⟩ := index0_whole t
  refine funext fun (j : S128x256.Idx) => ?_
  show V c (Pipeline.arrRef spec0 3) (((cfg0.win 3).blk t).view.emb j) = V c (Pipeline.arrRef spec0 3) j
  refine congrArg _ ?_
  funext a; apply Fin.ext
  match a with
  | ⟨0, _⟩ => show win0_3.index t (0 : Fin 2) * 128 + 1 * (j 0).val = (j 0).val; omega
  | ⟨1, _⟩ => show win0_3.index t (1 : Fin 2) * 256 + 1 * (j 1).val = (j 1).val; omega

theorem iblk0_whole4 (c : Dev nD) (t : Fin cfg0.N) : iblk0 V c 4 t = V c (Pipeline.arrRef spec0 4) := by
  obtain ⟨-, -, e0, e1, -, -, -, -, -, -, -, -, -, -, -, -⟩ := index0_whole t
  refine funext fun (j : S128x256.Idx) => ?_
  show V c (Pipeline.arrRef spec0 4) (((cfg0.win 4).blk t).view.emb j) = V c (Pipeline.arrRef spec0 4) j
  refine congrArg _ ?_
  funext a; apply Fin.ext
  match a with
  | ⟨0, _⟩ => show win0_4.index t (0 : Fin 2) * 128 + 1 * (j 0).val = (j 0).val; omega
  | ⟨1, _⟩ => show win0_4.index t (1 : Fin 2) * 256 + 1 * (j 1).val = (j 1).val; omega

theorem iblk0_whole5 (c : Dev nD) (t : Fin cfg0.N) : iblk0 V c 5 t = V c (Pipeline.arrRef spec0 5) := by
  obtain ⟨-, -, -, -, e0, e1, -, -, -, -, -, -, -, -, -, -⟩ := index0_whole t
  refine funext fun (j : S64x256.Idx) => ?_
  show V c (Pipeline.arrRef spec0 5) (((cfg0.win 5).blk t).view.emb j) = V c (Pipeline.arrRef spec0 5) j
  refine congrArg _ ?_
  funext a; apply Fin.ext
  match a with
  | ⟨0, _⟩ => show win0_5.index t (0 : Fin 2) * 64 + 1 * (j 0).val = (j 0).val; omega
  | ⟨1, _⟩ => show win0_5.index t (1 : Fin 2) * 256 + 1 * (j 1).val = (j 1).val; omega

theorem iblk0_whole6 (c : Dev nD) (t : Fin cfg0.N) : iblk0 V c 6 t = V c (Pipeline.arrRef spec0 6) := by
  obtain ⟨-, -, -, -, -, -, e0, e1, -, -, -, -, -, -, -, -⟩ := index0_whole t
  refine funext fun (j : S1x256.Idx) => ?_
  show V c (Pipeline.arrRef spec0 6) (((cfg0.win 6).blk t).view.emb j) = V c (Pipeline.arrRef spec0 6) j
  refine congrArg _ ?_
  funext a; apply Fin.ext
  match a with
  | ⟨0, _⟩ => show win0_6.index t (0 : Fin 2) * 1 + 1 * (j 0).val = (j 0).val; omega
  | ⟨1, _⟩ => show win0_6.index t (1 : Fin 2) * 256 + 1 * (j 1).val = (j 1).val; omega

theorem iblk0_whole7 (c : Dev nD) (t : Fin cfg0.N) : iblk0 V c 7 t = V c (Pipeline.arrRef spec0 7) := by
  obtain ⟨-, -, -, -, -, -, -, -, e0, e1, -, -, -, -, -, -⟩ := index0_whole t
  refine funext fun (j : S256x256.Idx) => ?_
  show V c (Pipeline.arrRef spec0 7) (((cfg0.win 7).blk t).view.emb j) = V c (Pipeline.arrRef spec0 7) j
  refine congrArg _ ?_
  funext a; apply Fin.ext
  match a with
  | ⟨0, _⟩ => show win0_7.index t (0 : Fin 2) * 256 + 1 * (j 0).val = (j 0).val; omega
  | ⟨1, _⟩ => show win0_7.index t (1 : Fin 2) * 256 + 1 * (j 1).val = (j 1).val; omega

theorem iblk0_whole8 (c : Dev nD) (t : Fin cfg0.N) : iblk0 V c 8 t = V c (Pipeline.arrRef spec0 8) := by
  obtain ⟨-, -, -, -, -, -, -, -, -, -, e0, e1, -, -, -, -⟩ := index0_whole t
  refine funext fun (j : S1x256.Idx) => ?_
  show V c (Pipeline.arrRef spec0 8) (((cfg0.win 8).blk t).view.emb j) = V c (Pipeline.arrRef spec0 8) j
  refine congrArg _ ?_
  funext a; apply Fin.ext
  match a with
  | ⟨0, _⟩ => show win0_8.index t (0 : Fin 2) * 1 + 1 * (j 0).val = (j 0).val; omega
  | ⟨1, _⟩ => show win0_8.index t (1 : Fin 2) * 256 + 1 * (j 1).val = (j 1).val; omega

theorem iblk0_whole9 (c : Dev nD) (t : Fin cfg0.N) : iblk0 V c 9 t = V c (Pipeline.arrRef spec0 9) := by
  obtain ⟨-, -, -, -, -, -, -, -, -, -, -, -, e0, e1, -, -⟩ := index0_whole t
  refine funext fun (j : S256x128.Idx) => ?_
  show V c (Pipeline.arrRef spec0 9) (((cfg0.win 9).blk t).view.emb j) = V c (Pipeline.arrRef spec0 9) j
  refine congrArg _ ?_
  funext a; apply Fin.ext
  match a with
  | ⟨0, _⟩ => show win0_9.index t (0 : Fin 2) * 256 + 1 * (j 0).val = (j 0).val; omega
  | ⟨1, _⟩ => show win0_9.index t (1 : Fin 2) * 128 + 1 * (j 1).val = (j 1).val; omega

theorem iblk0_whole10 (c : Dev nD) (t : Fin cfg0.N) : iblk0 V c 10 t = V c (Pipeline.arrRef spec0 10) := by
  obtain ⟨-, -, -, -, -, -, -, -, -, -, -, -, -, -, e0, e1⟩ := index0_whole t
  refine funext fun (j : S1x128.Idx) => ?_
  show V c (Pipeline.arrRef spec0 10) (((cfg0.win 10).blk t).view.emb j) = V c (Pipeline.arrRef spec0 10) j
  refine congrArg _ ?_
  funext a; apply Fin.ext
  match a with
  | ⟨0, _⟩ => show win0_10.index t (0 : Fin 2) * 1 + 1 * (j 0).val = (j 0).val; omega
  | ⟨1, _⟩ => show win0_10.index t (1 : Fin 2) * 128 + 1 * (j 1).val = (j 1).val; omega

/-! ## From the output's blocks to the array -/

/-- An index of the output array is in point `t`'s block iff each coordinate is in the block's range on its axis. -/
theorem mem_blk0 (t : Fin cfg0.N) (i : S524288x128.Idx) :
    i ∈ ((cfg0.win 11).blk t).view.set ↔ ∀ a : Fin 2, win0_11.index t a * S4096x128.size a ≤ (i a).val ∧ (i a).val < win0_11.index t a * S4096x128.size a + S4096x128.size a := by
  show i ∈ ((View.whole main_v31).slice (win0_11.rect t)).set ↔ _
  rw [View.set_slice_whole, Rect.mem_set_unit]
  exact Iff.rfl

/-- THE OUTPUT ARRAY after the region: any function `G` of the array's indices that every point's stored block agrees
    with, row `p` of block `t` being row `4096 · t + p` of the array — the blocks tile the array, row `e` lying in block
    `e / 4096`. -/
theorem final0 (c : Dev nD) (G : S524288x128.Idx → Elt F .f32)
    (hG : ∀ (t : Fin cfg0.N) (p : Fin 4096) (q : Fin 128),
      out0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (ix2 p q)
        = G (ix2 ⟨4096 * t.val + p.val, by have ht := pt_lt0 t; have hp := p.isLt; omega⟩ q)) :
    (dat0 V c).arrAt 11 cfg0.N = G := by
  refine (dat0 V c).arrAt_eq_of_cover 11 G (fun t _ => ?_) (fun i => ?_)
  · show (cfg0.win 11).cut (grid0.coords t) ((dat0 V c).after 11 t) = _
    rw [after0_11]
    obtain ⟨-, -, -, -, -, -, e0, e1⟩ := index0_rows t
    have ht := pt_lt0 t
    refine funext fun (j : S4096x128.Idx) => ?_
    obtain ⟨p, q, rfl⟩ : ∃ (p : Fin 4096) (q : Fin 128), j = ix2 p q := ⟨j 0, j 1, eq_ix2 j⟩
    show out0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (ix2 p q) = G (((cfg0.win 11).blk t).view.emb (ix2 p q))
    rw [hG t p q]
    refine congrArg _ ?_
    funext a; apply Fin.ext
    match a with
    | ⟨0, _⟩ => show 4096 * t.val + p.val = win0_11.index t (0 : Fin 2) * 4096 + 1 * p.val; omega
    | ⟨1, _⟩ => show q.val = win0_11.index t (1 : Fin 2) * 128 + 1 * q.val; omega
  · have hi0 : ((i : S524288x128.Idx) 0).val < 524288 := ((i : S524288x128.Idx) 0).isLt
    have hi1 : ((i : S524288x128.Idx) 1).val < 128 := ((i : S524288x128.Idx) 1).isLt
    obtain ⟨t, ht⟩ : ∃ t : Fin cfg0.N, t.val = ((i : S524288x128.Idx) 0).val / 4096 :=
      ⟨⟨((i : S524288x128.Idx) 0).val / 4096, by rw [show cfg0.N = 128 from N_0]; omega⟩, rfl⟩
    obtain ⟨-, -, -, -, -, -, e0, e1⟩ := index0_rows t
    refine ⟨t, flush0_11 t, ?_⟩
    rw [mem_blk0]
    intro a
    match a with
    | ⟨0, _⟩ => show win0_11.index t (0 : Fin 2) * 4096 ≤ ((i : S524288x128.Idx) 0).val ∧ ((i : S524288x128.Idx) 0).val < win0_11.index t (0 : Fin 2) * 4096 + 4096; omega
    | ⟨1, _⟩ => show win0_11.index t (1 : Fin 2) * 128 ≤ ((i : S524288x128.Idx) 1).val ∧ ((i : S524288x128.Idx) 1).val < win0_11.index t (1 : Fin 2) * 128 + 128; omega

end Blocks0

end Cert.KernelIdeal.Hand

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.LibRowBlock.lean ====
/-
  GENERAL LEMMAS: a matrix product read one block of rows at a time, and a row vector added to every row.

  * `matProd_of_rows`: entry `j` of `x · w` is entry `i` of `X · W` as soon as row `j 0` of `x` is row `i 0` of `X` and
    column `j 1` of `w` is column `i 1` of `W` — what a kernel that multiplies a block of rows at each grid point
    needs against ONE whole product (a row of a product depends on that row of the left operand only).
  * `rowBiasMax`: a `1 × K` row added to every row of an `R × K` matrix, then the maximum with a constant, entry by
    entry; `rowBiasMax_of_vector_ops` reads the vector operations `max (x + broadcast b) (splat z)` as it, and
    `rowBiasMax_of_host_ops` reads the host's two `broadcast_in_dim`s of a length-`K` vector as it (at the vector
    reshaped to one row).

  Everything is over the extended reals with no finiteness hypothesis. Imports the library and `LibMatProd.lean`.
-/
import proofs.«100937_j83021717831844_2_alg».proof.Proof.LibMatProd
import Idealize.ShloMosaic.Lib.ValueLayout
import Idealize.ShloMosaic.Lib.Pipeline.Value

noncomputable section

open scoped BigOperators

namespace Cert.Linear

open Idealize.ShloMosaic Idealize.ShloMosaic.ValueIdx

/-- Entry `j` of `x · w` is entry `i` of `X · W` when row `j 0` of `x` is row `i 0` of `X` and column `j 1` of `w` is
    column `i 1` of `W`. -/
theorem matProd_of_rows {R r K N n : Nat} (X : (Mat R K).Idx → EReal) (W : (Mat K N).Idx → EReal)
    (x : (Mat r K).Idx → EReal) (w : (Mat K n).Idx → EReal) (j : (Mat r n).Idx) (i : (Mat R N).Idx)
    (hx : ∀ k : Fin K, x (ix2 (n0 := r) (n1 := K) (j 0) k) = X (ix2 (n0 := R) (n1 := K) (i 0) k))
    (hw : ∀ k : Fin K, w (ix2 (n0 := K) (n1 := n) k (j 1)) = W (ix2 (n0 := K) (n1 := N) k (i 1))) :
    matProd x w j = matProd X W i := by
  unfold matProd
  exact Finset.sum_congr rfl fun k _ => by rw [hx k, hw k]

/-- A `1 × K` row `B` added to every row of `A`, then the maximum with `z`. -/
def rowBiasMax {R K : Nat} (A : (Mat R K).Idx → EReal) (B : (Mat 1 K).Idx → EReal) (z : EReal) : (Mat R K).Idx → EReal :=
  fun i => max (A i + B (ix2 (n0 := 1) (n1 := K) 0 (i 1))) z

/-- The vector operations `max (x + broadcast b) (splat z)` over an `R × K` block `x` and a `1 × K` row `b` (each first
    cast to its own shape, as a kernel body spells a broadcasting add) are `rowBiasMax x b z`. -/
theorem rowBiasMax_of_vector_ops {R K : Nat} (x : FVec Ideal (Mat R K) .f32) (b : FVec Ideal (Mat 1 K) .f32) (z : Ideal .f32)
    (h1 : (Mat R K).ShapeCasts (Mat R K)) (h2 : (Mat 1 K).ShapeCasts (Mat 1 K)) (h3 : (Mat 1 K).Broadcasts (Mat R K)) :
    maximumf (addf (shapeCast (Mat R K) x h1) (broadcastTo (Mat R K) (shapeCast (Mat 1 K) b h2) h3)) (broadcast (Mat R K) z)
      = rowBiasMax x b z := by
  rw [shapeCast_self, shapeCast_self]
  funext i
  obtain ⟨p, q, rfl⟩ : ∃ (p : Fin R) (q : Fin K), i = ix2 p q := ⟨i 0, i 1, eq_ix2 i⟩
  show max (x (ix2 p q) + broadcastTo (Mat R K) b h3 (ix2 p q)) z = max (x (ix2 p q) + b (ix2 (0 : Fin 1) q)) z
  rw [broadcastTo_1b_ab_apply b h3 p q]

/-- The host's spelling — a length-`K` vector made a row and then `R` rows by two `broadcast_in_dim`s, added, and the
    maximum with a splat constant — is `rowBiasMax` at the vector reshaped to one row. -/
theorem rowBiasMax_of_host_ops {R K : Nat} (A : FVec Ideal (Mat R K) .f32) (b : FVec Ideal (⟨1, ![K]⟩ : Shape) .f32) (zb : BitVec 32)
    (h1 : (⟨1, ![K]⟩ : Shape).BroadcastsInDim (Mat 1 K) ![1]) (h2 : (Mat 1 K).BroadcastsInDim (Mat R K) ![0, 1])
    (h3 : (⟨0, ![]⟩ : Shape).BroadcastsInDim (Mat R K) ![]) (h4 : (⟨1, ![K]⟩ : Shape).ShapeCasts (Mat 1 K)) :
    maximumf (addf A (broadcastInDim (Mat R K) ![0, 1] h2 (broadcastInDim (Mat 1 K) ![1] h1 b)))
        (broadcastInDim (Mat R K) ![] h3 (constant (F := Ideal) (⟨0, ![]⟩ : Shape) .f32 zb))
      = rowBiasMax A (shapeCast (Mat 1 K) b h4) (Ideal.ofBits .f32 zb) := by
  funext i
  obtain ⟨p, q, rfl⟩ : ∃ (p : Fin R) (q : Fin K), i = ix2 p q := ⟨i 0, i 1, eq_ix2 i⟩
  have e2 : broadcastInDim (Mat R K) ![0, 1] h2 (broadcastInDim (Mat 1 K) ![1] h1 b) (ix2 p q)
      = broadcastInDim (Mat 1 K) ![1] h1 b (ix2 (0 : Fin 1) q) :=
    broadcastInDim_apply ![0, 1] h2 _ (ix2 p q) (ix2 (0 : Fin 1) q) fun a => by
      match a with
      | ⟨0, _⟩ => rfl
      | ⟨1, _⟩ =>
        show q.val = if K = 1 then 0 else q.val
        split
        · have := q.isLt; omega
        · rfl
  have e1 : broadcastInDim (Mat 1 K) ![1] h1 b (ix2 (0 : Fin 1) q) = b (ix1 q) :=
    broadcastInDim_apply ![1] h1 b (ix2 (0 : Fin 1) q) (ix1 q) fun a => by
      match a with
      | ⟨0, _⟩ =>
        show q.val = if K = 1 then 0 else q.val
        split
        · have := q.isLt; omega
        · rfl
  have e3 : broadcastInDim (Mat R K) ![] h3 (constant (F := Ideal) (⟨0, ![]⟩ : Shape) .f32 zb) (ix2 p q) = Ideal.ofBits .f32 zb :=
    broadcastInDim_apply ![] h3 _ (ix2 p q) ix0 fun a => a.elim0
  show max (A (ix2 p q) + broadcastInDim (Mat R K) ![0, 1] h2 (broadcastInDim (Mat 1 K) ![1] h1 b) (ix2 p q))
      (broadcastInDim (Mat R K) ![] h3 (constant (F := Ideal) (⟨0, ![]⟩ : Shape) .f32 zb) (ix2 p q))
    = max (A (ix2 p q) + shapeCast (Mat 1 K) b h4 (ix2 (0 : Fin 1) q)) (Ideal.ofBits .f32 zb)
  rw [e2, e1, e3, shapeCast_a_1a_apply b h4 0 q]

end Cert.Linear

end
-- ==== Proof.LibSelfLoop.lean ====
/-
  GENERAL LEMMAS: a graph convolution's self-loop combine, and a bias row added to every row, each written two ways.

  * `selfLoopMax A H D B z`: entry `(r, q)` is `max ((A (r, q) + H (r, q) · D (r, 0)) + B (0, q)) z` — an aggregated
    message matrix `A`, the node's own features `H` scaled by a per-row factor held as an `R × 1` column `D`, a
    `1 × K` bias row `B`, and the maximum with a constant `z`. `selfLoopMax_of_vector_ops` reads a kernel body's
    vector operations (each operand first cast to its own shape, the column and the row broadcast to the block) as it;
    `selfLoopMax_of_host_ops` reads the host's spelling (the column and a length-`K` bias vector spread by
    `broadcast_in_dim`, the constant splat) as it, at the vector reshaped to one row.
  * `rowBias A B`: entry `(r, q)` is `A (r, q) + B (0, q)`; `rowBias_of_vector_ops` and `rowBias_of_host_ops` read
    the two spellings of a bias added to every row.
  * `broadcastTo_a1_ab_apply`, `broadcastInDim_a1_ab_apply`, `broadcastInDim_b_1b_apply`,
    `broadcastInDim_1b_ab_apply`, `broadcastInDim_scalar_apply`: the layout forms these use, read at an index.

  Everything is over the extended reals with no finiteness hypothesis: the two spellings are the same expression entry
  by entry. Imports the library only.
-/
import Idealize.ShloMosaic.PureOps.Ideal.Laws
import Idealize.ShloMosaic.Lib.ValueIdx
import Idealize.ShloMosaic.Lib.ValueLayout
import Idealize.ShloMosaic.Lib.Pipeline.Value

noncomputable section

namespace Cert.SelfLoop

open Idealize.ShloMosaic Idealize.ShloMosaic.ValueIdx

/-- The shape of a matrix of `a` rows and `b` columns. -/
abbrev Mat (a b : Nat) : Shape := ⟨2, ![a, b]⟩
/-- The shape of a vector of `a` entries. -/
abbrev Vc (a : Nat) : Shape := ⟨1, ![a]⟩
/-- The shape of a scalar. -/
abbrev Sc : Shape := ⟨0, ![]⟩

variable {α : Type}

/-- An `[a, 1]` column broadcast to `[a, b]` reads, at `(p, q)`, the column's entry of row `p`. -/
theorem broadcastTo_a1_ab_apply {a b : ℕ} (v : (Mat a 1).Idx → α) (h : (Mat a 1).Broadcasts (Mat a b))
    (p : Fin a) (q : Fin b) : broadcastTo (Mat a b) v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's `broadcast_in_dim` of an `[a, 1]` column to `[a, b]` along both axes reads, at `(p, q)`, the column's
    entry of row `p`. -/
theorem broadcastInDim_a1_ab_apply {a b : ℕ} (v : (Mat a 1).Idx → α) (h : (Mat a 1).BroadcastsInDim (Mat a b) ![0, 1])
    (p : Fin a) (q : Fin b) : broadcastInDim (Mat a b) ![0, 1] h v (ix2 p q) = v (ix2 p (0 : Fin 1)) :=
  broadcastInDim_apply ![0, 1] h v (ix2 p q) (ix2 p (0 : Fin 1)) fun ax => by
    match ax with
    | ⟨0, _⟩ =>
      show p.val = if a = 1 then 0 else p.val
      split
      · have := p.isLt; omega
      · rfl
    | ⟨1, _⟩ => rfl

/-- The host's `broadcast_in_dim` of a length-`b` vector to one row `[1, b]` reads, at `(0, q)`, the vector at `q`. -/
theorem broadcastInDim_b_1b_apply {b : ℕ} (v : (Vc b).Idx → α) (h : (Vc b).BroadcastsInDim (Mat 1 b) ![1])
    (q : Fin b) : broadcastInDim (Mat 1 b) ![1] h v (ix2 (0 : Fin 1) q) = v (ix1 q) :=
  broadcastInDim_apply ![1] h v (ix2 (0 : Fin 1) q) (ix1 q) fun ax => by
    match ax with
    | ⟨0, _⟩ =>
      show q.val = if b = 1 then 0 else q.val
      split
      · have := q.isLt; omega
      · rfl

/-- The host's `broadcast_in_dim` of one row `[1, b]` to `[a, b]` along both axes reads, at `(p, q)`, the row at `q`. -/
theorem broadcastInDim_1b_ab_apply {a b : ℕ} (v : (Mat 1 b).Idx → α) (h : (Mat 1 b).BroadcastsInDim (Mat a b) ![0, 1])
    (p : Fin a) (q : Fin b) : broadcastInDim (Mat a b) ![0, 1] h v (ix2 p q) = v (ix2 (0 : Fin 1) q) :=
  broadcastInDim_apply ![0, 1] h v (ix2 p q) (ix2 (0 : Fin 1) q) fun ax => by
    match ax with
    | ⟨0, _⟩ => rfl
    | ⟨1, _⟩ =>
      show q.val = if b = 1 then 0 else q.val
      split
      · have := q.isLt; omega
      · rfl

/-- The host's splat of a scalar reads, at any index, the scalar. -/
theorem broadcastInDim_scalar_apply {t : Shape} (v : Sc.Idx → α) (h : Sc.BroadcastsInDim t ![]) (j : t.Idx) :
    broadcastInDim t ![] h v j = v ix0 :=
  broadcastInDim_apply ![] h v j ix0 fun ax => ax.elim0

/-! ## The self-loop combine -/

/-- `max ((A + H · D) + B) z`, entry by entry: `D` an `R × 1` column read at the entry's row, `B` a `1 × K` row
    read at the entry's column. -/
def selfLoopMax {R K : Nat} (A H : (Mat R K).Idx → EReal) (D : (Mat R 1).Idx → EReal) (B : (Mat 1 K).Idx → EReal) (z : EReal) :
    (Mat R K).Idx → EReal :=
  fun i => max ((A i + H i * D (ix2 (n0 := R) (n1 := 1) (i 0) 0)) + B (ix2 (n0 := 1) (n1 := K) 0 (i 1))) z

/-- A kernel body's vector operations `max ((a + h · broadcast d) + broadcast b) (splat z)` over `R × K` blocks `a`,
    `h`, an `R × 1` column `d` and a `1 × K` row `b` (each first cast to its own shape) are `selfLoopMax`. -/
theorem selfLoopMax_of_vector_ops {R K : Nat} (a h : FVec Ideal (Mat R K) .f32) (d : FVec Ideal (Mat R 1) .f32)
    (b : FVec Ideal (Mat 1 K) .f32) (z : Ideal .f32)
    (h1 : (Mat R K).ShapeCasts (Mat R K)) (h2 : (Mat R 1).ShapeCasts (Mat R 1)) (h3 : (Mat R 1).Broadcasts (Mat R K))
    (h4 : (Mat 1 K).ShapeCasts (Mat 1 K)) (h5 : (Mat 1 K).Broadcasts (Mat R K)) :
    maximumf (addf (addf (shapeCast (Mat R K) a h1)
        (mulf (shapeCast (Mat R K) h h1) (broadcastTo (Mat R K) (shapeCast (Mat R 1) d h2) h3)))
        (broadcastTo (Mat R K) (shapeCast (Mat 1 K) b h4) h5)) (broadcast (Mat R K) z)
      = selfLoopMax a h d b z := by
  rw [shapeCast_self, shapeCast_self, shapeCast_self, shapeCast_self]
  funext i
  obtain ⟨p, q, rfl⟩ : ∃ (p : Fin R) (q : Fin K), i = ix2 p q := ⟨i 0, i 1, eq_ix2 i⟩
  show max ((a (ix2 p q) + h (ix2 p q) * broadcastTo (Mat R K) d h3 (ix2 p q)) + broadcastTo (Mat R K) b h5 (ix2 p q)) z
    = max ((a (ix2 p q) + h (ix2 p q) * d (ix2 p (0 : Fin 1))) + b (ix2 (0 : Fin 1) q)) z
  rw [broadcastTo_a1_ab_apply d h3 p q, broadcastTo_1b_ab_apply b h5 p q]

/-- The host's spelling — the column spread over the columns and a length-`K` bias vector made a row and then `R` rows
    by `broadcast_in_dim`s, the sums, and the maximum with a splat constant — is `selfLoopMax` at the vector reshaped to
    one row. -/
theorem selfLoopMax_of_host_ops {R K : Nat} (A H : FVec Ideal (Mat R K) .f32) (D : FVec Ideal (Mat R 1) .f32)
    (b : FVec Ideal (Vc K) .f32) (zb : BitVec 32)
    (h1 : (Mat R 1).BroadcastsInDim (Mat R K) ![0, 1]) (h2 : (Vc K).BroadcastsInDim (Mat 1 K) ![1])
    (h3 : (Mat 1 K).BroadcastsInDim (Mat R K) ![0, 1]) (h4 : Sc.BroadcastsInDim (Mat R K) ![])
    (h5 : (Vc K).ShapeCasts (Mat 1 K)) :
    maximumf (addf (addf A (mulf H (broadcastInDim (Mat R K) ![0, 1] h1 D)))
        (broadcastInDim (Mat R K) ![0, 1] h3 (broadcastInDim (Mat 1 K) ![1] h2 b)))
        (broadcastInDim (Mat R K) ![] h4 (constant (F := Ideal) Sc .f32 zb))
      = selfLoopMax A H D (shapeCast (Mat 1 K) b h5) (Ideal.ofBits .f32 zb) := by
  funext i
  obtain ⟨p, q, rfl⟩ : ∃ (p : Fin R) (q : Fin K), i = ix2 p q := ⟨i 0, i 1, eq_ix2 i⟩
  show max ((A (ix2 p q) + H (ix2 p q) * broadcastInDim (Mat R K) ![0, 1] h1 D (ix2 p q))
        + broadcastInDim (Mat R K) ![0, 1] h3 (broadcastInDim (Mat 1 K) ![1] h2 b) (ix2 p q))
      (broadcastInDim (Mat R K) ![] h4 (constant (F := Ideal) Sc .f32 zb) (ix2 p q))
    = max ((A (ix2 p q) + H (ix2 p q) * D (ix2 p (0 : Fin 1))) + shapeCast (Mat 1 K) b h5 (ix2 (0 : Fin 1) q)) (Ideal.ofBits .f32 zb)
  rw [broadcastInDim_a1_ab_apply D h1 p q, broadcastInDim_1b_ab_apply _ h3 p q, broadcastInDim_b_1b_apply b h2 q,
    broadcastInDim_scalar_apply _ h4, shapeCast_a_1a_apply b h5 0 q]
  rfl

/-! ## A bias row added to every row -/

/-- `A + B`, the `1 × K` row `B` added to every row of `A`. -/
def rowBias {R K : Nat} (A : (Mat R K).Idx → EReal) (B : (Mat 1 K).Idx → EReal) : (Mat R K).Idx → EReal :=
  fun i => A i + B (ix2 (n0 := 1) (n1 := K) 0 (i 1))

/-- A kernel body's `x + broadcast b` over an `R × K` block and a `1 × K` row (cast twice to its own shape) is `rowBias`. -/
theorem rowBias_of_vector_ops {R K : Nat} (x : FVec Ideal (Mat R K) .f32) (b : FVec Ideal (Mat 1 K) .f32)
    (h1 h2 : (Mat 1 K).ShapeCasts (Mat 1 K)) (h3 : (Mat 1 K).Broadcasts (Mat R K)) :
    addf x (broadcastTo (Mat R K) (shapeCast (Mat 1 K) (shapeCast (Mat 1 K) b h1) h2) h3) = rowBias x b := by
  rw [shapeCast_self, shapeCast_self]
  funext i
  obtain ⟨p, q, rfl⟩ : ∃ (p : Fin R) (q : Fin K), i = ix2 p q := ⟨i 0, i 1, eq_ix2 i⟩
  show x (ix2 p q) + broadcastTo (Mat R K) b h3 (ix2 p q) = x (ix2 p q) + b (ix2 (0 : Fin 1) q)
  rw [broadcastTo_1b_ab_apply b h3 p q]

/-- The host's spelling — a length-`K` vector made a row and then `R` rows by two `broadcast_in_dim`s, added — is
    `rowBias` at the vector reshaped to one row. -/
theorem rowBias_of_host_ops {R K : Nat} (A : FVec Ideal (Mat R K) .f32) (b : FVec Ideal (Vc K) .f32)
    (h2 : (Vc K).BroadcastsInDim (Mat 1 K) ![1]) (h3 : (Mat 1 K).BroadcastsInDim (Mat R K) ![0, 1])
    (h5 : (Vc K).ShapeCasts (Mat 1 K)) :
    addf A (broadcastInDim (Mat R K) ![0, 1] h3 (broadcastInDim (Mat 1 K) ![1] h2 b))
      = rowBias A (shapeCast (Mat 1 K) b h5) := by
  funext i
  obtain ⟨p, q, rfl⟩ : ∃ (p : Fin R) (q : Fin K), i = ix2 p q := ⟨i 0, i 1, eq_ix2 i⟩
  show A (ix2 p q) + broadcastInDim (Mat R K) ![0, 1] h3 (broadcastInDim (Mat 1 K) ![1] h2 b) (ix2 p q)
    = A (ix2 p q) + shapeCast (Mat 1 K) b h5 (ix2 (0 : Fin 1) q)
  rw [broadcastInDim_1b_ab_apply _ h3 p q, broadcastInDim_b_1b_apply b h2 q, shapeCast_a_1a_apply b h5 0 q]

end Cert.SelfLoop

end
-- ==== Proof.Spec.lean ====
/-
  The specification: what one layer of the graph network computes, as pure functions of arrays of extended reals.

  Three dense layers. The first multiplies THREE column groups X1 | X2 | X3 of one wide input against the matching
  row groups Wa, Wb, Wc of one weight matrix and adds the three products, ((X1·Wa + X2·Wb) + X3·Wc), then a bias row,
  then the maximum with zero; the second is a product, a bias row, the maximum with zero; the third a product and a
  bias row. Every layer computes row r of its result from row r of its input, which is why a program may apply the
  network to one block of rows at a time.

  The whole layer: the messages are the network applied, edge by edge, to (state of the edge's first endpoint | state
  of its second endpoint | edge features); node v's aggregate adds up the messages of the edges whose first endpoint
  is v and of the edges whose second endpoint is v (each sum started from the zero word); the graphs come in
  consecutive pairs of 2048 nodes each, and a node's attention input is its state minus the state of the node at the
  same position in the partner graph; the result is the network applied, node by node, to (state | aggregate |
  attention input).
-/
import proofs.«100937_j83021717831844_2_alg».proof.Proof.LibMatProd
import proofs.«100937_j83021717831844_2_alg».proof.Proof.LibRowBlock
import proofs.«100937_j83021717831844_2_alg».proof.Proof.LibSelfLoop

noncomputable section

open scoped BigOperators

namespace Cert.GNN

open Idealize.ShloMosaic Idealize.ShloMosaic.ValueIdx Cert.Linear

/-- The zero float word. -/
abbrev z0 : EReal := Ideal.ofBits .f32 0x00000000#32

/-- The first layer, its product split over three column groups: max(((X1·Wa + X2·Wb) + X3·Wc) + b, 0). -/
def layer1 {R A B C N : Nat} (X1 : (Mat R A).Idx → EReal) (X2 : (Mat R B).Idx → EReal) (X3 : (Mat R C).Idx → EReal)
    (Wa : (Mat A N).Idx → EReal) (Wb : (Mat B N).Idx → EReal) (Wc : (Mat C N).Idx → EReal) (b : (Mat 1 N).Idx → EReal) :
    (Mat R N).Idx → EReal :=
  rowBiasMax (fun i => (matProd X1 Wa i + matProd X2 Wb i) + matProd X3 Wc i) b z0

/-- A middle layer: max(H·W + b, 0). -/
def layer2 {R K N : Nat} (H : (Mat R K).Idx → EReal) (W : (Mat K N).Idx → EReal) (b : (Mat 1 N).Idx → EReal) :
    (Mat R N).Idx → EReal :=
  rowBiasMax (matProd H W) b z0

/-- The last layer: H·W + b. -/
def layer3 {R K N : Nat} (H : (Mat R K).Idx → EReal) (W : (Mat K N).Idx → EReal) (b : (Mat 1 N).Idx → EReal) :
    (Mat R N).Idx → EReal :=
  Cert.SelfLoop.rowBias (matProd H W) b

/-- The three-layer network on R rows. -/
def net {R A B C N1 N2 N3 : Nat} (X1 : (Mat R A).Idx → EReal) (X2 : (Mat R B).Idx → EReal) (X3 : (Mat R C).Idx → EReal)
    (Wa : (Mat A N1).Idx → EReal) (Wb : (Mat B N1).Idx → EReal) (Wc : (Mat C N1).Idx → EReal) (b1 : (Mat 1 N1).Idx → EReal)
    (W2 : (Mat N1 N2).Idx → EReal) (b2 : (Mat 1 N2).Idx → EReal) (W3 : (Mat N2 N3).Idx → EReal) (b3 : (Mat 1 N3).Idx → EReal) :
    (Mat R N3).Idx → EReal :=
  layer3 (layer2 (layer1 X1 X2 X3 Wa Wb Wc b1) W2 b2) W3 b3

/-- Node v's aggregate at feature c: the messages of the edges whose first endpoint key is v, plus those whose second
    endpoint key is v, each sum started from the zero word. The keys are the edges' endpoint numbers as integers (an
    edge whose key is no node number contributes to no node). -/
def aggregate {E Nn C : Nat} (k0 k1 : Fin E → ℤ) (msg : (Mat E C).Idx → EReal) : (Mat Nn C).Idx → EReal :=
  fun i => (z0 + ∑ e ∈ Finset.univ.filter (fun e : Fin E => k0 e = ((i 0).val : ℤ)), msg (ix2 e (i 1)))
    + (z0 + ∑ e ∈ Finset.univ.filter (fun e : Fin E => k1 e = ((i 0).val : ℤ)), msg (ix2 e (i 1)))

/-- The node at the same position in the partner graph: graphs of 2048 nodes in consecutive pairs. -/
def partner (n : Fin 65536) : Fin 65536 :=
  ⟨if n.val / 2048 % 2 = 0 then n.val + 2048 else n.val - 2048, by have := n.isLt; split <;> omega⟩

/-- A node's attention input: its state minus its partner's. -/
def attention (ns : (Mat 65536 128).Idx → EReal) : (Mat 65536 128).Idx → EReal :=
  fun i => ns (ix2 (n0 := 65536) (n1 := 128) (i 0) (i 1)) - ns (ix2 (n0 := 65536) (n1 := 128) (partner (i 0)) (i 1))

end Cert.GNN

end
-- ==== Proof.Math.RowLocal.lean ====
/-
  Row locality of the network.

  Every layer computes row r of its result from row r of its input: a product's row is the product of the left
  operand's row, a bias row is added to each row separately, and the maximum with zero is taken entry by entry. So if
  row p of three small column groups is row P of three large ones, row p of the network of the small groups is row P
  of the network of the large ones, with the same weights. This is what turns "block t of a program's output is the
  network applied to block t of the inputs" into "the whole output is the network applied to the whole inputs".
-/
import proofs.«100937_j83021717831844_2_alg».proof.Proof.Spec

noncomputable section

open scoped BigOperators

namespace Cert.GNN

open Idealize.ShloMosaic Idealize.ShloMosaic.ValueIdx Cert.Linear

/-- A product's row p is the left operand's row p against the right operand. -/
theorem matProd_row {r R K N : Nat} (x : (Mat r K).Idx → EReal) (X : (Mat R K).Idx → EReal) (W : (Mat K N).Idx → EReal)
    (p : Fin r) (P : Fin R) (h : ∀ k : Fin K, x (ix2 p k) = X (ix2 P k)) (q : Fin N) :
    matProd x W (ix2 p q) = matProd X W (ix2 P q) :=
  matProd_of_rows X W x W (ix2 p q) (ix2 P q) h (fun _ => rfl)

/-- The first layer, row by row. -/
theorem layer1_row {r R A B C N : Nat}
    (x1 : (Mat r A).Idx → EReal) (x2 : (Mat r B).Idx → EReal) (x3 : (Mat r C).Idx → EReal)
    (X1 : (Mat R A).Idx → EReal) (X2 : (Mat R B).Idx → EReal) (X3 : (Mat R C).Idx → EReal)
    (Wa : (Mat A N).Idx → EReal) (Wb : (Mat B N).Idx → EReal) (Wc : (Mat C N).Idx → EReal) (b : (Mat 1 N).Idx → EReal)
    (p : Fin r) (P : Fin R)
    (h1 : ∀ k : Fin A, x1 (ix2 p k) = X1 (ix2 P k)) (h2 : ∀ k : Fin B, x2 (ix2 p k) = X2 (ix2 P k))
    (h3 : ∀ k : Fin C, x3 (ix2 p k) = X3 (ix2 P k)) (q : Fin N) :
    layer1 x1 x2 x3 Wa Wb Wc b (ix2 p q) = layer1 X1 X2 X3 Wa Wb Wc b (ix2 P q) := by
  show max (((matProd x1 Wa (ix2 p q) + matProd x2 Wb (ix2 p q)) + matProd x3 Wc (ix2 p q)) + b (ix2 (0 : Fin 1) q)) z0
     = max (((matProd X1 Wa (ix2 P q) + matProd X2 Wb (ix2 P q)) + matProd X3 Wc (ix2 P q)) + b (ix2 (0 : Fin 1) q)) z0
  rw [matProd_row x1 X1 Wa p P h1 q, matProd_row x2 X2 Wb p P h2 q, matProd_row x3 X3 Wc p P h3 q]

/-- A middle layer, row by row. -/
theorem layer2_row {r R K N : Nat} (h : (Mat r K).Idx → EReal) (H : (Mat R K).Idx → EReal) (W : (Mat K N).Idx → EReal)
    (b : (Mat 1 N).Idx → EReal) (p : Fin r) (P : Fin R) (hh : ∀ k : Fin K, h (ix2 p k) = H (ix2 P k)) (q : Fin N) :
    layer2 h W b (ix2 p q) = layer2 H W b (ix2 P q) := by
  show max (matProd h W (ix2 p q) + b (ix2 (0 : Fin 1) q)) z0 = max (matProd H W (ix2 P q) + b (ix2 (0 : Fin 1) q)) z0
  rw [matProd_row h H W p P hh q]

/-- The last layer, row by row. -/
theorem layer3_row {r R K N : Nat} (h : (Mat r K).Idx → EReal) (H : (Mat R K).Idx → EReal) (W : (Mat K N).Idx → EReal)
    (b : (Mat 1 N).Idx → EReal) (p : Fin r) (P : Fin R) (hh : ∀ k : Fin K, h (ix2 p k) = H (ix2 P k)) (q : Fin N) :
    layer3 h W b (ix2 p q) = layer3 H W b (ix2 P q) := by
  show matProd h W (ix2 p q) + b (ix2 (0 : Fin 1) q) = matProd H W (ix2 P q) + b (ix2 (0 : Fin 1) q)
  rw [matProd_row h H W p P hh q]

/-- THE NETWORK, ROW BY ROW: if row p of the small column groups is row P of the large ones, row p of the network of
    the small groups is row P of the network of the large ones. -/
theorem net_row {r R A B C N1 N2 N3 : Nat}
    (x1 : (Mat r A).Idx → EReal) (x2 : (Mat r B).Idx → EReal) (x3 : (Mat r C).Idx → EReal)
    (X1 : (Mat R A).Idx → EReal) (X2 : (Mat R B).Idx → EReal) (X3 : (Mat R C).Idx → EReal)
    (Wa : (Mat A N1).Idx → EReal) (Wb : (Mat B N1).Idx → EReal) (Wc : (Mat C N1).Idx → EReal) (b1 : (Mat 1 N1).Idx → EReal)
    (W2 : (Mat N1 N2).Idx → EReal) (b2 : (Mat 1 N2).Idx → EReal) (W3 : (Mat N2 N3).Idx → EReal) (b3 : (Mat 1 N3).Idx → EReal)
    (p : Fin r) (P : Fin R)
    (h1 : ∀ k : Fin A, x1 (ix2 p k) = X1 (ix2 P k)) (h2 : ∀ k : Fin B, x2 (ix2 p k) = X2 (ix2 P k))
    (h3 : ∀ k : Fin C, x3 (ix2 p k) = X3 (ix2 P k)) (q : Fin N3) :
    net x1 x2 x3 Wa Wb Wc b1 W2 b2 W3 b3 (ix2 p q) = net X1 X2 X3 Wa Wb Wc b1 W2 b2 W3 b3 (ix2 P q) :=
  layer3_row _ _ W3 b3 p P
    (fun k => layer2_row _ _ W2 b2 p P (fun k' => layer1_row x1 x2 x3 X1 X2 X3 Wa Wb Wc b1 p P h1 h2 h3 k') k) q

/-- The same for a block of r consecutive rows starting at row o: the block's network is the whole network's rows
    o … o + r − 1. -/
theorem net_rows_at {r R A B C N1 N2 N3 : Nat} (o : Nat) (ho : o + r ≤ R)
    (x1 : (Mat r A).Idx → EReal) (x2 : (Mat r B).Idx → EReal) (x3 : (Mat r C).Idx → EReal)
    (X1 : (Mat R A).Idx → EReal) (X2 : (Mat R B).Idx → EReal) (X3 : (Mat R C).Idx → EReal)
    (Wa : (Mat A N1).Idx → EReal) (Wb : (Mat B N1).Idx → EReal) (Wc : (Mat C N1).Idx → EReal) (b1 : (Mat 1 N1).Idx → EReal)
    (W2 : (Mat N1 N2).Idx → EReal) (b2 : (Mat 1 N2).Idx → EReal) (W3 : (Mat N2 N3).Idx → EReal) (b3 : (Mat 1 N3).Idx → EReal)
    (h1 : ∀ (p : Fin r) (k : Fin A), x1 (ix2 p k) = X1 (ix2 ⟨o + p.val, by omega⟩ k))
    (h2 : ∀ (p : Fin r) (k : Fin B), x2 (ix2 p k) = X2 (ix2 ⟨o + p.val, by omega⟩ k))
    (h3 : ∀ (p : Fin r) (k : Fin C), x3 (ix2 p k) = X3 (ix2 ⟨o + p.val, by omega⟩ k)) (p : Fin r) (q : Fin N3) :
    net x1 x2 x3 Wa Wb Wc b1 W2 b2 W3 b3 (ix2 p q)
      = net X1 X2 X3 Wa Wb Wc b1 W2 b2 W3 b3 (ix2 ⟨o + p.val, by omega⟩ q) :=
  net_row x1 x2 x3 X1 X2 X3 Wa Wb Wc b1 W2 b2 W3 b3 p ⟨o + p.val, by omega⟩ (h1 p) (h2 p) (h3 p) q

end Cert.GNN

end
-- ==== Proof.Math.Partner.lean ====
/-
  The partner row.

  The 65536 nodes are 32 graphs of 2048 nodes, in 16 consecutive pairs; node n sits in graph n / 2048 at position
  n mod 2048, and its partner is the node at the same position in the other graph of the pair: n + 2048 when the graph
  number is even, n − 2048 when it is odd. Two ways of naming that row are used:

  * by blocks of 2048 rows: the partner of row 2048·t + y (t < 32, y < 2048) is row 2048·(t + 1 − 2·(t mod 2)) + y, the
    same position in block t + 1 − 2·(t mod 2);
  * by pairs: writing n = 4096·p + 2048·s + y (p < 16, s < 2, y < 2048), the partner is 4096·p + 2048·(1 − s) + y.
    This is the row that "view the rows as [16, 2, 2048], take the two halves, subtract each from the other, lay the two
    differences one after the other, view as rows again" subtracts from row n.

  All arithmetic on naturals below 65536.
-/
import proofs.«100937_j83021717831844_2_alg».proof.Proof.Spec

noncomputable section

namespace Cert.GNN

open Idealize.ShloMosaic Idealize.ShloMosaic.ValueIdx Cert.Linear

/-- The partner row's number. -/
theorem partner_val (n : Fin 65536) :
    (partner n).val = if n.val / 2048 % 2 = 0 then n.val + 2048 else n.val - 2048 := rfl

/-- The partner block: for a block number t below 32, t + 1 − 2·(t mod 2) is again a block number below 32. -/
theorem partner_block_lt (t : Nat) (ht : t < 32) : t + 1 - 2 * (t % 2) < 32 := by omega

/-- BY BLOCKS: the partner of row 2048·t + y is row 2048·(t + 1 − 2·(t mod 2)) + y. -/
theorem partner_of_block (t y : Nat) (ht : t < 32) (hy : y < 2048) (n : Fin 65536) (hn : n.val = 2048 * t + y) :
    (partner n).val = 2048 * (t + 1 - 2 * (t % 2)) + y := by
  rw [partner_val, hn]
  split <;> omega

/-- The same, read from right to left: the row at position y of block t + 1 − 2·(t mod 2) is the partner of the row at
    position y of block t. -/
theorem block_partner_eq (t y : Nat) (ht : t < 32) (hy : y < 2048) :
    (⟨2048 * (t + 1 - 2 * (t % 2)) + y, by omega⟩ : Fin 65536) = partner ⟨2048 * t + y, by omega⟩ :=
  Fin.ext (partner_of_block t y ht hy ⟨2048 * t + y, by omega⟩ rfl).symm

/-- BY PAIRS: the partner of row 4096·p + 2048·s + y is row 4096·p + 2048·(1 − s) + y. -/
theorem partner_of_pair (p s y : Nat) (hp : p < 16) (hs : s < 2) (hy : y < 2048) (n : Fin 65536)
    (hn : n.val = 4096 * p + 2048 * s + y) :
    (partner n).val = 4096 * p + 2048 * (1 - s) + y := by
  rw [partner_val, hn]
  split <;> omega

/-- The same, read from right to left. -/
theorem pair_partner_eq (p s y : Nat) (hp : p < 16) (hs : s < 2) (hy : y < 2048) :
    (⟨4096 * p + 2048 * (1 - s) + y, by omega⟩ : Fin 65536) = partner ⟨4096 * p + 2048 * s + y, by omega⟩ :=
  Fin.ext (partner_of_pair p s y hp hs hy ⟨4096 * p + 2048 * s + y, by omega⟩ rfl).symm

/-- Every row number below 65536 is 4096·p + 2048·s + y for its pair p, its half s and its position y. -/
theorem pair_coords (n : Nat) (hn : n < 65536) :
    n / 4096 < 16 ∧ n / 2048 % 2 < 2 ∧ n % 2048 < 2048 ∧ n = 4096 * (n / 4096) + 2048 * (n / 2048 % 2) + n % 2048 := by
  omega

/-- Every row number below 65536 is 2048·t + y for its block t and its position y. -/
theorem block_coords (n : Nat) (hn : n < 65536) :
    n / 2048 < 32 ∧ n % 2048 < 2048 ∧ n = 2048 * (n / 2048) + n % 2048 := by
  omega

/-- The partner's partner is the row itself. -/
theorem partner_partner (n : Fin 65536) : partner (partner n) = n := by
  refine Fin.ext ?_
  have hn := n.isLt
  rw [partner_val, partner_val]
  split <;> split <;> omega

/-- The attention input at row n, column c: the state there minus the partner row's. -/
theorem attention_apply (ns : (Mat 65536 128).Idx → EReal) (n : Fin 65536) (c : Fin 128) :
    attention ns (ix2 n c) = ns (ix2 n c) - ns (ix2 (partner n) c) := rfl

end Cert.GNN

end
-- ==== Proof.LibDotLists.lean ====
/-
  GENERAL LEMMA: a dimension record whose axis lists are those of a plain matrix product contracts the left operand's
  columns with the right operand's rows.

  A dimension record for `[R,K] × [K,N] → [R,N]` carries six lists of axes. When they are the plain product's — the left
  operand's axis 1 contracted with the right operand's axis 0, the left operand's axis 0 and the right operand's axis 1
  kept in this order, no batch axis — the record reads, at result index `i` and contraction index `q`, the left
  operand at `(i 0, q)` and the right operand at `(q, i 1)`: the four coordinate equations (`Contracts`) under which a
  matrix unit's product into a zero accumulator and the host's `dot_general` are both the plain sum of products
  `matProd`. A record written out with literal lists meets the six hypotheses by `rfl`.
-/
import proofs.«100937_j83021717831844_2_alg».proof.Proof.LibMatProd
import Idealize.ShloMosaic.Lib.Pipeline.Value
import Idealize.ShloMosaic.Lib.ValueIdx

noncomputable section

namespace Cert.Linear

open Idealize.ShloMosaic Idealize.ShloMosaic.ValueIdx

/-- A dimension record whose axis lists are those of a plain product — the left operand's columns contracted with the
    right operand's rows, the left operand's rows and the right operand's columns kept in this order, no batch axis —
    reads its operands at `(i 0, q)` and `(q, i 1)`. -/
theorem contracts_of_lists {R K N : Nat} (d : DotDims (Mat R K) (Mat K N) (Mat R N))
    (h1 : d.lhsContracting = [1]) (h2 : d.rhsContracting = [0]) (h3 : d.lhsNonContracting = [0])
    (h4 : d.rhsNonContracting = [1]) (h5 : d.lhsBatch = []) (h6 : d.rhsBatch = []) : Contracts d where
  rank := by rw [d.rank_contr, h1]; rfl
  size := by
    rw [d.size_contr 0 (by rw [h1]; exact Nat.one_pos), List.getElem_of_eq h1]
    rfl
  lhs0 := fun i q => by
    unfold DotDims.lhsIdx
    rw [dif_neg (by rw [h5]; exact List.not_mem_nil), dif_pos (by rw [h3]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3])
  lhs1 := fun i q => d.lhsIdx_val_of_single h1 i q
  rhs0 := fun i q => d.rhsIdx_val_of_single h2 i q
  rhs1 := fun i q => by
    unfold DotDims.rhsIdx
    rw [dif_neg (by rw [h6]; exact List.not_mem_nil), dif_pos (by rw [h4]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3, h4])

end Cert.Linear

end
-- ==== Proof.LibStackedProd.lean ====
/-
  GENERAL LEMMAS: matrix products over the extended reals, by rows and by stacked blocks.

  `rowsAt f X` is the array whose row `r` is row `f r` of `X`, and `rowBlock r o h W` is rows `o … o + r − 1` of `W`.
  A product's rows are the products of the left operand's rows (`matProd_rowsAt`): this is what turns a product of a
  block of rows into the block of the product of all rows. A sum over `a + b` indices is the sum over the first `a`
  plus the sum over the last `b` (`sum_split`, in any commutative monoid); so a product whose left operand is two or
  three arrays of `K` columns laid side by side is the sum of the pieces' products with the right operand's row blocks
  (`matProd_join2`, `matProd_join3`), the joined array being given by its column ranges. Nothing here needs a
  finiteness hypothesis: only commutativity and associativity of addition are used.
-/
import Idealize.ShloMosaic.PureOps.Ideal.Laws
import Idealize.ShloMosaic.Lib.ValueIdx
import proofs.«100937_j83021717831844_2_alg».proof.Proof.LibMatProd

noncomputable section

open scoped BigOperators

namespace Cert.Linear

open Idealize.ShloMosaic Idealize.ShloMosaic.ValueIdx

/-- The shape of a vector of length `a`. -/
abbrev Vc (a : Nat) : Shape := ⟨1, ![a]⟩

/-! ## Rows re-indexed -/

/-- The array whose row `r` is row `f r` of `X`. -/
def rowsAt {n N C : Nat} (f : Fin n → Fin N) (X : (Mat N C).Idx → EReal) : (Mat n C).Idx → EReal :=
  fun i => X (ix2 (f (i 0)) (i 1))

/-- Rows `o, o+1, …` of a matrix, as a matrix of `r` rows. -/
def rowBlock {R C : Nat} (r o : Nat) (h : o + r ≤ R) (W : (Mat R C).Idx → EReal) : (Mat r C).Idx → EReal :=
  fun i => W (ix2 ⟨o + (i 0).val, Nat.lt_of_lt_of_le (Nat.add_lt_add_left (idx2_lt0 i) o) h⟩ (i 1))

/-- A product's rows are the products of the left operand's rows. -/
theorem matProd_rowsAt {n N K C : Nat} (f : Fin n → Fin N) (X : (Mat N K).Idx → EReal) (W : (Mat K C).Idx → EReal) :
    matProd (rowsAt f X) W = rowsAt f (matProd X W) := rfl

/-! ## A product with stacked row blocks is the sum of the blocks' products -/

/-- A sum over `a + b` indices is the sum over the first `a` plus the sum over the last `b`. -/
theorem sum_split {M : Type} [AddCommMonoid M] (a b c : Nat) (h : a + b = c) (f : Fin c → M) :
    ∑ k : Fin c, f k = ∑ k : Fin a, f ⟨k.val, by omega⟩ + ∑ k : Fin b, f ⟨a + k.val, by omega⟩ := by
  subst h
  rw [Fin.sum_univ_add]
  rfl

/-- Two arrays of `K` columns side by side against a matrix of `T = K + K` rows: the left array against the top rows
    plus the right array against the bottom rows. The joined array is given by its two column ranges. -/
theorem matProd_join2 {R K T N : Nat} (hT : K + K = T) (A B : (Mat R K).Idx → EReal) (J : (Mat R T).Idx → EReal)
    (W : (Mat T N).Idx → EReal)
    (hA : ∀ (r : Fin R) (k : Fin K), J (ix2 r ⟨k.val, by omega⟩) = A (ix2 r k))
    (hB : ∀ (r : Fin R) (k : Fin K), J (ix2 r ⟨K + k.val, by omega⟩) = B (ix2 r k)) (p : (Mat R N).Idx) :
    matProd J W p = matProd A (rowBlock K 0 (by omega) W) p + matProd B (rowBlock K K (by omega) W) p := by
  obtain ⟨r, q, rfl⟩ : ∃ (r : Fin R) (q : Fin N), p = ix2 r q := ⟨p 0, p 1, eq_ix2 p⟩
  show ∑ k : Fin T, J (ix2 r k) * W (ix2 k q)
      = (∑ k : Fin K, A (ix2 r k) * W (ix2 ⟨0 + k.val, by omega⟩ q)) + ∑ k : Fin K, B (ix2 r k) * W (ix2 ⟨K + k.val, by omega⟩ q)
  refine (sum_split K K T hT _).trans (congrArg₂ (· + ·) (Finset.sum_congr rfl fun k _ => ?_) (Finset.sum_congr rfl fun k _ => ?_))
  · exact congrArg₂ (· * ·) (hA r k) (congrArg (fun z => W (ix2 z q)) (Fin.ext (Nat.zero_add _).symm))
  · exact congrArg (· * _) (hB r k)

/-- Three arrays of `K` columns side by side against a matrix of `T = K + K + K` rows. -/
theorem matProd_join3 {R K T N : Nat} (hT : K + K + K = T) (A B C : (Mat R K).Idx → EReal) (J : (Mat R T).Idx → EReal)
    (W : (Mat T N).Idx → EReal)
    (hA : ∀ (r : Fin R) (k : Fin K), J (ix2 r ⟨k.val, by omega⟩) = A (ix2 r k))
    (hB : ∀ (r : Fin R) (k : Fin K), J (ix2 r ⟨K + k.val, by omega⟩) = B (ix2 r k))
    (hC : ∀ (r : Fin R) (k : Fin K), J (ix2 r ⟨K + K + k.val, by omega⟩) = C (ix2 r k)) (p : (Mat R N).Idx) :
    matProd J W p = matProd A (rowBlock K 0 (by omega) W) p + matProd B (rowBlock K K (by omega) W) p
      + matProd C (rowBlock K (K + K) (by omega) W) p := by
  obtain ⟨r, q, rfl⟩ : ∃ (r : Fin R) (q : Fin N), p = ix2 r q := ⟨p 0, p 1, eq_ix2 p⟩
  show ∑ k : Fin T, J (ix2 r k) * W (ix2 k q)
      = (∑ k : Fin K, A (ix2 r k) * W (ix2 ⟨0 + k.val, by omega⟩ q)) + (∑ k : Fin K, B (ix2 r k) * W (ix2 ⟨K + k.val, by omega⟩ q))
        + ∑ k : Fin K, C (ix2 r k) * W (ix2 ⟨K + K + k.val, by omega⟩ q)
  refine (sum_split (K + K) K T hT _).trans (congrArg₂ (· + ·) ?_ (Finset.sum_congr rfl fun k _ => ?_))
  · refine (sum_split K K (K + K) rfl _).trans (congrArg₂ (· + ·) (Finset.sum_congr rfl fun k _ => ?_) (Finset.sum_congr rfl fun k _ => ?_))
    · exact congrArg₂ (· * ·) (hA r k) (congrArg (fun z => W (ix2 z q)) (Fin.ext (Nat.zero_add _).symm))
    · exact congrArg (· * _) (hB r k)
  · exact congrArg (· * _) (hC r k)

end Cert.Linear

end
-- ==== Proof.LibRowLayout.lean ====
/-
  GENERAL LEMMAS: layout operations read as whole-array equalities over the extended reals.

  A cut of `r` rows out of a matrix is the row block (`slice_rows`). A vector laid as one row and repeated over all rows
  — spelled by a kernel as a shape cast `[b] → [1, b]` then a broadcast `[1, b] → [a, b]` (`biasRows`), by the host as
  two broadcasts (`biasRowsHost`) — holds at `(r, k)` the vector's entry `k`. A `[1, a, b]` array read as `[a, b]` holds
  at `(i, j)` the entry `(0, i, j)` (`shapeCast_dropUnit`). A change of float format is the identity on the extended
  reals (`truncf_id`); the float word `0x3F800000` denotes 1 (`one_word`), and one over one plus the exponential of the
  negation, with the ones written as that word, is the logistic function at every extended real, the infinities
  included (`logistic_words`).
-/
import proofs.«100937_j83021717831844_2_alg».proof.Proof.LibStackedProd
import Idealize.ShloMosaic.Lib.Pipeline.Value
import Idealize.ShloMosaic.Lib.ValueLayout
import Idealize.ShloMosaic.PureOps.IdealRules

noncomputable section

namespace Cert.Linear

open Idealize.ShloMosaic Idealize.ShloMosaic.ValueIdx

/-- Rows `o … o + r − 1` cut out of a matrix. -/
theorem slice_rows {R C r : Nat} (o : Nat) (W : (Mat R C).Idx → EReal) (h : (Mat R C).Slices ![o, 0] (Mat r C)) (hb : o + r ≤ R) :
    extractStridedSlice (Mat r C) ![o, 0] W h = rowBlock r o hb W := by
  funext i
  obtain ⟨a, b, rfl⟩ : ∃ (a : Fin r) (b : Fin C), i = ix2 a b := ⟨i 0, i 1, eq_ix2 i⟩
  exact slice2_axis0_eq o W h a b

/-- The kernel's spelling of a bias row over all rows. -/
theorem biasRows {a b : Nat} (v : (Vc b).Idx → EReal) (h1 : (Vc b).ShapeCasts (Mat 1 b)) (h2 : (Mat 1 b).Broadcasts (Mat a b)) :
    broadcastTo (Mat a b) (shapeCast (Mat 1 b) v h1) h2 = fun p => v (ix1 (p 1)) := by
  funext p
  obtain ⟨r, k, rfl⟩ : ∃ (r : Fin a) (k : Fin b), p = ix2 r k := ⟨p 0, p 1, eq_ix2 p⟩
  exact (broadcastTo_1b_ab_apply _ h2 r k).trans (shapeCast_a_1a_apply v h1 0 k)

/-- The host's spelling of a bias row over all rows. -/
theorem biasRowsHost {a b : Nat} (v : (Vc b).Idx → EReal) (h1 : (Vc b).BroadcastsInDim (Mat 1 b) ![1])
    (h2 : (Mat 1 b).BroadcastsInDim (Mat a b) ![0, 1]) :
    broadcastInDim (Mat a b) ![0, 1] h2 (broadcastInDim (Mat 1 b) ![1] h1 v) = fun p => v (ix1 (p 1)) := by
  funext p
  obtain ⟨r, k, rfl⟩ : ∃ (r : Fin a) (k : Fin b), p = ix2 r k := ⟨p 0, p 1, eq_ix2 p⟩
  have hk : k.val < b := k.isLt
  exact (broadcastInDim_apply _ h2 _ (ix2 r k) (ix2 (0 : Fin 1) k) (fun ax => by
      match ax with
      | ⟨0, _⟩ => rfl
      | ⟨1, _⟩ => show k.val = if b = 1 then 0 else k.val; split <;> omega)).trans
    (broadcastInDim_apply _ h1 v (ix2 (0 : Fin 1) k) (ix1 k) (fun ax => by
      match ax with
      | ⟨0, _⟩ => show k.val = if b = 1 then 0 else k.val; split <;> omega))

/-- A `[1, a, b]` array with its unit axis dropped. -/
def dropUnit {a b : Nat} (x : (⟨3, ![1, a, b]⟩ : Shape).Idx → EReal) : (Mat a b).Idx → EReal :=
  fun i => x (ix3 (0 : Fin 1) (i 0) (i 1))

theorem shapeCast_dropUnit {a b : Nat} (x : (⟨3, ![1, a, b]⟩ : Shape).Idx → EReal)
    (h : (⟨3, ![1, a, b]⟩ : Shape).ShapeCasts (Mat a b)) : shapeCast (Mat a b) x h = dropUnit x := by
  funext i
  obtain ⟨r, k, rfl⟩ : ∃ (r : Fin a) (k : Fin b), i = ix2 r k := ⟨i 0, i 1, eq_ix2 i⟩
  exact shapeCast_1ab_ab_apply x h r k

/-- A change of float format is the identity on the extended reals. -/
theorem truncf_id {s : Shape} {φ ψ : FTy} (x : FVec Ideal s φ) (h : ψ.bits < φ.bits) : truncf ψ x h = x := rfl

/-- The float word of one denotes 1. -/
theorem one_word : Ideal.ofBits .f32 0x3F800000#32 = 1 := by simp [Ideal.ofBits, Ideal.ieee, -EReal.coe_mul]; norm_num

/-- The logistic function as the host spells it: one over one plus the exponential of the negation, the ones written
    as float words. -/
theorem logistic_words (x : EReal) :
    Ideal.div (Ideal.ofBits .f32 0x3F800000#32) (Ideal.ofBits .f32 0x3F800000#32 + Ideal.exp (-x)) = Ideal.logistic x := by
  rw [one_word]; rfl

end Cert.Linear

end
-- ==== Proof.Math.Payload.lean ====
/-
  The two bodies' stored values are the three-layer network of their loads.

  Each body computes, from the blocks it loads, three products into zero accumulators added in order, a bias row, the
  maximum with zero, a second product with its bias row and maximum with zero, and a third product with its bias row.
  At the ideal values a change of float format and a cast to the same shape are the identity, a product into the zero
  accumulator is the plain sum of products, and "add a 1 × K row to every row, take the maximum with the zero splat" is
  the specification's layer. So each stored value is the specification's network of the loaded blocks. In the second
  body the third column group is the difference of two loaded blocks, and the order of the three products is
  (first block)·Wa + (third block)·Wb + (first − second)·Wc.
-/
import proofs.«100937_j83021717831844_2_alg».proof.Proof.Gen.KernelIdeal.Skeleton
import proofs.«100937_j83021717831844_2_alg».proof.Proof.Spec
import proofs.«100937_j83021717831844_2_alg».proof.Proof.LibDotLists
import proofs.«100937_j83021717831844_2_alg».proof.Proof.LibRowLayout

noncomputable section

open scoped BigOperators

namespace Cert.GNN

open Idealize.ShloMosaic Idealize.ShloMosaic.ValueIdx Cert.Linear Cert.KernelIdeal Cert.KernelIdeal.Gen

/-- A 1 × K row added to every row of an R × K array, then the maximum with the zero splat: the vector operations'
    spelling of "bias row, maximum with zero". -/
theorem biasMax_vec {R K : Nat} (A : FVec Ideal (Mat R K) .f32) (b : FVec Ideal (Mat 1 K) .f32)
    (h3 : (Mat 1 K).Broadcasts (Mat R K)) :
    maximumf (addf A (broadcastTo (Mat R K) b h3))
        (broadcast (Mat R K) (Scalar.ofBits (F := Ideal) .f32 0x00000000#32)) = rowBiasMax A b z0 := by
  funext i
  obtain ⟨p, q, rfl⟩ : ∃ (p : Fin R) (q : Fin K), i = ix2 p q := ⟨i 0, i 1, eq_ix2 i⟩
  show max (A (ix2 p q) + broadcastTo (Mat R K) b h3 (ix2 p q)) z0 = max (A (ix2 p q) + b (ix2 (0 : Fin 1) q)) z0
  rw [broadcastTo_1b_ab_apply b h3 p q]

/-- A 1 × K row added to every row of an R × K array: the vector operations' spelling of "bias row". -/
theorem bias_vec {R K : Nat} (A : FVec Ideal (Mat R K) .f32) (b : FVec Ideal (Mat 1 K) .f32)
    (h3 : (Mat 1 K).Broadcasts (Mat R K)) :
    addf A (broadcastTo (Mat R K) b h3) = Cert.SelfLoop.rowBias A b := by
  funext i
  obtain ⟨p, q, rfl⟩ : ∃ (p : Fin R) (q : Fin K), i = ix2 p q := ⟨i 0, i 1, eq_ix2 i⟩
  show A (ix2 p q) + broadcastTo (Mat R K) b h3 (ix2 p q) = A (ix2 p q) + b (ix2 (0 : Fin 1) q)
  rw [broadcastTo_1b_ab_apply b h3 p q]

/-- This record contracts the left operand's columns with the right operand's rows. -/
theorem c0_128_256 : Contracts dot_S4096x128_S128x256_S4096x256_1_0_0_1_n_n := contracts_of_lists _ rfl rfl rfl rfl rfl rfl
/-- This record contracts the left operand's columns with the right operand's rows. -/
theorem c0_64_256 : Contracts dot_S4096x64_S64x256_S4096x256_1_0_0_1_n_n := contracts_of_lists _ rfl rfl rfl rfl rfl rfl
/-- This record contracts the left operand's columns with the right operand's rows. -/
theorem c0_256_256 : Contracts dot_S4096x256_S256x256_S4096x256_1_0_0_1_n_n := contracts_of_lists _ rfl rfl rfl rfl rfl rfl
/-- This record contracts the left operand's columns with the right operand's rows. -/
theorem c0_256_128 : Contracts dot_S4096x256_S256x128_S4096x128_1_0_0_1_n_n := contracts_of_lists _ rfl rfl rfl rfl rfl rfl
/-- This record contracts the left operand's columns with the right operand's rows. -/
theorem c1_128_256 : Contracts dot_S2048x128_S128x256_S2048x256_1_0_0_1_n_n := contracts_of_lists _ rfl rfl rfl rfl rfl rfl
/-- This record contracts the left operand's columns with the right operand's rows. -/
theorem c1_256_256 : Contracts dot_S2048x256_S256x256_S2048x256_1_0_0_1_n_n := contracts_of_lists _ rfl rfl rfl rfl rfl rfl
/-- This record contracts the left operand's columns with the right operand's rows. -/
theorem c1_256_128 : Contracts dot_S2048x256_S256x128_S2048x128_1_0_0_1_n_n := contracts_of_lists _ rfl rfl rfl rfl rfl rfl

/-- THE FIRST BODY'S STORED VALUE is the network of its eleven loads: column groups x0 | x1 | x2 against the row groups
    x3, x4, x5 with bias row x6; then x7 with bias row x8; then x9 with bias row x10. -/
theorem pay0_eq (x0 x1 : Vec Ideal S4096x128 .bf16) (x2 : Vec Ideal S4096x64 .bf16) (x3 x4 : Vec Ideal S128x256 .bf16)
    (x5 : Vec Ideal S64x256 .bf16) (x6 : Vec Ideal S1x256 .f32) (x7 : Vec Ideal S256x256 .bf16) (x8 : Vec Ideal S1x256 .f32)
    (x9 : Vec Ideal S256x128 .bf16) (x10 : Vec Ideal S1x128 .f32) :
    k0_pay1 (k0_pay2 x0 x1 x2 x3 x4 x5 x6 x7 x8) x9 x10 = net x0 x1 x2 x3 x4 x5 x6 x7 x8 x9 x10 := by
  unfold k0_pay1 k0_pay2
  dsimp only [matmul]
  simp only [shapeCast_self, truncf_id]
  rw [matmul_zero_eq c0_128_256, matmul_zero_eq c0_128_256, matmul_zero_eq c0_64_256]
  rw [biasMax_vec]
  rw [matmul_zero_eq c0_256_256, biasMax_vec, matmul_zero_eq c0_256_128, bias_vec]
  rfl

/-- THE SECOND BODY'S STORED VALUE is the network of its loads, the column groups being x0 | x2 | x0 − x1. -/
theorem pay1_eq (x0 x1 x2 : Vec Ideal S2048x128 .f32) (x3 x4 x5 : Vec Ideal S128x256 .f32) (x6 : Vec Ideal S1x256 .f32)
    (x7 : Vec Ideal S256x256 .f32) (x8 : Vec Ideal S1x256 .f32) (x9 : Vec Ideal S256x128 .f32) (x10 : Vec Ideal S1x128 .f32) :
    k1_pay1 (k1_pay2 x0 x1 x2 x3 x4 x5 x6 x7 x8) x9 x10 = net x0 x2 (fun i => x0 i - x1 i) x3 x4 x5 x6 x7 x8 x9 x10 := by
  unfold k1_pay1 k1_pay2
  dsimp only [matmul]
  simp only [shapeCast_self, truncf_id]
  rw [matmul_zero_eq c1_128_256, matmul_zero_eq c1_128_256, matmul_zero_eq c1_128_256]
  rw [biasMax_vec]
  rw [matmul_zero_eq c1_256_256, biasMax_vec, matmul_zero_eq c1_256_128, bias_vec]
  rfl

end Cert.GNN

end
-- ==== Proof.KI.Value0.lean ====
/- The message array after pallas_call 0, at the ideal values: the three-layer network applied, row by row, to the arrays
   the region finds. Each point stores the network of its blocks; the weight and bias windows are the whole arrays; the
   three row-blocked inputs' block rows are array rows; and the network computes row r of its result from row r of its
   inputs. -/
import proofs.«100937_j83021717831844_2_alg».proof.Proof.KI.Blocks0
import proofs.«100937_j83021717831844_2_alg».proof.Proof.Spec
import proofs.«100937_j83021717831844_2_alg».proof.Proof.Math.RowLocal
import proofs.«100937_j83021717831844_2_alg».proof.Proof.Math.Partner
import proofs.«100937_j83021717831844_2_alg».proof.Proof.Math.Payload

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

/-- THE MESSAGES: after the region the output array is the network of the eleven arrays the region finds. -/
theorem msg_value (V : (c : Dev nD) → (b : Ref sig .tc) → Buf (Elt Ideal) ((c : Thread nD τ).loc b)) (c : Dev nD) :
    (dat0 V c).arrAt 11 cfg0.N
      = Cert.GNN.net (V c main_v12) (V c main_v19) (V c main_v5) (V c main_v21) (V c main_v23) (V c main_v25) (V c main_v28) (V c main_v26) (V c main_v29) (V c main_v27) (V c main_v30) := by
  refine final0 V c _ (fun t p q => ?_)
  have ht := pt_lt0 t
  unfold out0
  rw [Cert.GNN.pay0_eq]
  rw [iblk0_whole3 V c t, iblk0_whole4 V c t, iblk0_whole5 V c t, iblk0_whole6 V c t, iblk0_whole7 V c t, iblk0_whole8 V c t, iblk0_whole9 V c t, iblk0_whole10 V c t]
  exact Cert.GNN.net_rows_at (4096 * t.val) (by omega) _ _ _ _ _ _ _ _ _ _ _ _ _ _
    (iblk0_row0 V c t) (iblk0_row1 V c t) (iblk0_row2 V c t) p q

end Cert.KernelIdeal.Hand

end
-- ==== Proof.KI.Blocks1.lean ====
/- From the blocks of pallas_call 1 to its arrays, at any float instance and any region-entry contents `V`: what each
   input window's block reads of its array (a row of a row-blocked array; the array itself for a window that is the
   whole array), and the output array after the region as any function its stored blocks agree with. -/
import proofs.«100937_j83021717831844_2_alg».proof.Proof.KI.Region1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

section Blocks1
variable (V : (c : Dev nD) → (b : Ref sig .tc) → Buf (Elt F) ((c : Thread nD τ).loc b))

/-! ## The printed index maps, decided once over the grid -/

/-- The row-blocked windows' block indices at point `t`: window 1 reads the PARTNER block (the other one of the pair of consecutive blocks), the others block `t`, in the one column of blocks. -/
theorem index1_rows : ∀ t : Fin cfg1.N,
    win1_0.index t (0 : Fin 2) = t.val ∧ win1_0.index t (1 : Fin 2) = 0
    ∧ win1_1.index t (0 : Fin 2) = t.val + 1 - 2 * (t.val % 2) ∧ win1_1.index t (1 : Fin 2) = 0
    ∧ win1_2.index t (0 : Fin 2) = t.val ∧ win1_2.index t (1 : Fin 2) = 0
    ∧ win1_11.index t (0 : Fin 2) = t.val ∧ win1_11.index t (1 : Fin 2) = 0 :=
  (by decide +kernel : ∀ t : Fin grid1.N, _)

/-- The whole-array windows' block index is zero at every point. -/
theorem index1_whole : ∀ t : Fin cfg1.N,
    win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0 :=
  (by decide +kernel : ∀ t : Fin grid1.N, _)

/-- A grid point is below 32. -/
theorem pt_lt1 (t : Fin cfg1.N) : t.val < 32 := lt_of_lt_of_eq t.isLt N_1

/-! ## The row-blocked inputs: row `p` of block `t` is a row of the array -/

theorem iblk1_row0 (c : Dev nD) (t : Fin cfg1.N) (p : Fin 2048) (k : Fin 128) :
    iblk1 V c 0 t (ix2 p k) = V c (Pipeline.arrRef spec1 0) (ix2 ⟨2048 * t.val + p.val, by
      have ht := pt_lt1 t; have hp := p.isLt; omega⟩ k) := by
  obtain ⟨e0, e1, -, -, -, -, -, -⟩ := index1_rows t
  have ht := pt_lt1 t
  show V c (Pipeline.arrRef spec1 0) (((cfg1.win 0).blk t).view.emb (ix2 p k)) = _
  refine congrArg _ ?_
  funext a; apply Fin.ext
  match a with
  | ⟨0, _⟩ => show win1_0.index t (0 : Fin 2) * 2048 + 1 * p.val = 2048 * t.val + p.val; omega
  | ⟨1, _⟩ => show win1_0.index t (1 : Fin 2) * 128 + 1 * k.val = k.val; omega

theorem iblk1_row1 (c : Dev nD) (t : Fin cfg1.N) (p : Fin 2048) (k : Fin 128) :
    iblk1 V c 1 t (ix2 p k) = V c (Pipeline.arrRef spec1 1) (ix2 ⟨2048 * (t.val + 1 - 2 * (t.val % 2)) + p.val, by
      have ht := pt_lt1 t; have hp := p.isLt; omega⟩ k) := by
  obtain ⟨-, -, e0, e1, -, -, -, -⟩ := index1_rows t
  have ht := pt_lt1 t
  show V c (Pipeline.arrRef spec1 1) (((cfg1.win 1).blk t).view.emb (ix2 p k)) = _
  refine congrArg _ ?_
  funext a; apply Fin.ext
  match a with
  | ⟨0, _⟩ => show win1_1.index t (0 : Fin 2) * 2048 + 1 * p.val = 2048 * (t.val + 1 - 2 * (t.val % 2)) + p.val; omega
  | ⟨1, _⟩ => show win1_1.index t (1 : Fin 2) * 128 + 1 * k.val = k.val; omega

theorem iblk1_row2 (c : Dev nD) (t : Fin cfg1.N) (p : Fin 2048) (k : Fin 128) :
    iblk1 V c 2 t (ix2 p k) = V c (Pipeline.arrRef spec1 2) (ix2 ⟨2048 * t.val + p.val, by
      have ht := pt_lt1 t; have hp := p.isLt; omega⟩ k) := by
  obtain ⟨-, -, -, -, e0, e1, -, -⟩ := index1_rows t
  have ht := pt_lt1 t
  show V c (Pipeline.arrRef spec1 2) (((cfg1.win 2).blk t).view.emb (ix2 p k)) = _
  refine congrArg _ ?_
  funext a; apply Fin.ext
  match a with
  | ⟨0, _⟩ => show win1_2.index t (0 : Fin 2) * 2048 + 1 * p.val = 2048 * t.val + p.val; omega
  | ⟨1, _⟩ => show win1_2.index t (1 : Fin 2) * 128 + 1 * k.val = k.val; omega

/-! ## The whole-array inputs: the block is the array -/

theorem iblk1_whole3 (c : Dev nD) (t : Fin cfg1.N) : iblk1 V c 3 t = V c (Pipeline.arrRef spec1 3) := by
  obtain ⟨e0, e1, -, -, -, -, -, -, -, -, -, -, -, -, -, -⟩ := index1_whole t
  refine funext fun (j : S128x256.Idx) => ?_
  show V c (Pipeline.arrRef spec1 3) (((cfg1.win 3).blk t).view.emb j) = V c (Pipeline.arrRef spec1 3) j
  refine congrArg _ ?_
  funext a; apply Fin.ext
  match a with
  | ⟨0, _⟩ => show win1_3.index t (0 : Fin 2) * 128 + 1 * (j 0).val = (j 0).val; omega
  | ⟨1, _⟩ => show win1_3.index t (1 : Fin 2) * 256 + 1 * (j 1).val = (j 1).val; omega

theorem iblk1_whole4 (c : Dev nD) (t : Fin cfg1.N) : iblk1 V c 4 t = V c (Pipeline.arrRef spec1 4) := by
  obtain ⟨-, -, e0, e1, -, -, -, -, -, -, -, -, -, -, -, -⟩ := index1_whole t
  refine funext fun (j : S128x256.Idx) => ?_
  show V c (Pipeline.arrRef spec1 4) (((cfg1.win 4).blk t).view.emb j) = V c (Pipeline.arrRef spec1 4) j
  refine congrArg _ ?_
  funext a; apply Fin.ext
  match a with
  | ⟨0, _⟩ => show win1_4.index t (0 : Fin 2) * 128 + 1 * (j 0).val = (j 0).val; omega
  | ⟨1, _⟩ => show win1_4.index t (1 : Fin 2) * 256 + 1 * (j 1).val = (j 1).val; omega

theorem iblk1_whole5 (c : Dev nD) (t : Fin cfg1.N) : iblk1 V c 5 t = V c (Pipeline.arrRef spec1 5) := by
  obtain ⟨-, -, -, -, e0, e1, -, -, -, -, -, -, -, -, -, -⟩ := index1_whole t
  refine funext fun (j : S128x256.Idx) => ?_
  show V c (Pipeline.arrRef spec1 5) (((cfg1.win 5).blk t).view.emb j) = V c (Pipeline.arrRef spec1 5) j
  refine congrArg _ ?_
  funext a; apply Fin.ext
  match a with
  | ⟨0, _⟩ => show win1_5.index t (0 : Fin 2) * 128 + 1 * (j 0).val = (j 0).val; omega
  | ⟨1, _⟩ => show win1_5.index t (1 : Fin 2) * 256 + 1 * (j 1).val = (j 1).val; omega

theorem iblk1_whole6 (c : Dev nD) (t : Fin cfg1.N) : iblk1 V c 6 t = V c (Pipeline.arrRef spec1 6) := by
  obtain ⟨-, -, -, -, -, -, e0, e1, -, -, -, -, -, -, -, -⟩ := index1_whole t
  refine funext fun (j : S1x256.Idx) => ?_
  show V c (Pipeline.arrRef spec1 6) (((cfg1.win 6).blk t).view.emb j) = V c (Pipeline.arrRef spec1 6) j
  refine congrArg _ ?_
  funext a; apply Fin.ext
  match a with
  | ⟨0, _⟩ => show win1_6.index t (0 : Fin 2) * 1 + 1 * (j 0).val = (j 0).val; omega
  | ⟨1, _⟩ => show win1_6.index t (1 : Fin 2) * 256 + 1 * (j 1).val = (j 1).val; omega

theorem iblk1_whole7 (c : Dev nD) (t : Fin cfg1.N) : iblk1 V c 7 t = V c (Pipeline.arrRef spec1 7) := by
  obtain ⟨-, -, -, -, -, -, -, -, e0, e1, -, -, -, -, -, -⟩ := index1_whole t
  refine funext fun (j : S256x256.Idx) => ?_
  show V c (Pipeline.arrRef spec1 7) (((cfg1.win 7).blk t).view.emb j) = V c (Pipeline.arrRef spec1 7) j
  refine congrArg _ ?_
  funext a; apply Fin.ext
  match a with
  | ⟨0, _⟩ => show win1_7.index t (0 : Fin 2) * 256 + 1 * (j 0).val = (j 0).val; omega
  | ⟨1, _⟩ => show win1_7.index t (1 : Fin 2) * 256 + 1 * (j 1).val = (j 1).val; omega

theorem iblk1_whole8 (c : Dev nD) (t : Fin cfg1.N) : iblk1 V c 8 t = V c (Pipeline.arrRef spec1 8) := by
  obtain ⟨-, -, -, -, -, -, -, -, -, -, e0, e1, -, -, -, -⟩ := index1_whole t
  refine funext fun (j : S1x256.Idx) => ?_
  show V c (Pipeline.arrRef spec1 8) (((cfg1.win 8).blk t).view.emb j) = V c (Pipeline.arrRef spec1 8) j
  refine congrArg _ ?_
  funext a; apply Fin.ext
  match a with
  | ⟨0, _⟩ => show win1_8.index t (0 : Fin 2) * 1 + 1 * (j 0).val = (j 0).val; omega
  | ⟨1, _⟩ => show win1_8.index t (1 : Fin 2) * 256 + 1 * (j 1).val = (j 1).val; omega

theorem iblk1_whole9 (c : Dev nD) (t : Fin cfg1.N) : iblk1 V c 9 t = V c (Pipeline.arrRef spec1 9) := by
  obtain ⟨-, -, -, -, -, -, -, -, -, -, -, -, e0, e1, -, -⟩ := index1_whole t
  refine funext fun (j : S256x128.Idx) => ?_
  show V c (Pipeline.arrRef spec1 9) (((cfg1.win 9).blk t).view.emb j) = V c (Pipeline.arrRef spec1 9) j
  refine congrArg _ ?_
  funext a; apply Fin.ext
  match a with
  | ⟨0, _⟩ => show win1_9.index t (0 : Fin 2) * 256 + 1 * (j 0).val = (j 0).val; omega
  | ⟨1, _⟩ => show win1_9.index t (1 : Fin 2) * 128 + 1 * (j 1).val = (j 1).val; omega

theorem iblk1_whole10 (c : Dev nD) (t : Fin cfg1.N) : iblk1 V c 10 t = V c (Pipeline.arrRef spec1 10) := by
  obtain ⟨-, -, -, -, -, -, -, -, -, -, -, -, -, -, e0, e1⟩ := index1_whole t
  refine funext fun (j : S1x128.Idx) => ?_
  show V c (Pipeline.arrRef spec1 10) (((cfg1.win 10).blk t).view.emb j) = V c (Pipeline.arrRef spec1 10) j
  refine congrArg _ ?_
  funext a; apply Fin.ext
  match a with
  | ⟨0, _⟩ => show win1_10.index t (0 : Fin 2) * 1 + 1 * (j 0).val = (j 0).val; omega
  | ⟨1, _⟩ => show win1_10.index t (1 : Fin 2) * 128 + 1 * (j 1).val = (j 1).val; omega

/-! ## From the output's blocks to the array -/

/-- An index of the output array is in point `t`'s block iff each coordinate is in the block's range on its axis. -/
theorem mem_blk1 (t : Fin cfg1.N) (i : S65536x128.Idx) :
    i ∈ ((cfg1.win 11).blk t).view.set ↔ ∀ a : Fin 2, win1_11.index t a * S2048x128.size a ≤ (i a).val ∧ (i a).val < win1_11.index t a * S2048x128.size a + S2048x128.size a := by
  show i ∈ ((View.whole main_v43).slice (win1_11.rect t)).set ↔ _
  rw [View.set_slice_whole, Rect.mem_set_unit]
  exact Iff.rfl

/-- THE OUTPUT ARRAY after the region: any function `G` of the array's indices that every point's stored block agrees
    with, row `p` of block `t` being row `2048 · t + p` of the array — the blocks tile the array, row `e` lying in block
    `e / 2048`. -/
theorem final1 (c : Dev nD) (G : S65536x128.Idx → Elt F .f32)
    (hG : ∀ (t : Fin cfg1.N) (p : Fin 2048) (q : Fin 128),
      out1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (ix2 p q)
        = G (ix2 ⟨2048 * t.val + p.val, by have ht := pt_lt1 t; have hp := p.isLt; omega⟩ q)) :
    (dat1 V c).arrAt 11 cfg1.N = G := by
  refine (dat1 V c).arrAt_eq_of_cover 11 G (fun t _ => ?_) (fun i => ?_)
  · show (cfg1.win 11).cut (grid1.coords t) ((dat1 V c).after 11 t) = _
    rw [after1_11]
    obtain ⟨-, -, -, -, -, -, e0, e1⟩ := index1_rows t
    have ht := pt_lt1 t
    refine funext fun (j : S2048x128.Idx) => ?_
    obtain ⟨p, q, rfl⟩ : ∃ (p : Fin 2048) (q : Fin 128), j = ix2 p q := ⟨j 0, j 1, eq_ix2 j⟩
    show out1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (ix2 p q) = G (((cfg1.win 11).blk t).view.emb (ix2 p q))
    rw [hG t p q]
    refine congrArg _ ?_
    funext a; apply Fin.ext
    match a with
    | ⟨0, _⟩ => show 2048 * t.val + p.val = win1_11.index t (0 : Fin 2) * 2048 + 1 * p.val; omega
    | ⟨1, _⟩ => show q.val = win1_11.index t (1 : Fin 2) * 128 + 1 * q.val; omega
  · have hi0 : ((i : S65536x128.Idx) 0).val < 65536 := ((i : S65536x128.Idx) 0).isLt
    have hi1 : ((i : S65536x128.Idx) 1).val < 128 := ((i : S65536x128.Idx) 1).isLt
    obtain ⟨t, ht⟩ : ∃ t : Fin cfg1.N, t.val = ((i : S65536x128.Idx) 0).val / 2048 :=
      ⟨⟨((i : S65536x128.Idx) 0).val / 2048, by rw [show cfg1.N = 32 from N_1]; omega⟩, rfl⟩
    obtain ⟨-, -, -, -, -, -, e0, e1⟩ := index1_rows t
    refine ⟨t, flush1_11 t, ?_⟩
    rw [mem_blk1]
    intro a
    match a with
    | ⟨0, _⟩ => show win1_11.index t (0 : Fin 2) * 2048 ≤ ((i : S65536x128.Idx) 0).val ∧ ((i : S65536x128.Idx) 0).val < win1_11.index t (0 : Fin 2) * 2048 + 2048; omega
    | ⟨1, _⟩ => show win1_11.index t (1 : Fin 2) * 128 ≤ ((i : S65536x128.Idx) 1).val ∧ ((i : S65536x128.Idx) 1).val < win1_11.index t (1 : Fin 2) * 128 + 128; omega

end Blocks1

end Cert.KernelIdeal.Hand

end
-- ==== Proof.KI.Value1.lean ====
/- The result array after pallas_call 1, at the ideal values: the three-layer network applied, row by row, to
   (node states | aggregate | attention input). Each point stores the network of (its block | the aggregate's block |
   its block minus the partner block); a block row minus the partner block's row at the same position is the attention
   input's row. -/
import proofs.«100937_j83021717831844_2_alg».proof.Proof.KI.Blocks1
import proofs.«100937_j83021717831844_2_alg».proof.Proof.Spec
import proofs.«100937_j83021717831844_2_alg».proof.Proof.Math.RowLocal
import proofs.«100937_j83021717831844_2_alg».proof.Proof.Math.Partner
import proofs.«100937_j83021717831844_2_alg».proof.Proof.Math.Payload

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

/-- THE RESULT: after the region the output array is the network of (node states | aggregate | attention input) and the
    eight weight and bias arrays the region finds. -/
theorem out_value (V : (c : Dev nD) → (b : Ref sig .tc) → Buf (Elt Ideal) ((c : Thread nD τ).loc b)) (c : Dev nD) :
    (dat1 V c).arrAt 11 cfg1.N
      = Cert.GNN.net (V c main_arg0) (V c main_v36) (Cert.GNN.attention (V c main_arg0)) (V c main_v37) (V c main_v38)
          (V c main_v39) (V c main_v40) (V c main_arg11) (V c main_v41) (V c main_arg13) (V c main_v42) := by
  refine final1 V c _ (fun t p q => ?_)
  have ht := pt_lt1 t
  unfold out1
  rw [Cert.GNN.pay1_eq]
  rw [iblk1_whole3 V c t, iblk1_whole4 V c t, iblk1_whole5 V c t, iblk1_whole6 V c t, iblk1_whole7 V c t, iblk1_whole8 V c t, iblk1_whole9 V c t, iblk1_whole10 V c t]
  refine Cert.GNN.net_rows_at (2048 * t.val) (by omega) _ _ _ _ _ _ _ _ _ _ _ _ _ _
    (iblk1_row0 V c t) (iblk1_row2 V c t) (fun p' k => ?_) p q
  beta_reduce
  rw [iblk1_row0 V c t p' k, iblk1_row1 V c t p' k, Cert.GNN.attention_apply, Cert.GNN.block_partner_eq t.val p'.val ht p'.isLt]

end Cert.KernelIdeal.Hand

end
-- ==== Proof.KI.KernelValue.lean ====
/- The whole program's value at the ideal values: the result array after every weakly fair execution, as one pure
   term of the fifteen argument arrays. The messages are the three-layer network of (gathered first-endpoint states |
   gathered second-endpoint states | edge features) with the first weight matrix cut into its three row groups; the
   aggregate is ONE accumulating scatter of the messages laid end to end with themselves at the two endpoint columns
   laid end to end, into zeros; the result is the network of (node states | aggregate | attention input). Each buffer
   a kernel reads is traced back through the host lines and the first kernel's written-back array to the arguments. -/
import proofs.«100937_j83021717831844_2_alg».proof.Proof.KI.Run
import proofs.«100937_j83021717831844_2_alg».proof.Proof.KI.HostReads
import proofs.«100937_j83021717831844_2_alg».proof.Proof.KI.Value0
import proofs.«100937_j83021717831844_2_alg».proof.Proof.KI.Value1

set_option maxRecDepth 16384

noncomputable section

namespace Cert.KernelIdeal.Hand

open Idealize.ShloMosaic Idealize.ShloMosaic.TcCoe Idealize.ShloMosaic.StableHlo
open Idealize.SL Idealize.SL.Sem
open Cert.KernelIdeal Cert.KernelIdeal.Facts₀ Cert.KernelIdeal.Facts

/-! ## The value, as a term of the arguments -/

/-- The messages: the network of (states gathered at each edge's first endpoint | at its second endpoint | edge
    features), every float input converted, the first weight matrix cut into row groups of 128, 128 and 64 rows, the
    biases as rows. -/
def kernelMsg (a0 : (⟨S65536x128, .f32⟩ : BufTy).Contents (Elt Ideal)) (a1 : (⟨S524288x64, .f32⟩ : BufTy).Contents (Elt Ideal)) (a2 : (⟨S524288x2, .i32⟩ : BufTy).Contents (Elt Ideal)) (a3 : (⟨S320x256, .f32⟩ : BufTy).Contents (Elt Ideal)) (a4 : (⟨S256, .f32⟩ : BufTy).Contents (Elt Ideal)) (a5 : (⟨S256x256, .f32⟩ : BufTy).Contents (Elt Ideal)) (a6 : (⟨S256, .f32⟩ : BufTy).Contents (Elt Ideal)) (a7 : (⟨S256x128, .f32⟩ : BufTy).Contents (Elt Ideal)) (a8 : (⟨S128, .f32⟩ : BufTy).Contents (Elt Ideal)) :
    (⟨S524288x128, .f32⟩ : BufTy).Contents (Elt Ideal) :=
  Cert.GNN.net
    (Host.gather gather_S65536x128_S524288x1_S524288x128_1_0_n_n_0_1_1128 (truncf (F := Ideal) .bf16 a0 bitsLt_bf16_f32) (startRows (column0 a2)))
    (Host.gather gather_S65536x128_S524288x1_S524288x128_1_0_n_n_0_1_1128 (truncf (F := Ideal) .bf16 a0 bitsLt_bf16_f32) (startRows (column1 a2)))
    (truncf (F := Ideal) .bf16 a1 bitsLt_bf16_f32)
    (truncf (F := Ideal) .bf16 (extractStridedSlice S128x256 ![0, 0] a3 slices_S320x256_S128x256_0_0) bitsLt_bf16_f32)
    (truncf (F := Ideal) .bf16 (extractStridedSlice S128x256 ![128, 0] a3 slices_S320x256_S128x256_128_0) bitsLt_bf16_f32)
    (truncf (F := Ideal) .bf16 (extractStridedSlice S64x256 ![256, 0] a3 slices_S320x256_S64x256_256_0) bitsLt_bf16_f32)
    (shapeCast S1x256 a4 shapeCasts_S256_S1x256)
    (truncf (F := Ideal) .bf16 a5 bitsLt_bf16_f32)
    (shapeCast S1x256 a6 shapeCasts_S256_S1x256)
    (truncf (F := Ideal) .bf16 a7 bitsLt_bf16_f32)
    (shapeCast S1x128 a8 shapeCasts_S128_S1x128)

/-- The aggregate: one accumulating scatter, into zeros, of the messages laid end to end with themselves at the two
    endpoint columns laid end to end. -/
def kernelSum (a2 : (⟨S524288x2, .i32⟩ : BufTy).Contents (Elt Ideal)) (MSG : (⟨S524288x128, .f32⟩ : BufTy).Contents (Elt Ideal)) :
    (⟨S65536x128, .f32⟩ : BufTy).Contents (Elt Ideal) :=
  Host.scatterAdd scatter_S65536x128_S1048576x1_S1048576x128_1_0_0_1
    (broadcastInDim S65536x128 ![] bcast_S_S65536x128 (constant (F := Ideal) S_ .f32 0x00000000#32))
    (broadcastInDim S1048576x1 ![0] bcast_S1048576_S1048576x1_0
      (concatenate S1048576 0 [⟨S524288, column0 a2⟩, ⟨S524288, column1 a2⟩] concatenates_S524288_S524288_S1048576_d0))
    (concatenate S1048576x128 0 [⟨S524288x128, MSG⟩, ⟨S524288x128, MSG⟩] concatenates_S524288x128_S524288x128_S1048576x128_d0)

/-- The result: the network of (node states | aggregate | attention input), the first weight matrix of the update
    network cut into three row groups of 128, the biases as rows. -/
def kernelOut (a0 : (⟨S65536x128, .f32⟩ : BufTy).Contents (Elt Ideal)) (a1 : (⟨S524288x64, .f32⟩ : BufTy).Contents (Elt Ideal)) (a2 : (⟨S524288x2, .i32⟩ : BufTy).Contents (Elt Ideal)) (a3 : (⟨S320x256, .f32⟩ : BufTy).Contents (Elt Ideal)) (a4 : (⟨S256, .f32⟩ : BufTy).Contents (Elt Ideal)) (a5 : (⟨S256x256, .f32⟩ : BufTy).Contents (Elt Ideal)) (a6 : (⟨S256, .f32⟩ : BufTy).Contents (Elt Ideal)) (a7 : (⟨S256x128, .f32⟩ : BufTy).Contents (Elt Ideal)) (a8 : (⟨S128, .f32⟩ : BufTy).Contents (Elt Ideal)) (a9 : (⟨S384x256, .f32⟩ : BufTy).Contents (Elt Ideal)) (a10 : (⟨S256, .f32⟩ : BufTy).Contents (Elt Ideal)) (a11 : (⟨S256x256, .f32⟩ : BufTy).Contents (Elt Ideal)) (a12 : (⟨S256, .f32⟩ : BufTy).Contents (Elt Ideal)) (a13 : (⟨S256x128, .f32⟩ : BufTy).Contents (Elt Ideal)) (a14 : (⟨S128, .f32⟩ : BufTy).Contents (Elt Ideal)) :
    (⟨S65536x128, .f32⟩ : BufTy).Contents (Elt Ideal) :=
  Cert.GNN.net a0 (kernelSum a2 (kernelMsg a0 a1 a2 a3 a4 a5 a6 a7 a8)) (Cert.GNN.attention a0)
    (extractStridedSlice S128x256 ![0, 0] a9 slices_S384x256_S128x256_0_0)
    (extractStridedSlice S128x256 ![128, 0] a9 slices_S384x256_S128x256_128_0)
    (extractStridedSlice S128x256 ![256, 0] a9 slices_S384x256_S128x256_256_0)
    (shapeCast S1x256 a10 shapeCasts_S256_S1x256) a11 (shapeCast S1x256 a12 shapeCasts_S256_S1x256) a13
    (shapeCast S1x128 a14 shapeCasts_S128_S1x128)

/-! ## Each buffer the kernels read, traced back to the arguments -/

section Trace
variable (m : (ℓ : Loc nD τ sig) → Buf (Elt Ideal) ℓ) (ρ : Dev nD → PrngReg) (c : Dev nD)

/-- A buffer no host line before the first kernel writes holds its launch contents when that kernel is entered. -/
theorem W1_keep (r : Ref sig .tc) (h1 : r ∉ Gen.hostOps0_W) :
    W1 m ρ c (Proc.devRef .tc r) = m ((c.tc : Thread nD τ).loc r) :=
  (StableHlo.after_of_writes_sub Gen.hostOps0 _ Gen.hostOps0_writes h1).trans rfl

/-- One that is also no array of the first kernel still holds them after it. -/
theorem W2_keep (r : Ref sig .tc) (h2 : ∀ w, Pipeline.arrRef spec0 w ≠ r) (h1 : r ∉ Gen.hostOps0_W) :
    W2 m ρ c (Proc.devRef .tc r) = m ((c.tc : Thread nD τ).loc r) :=
  (W2_of_ne m ρ c r h2).trans (W1_keep m ρ c r h1)

/-- One that also no host line between the kernels writes still holds them when the second kernel is entered. -/
theorem W3_keep (r : Ref sig .tc) (h3 : r ∉ Gen.hostOps1_W) (h2 : ∀ w, Pipeline.arrRef spec0 w ≠ r) (h1 : r ∉ Gen.hostOps0_W) :
    W3 m ρ c (Proc.devRef .tc r) = m ((c.tc : Thread nD τ).loc r) :=
  (StableHlo.after_of_writes_sub Gen.hostOps1 _ Gen.hostOps1_writes h3).trans (W2_keep m ρ c r h2 h1)

/-- THE MESSAGES: the first kernel's written-back array is `kernelMsg` of the first nine arguments — its value as the
    network of the arrays it finds, each of those a host term of the arguments. -/
theorem msg_arr : (dat0 (V1 m ρ) c).arrAt 11 cfg0.N = kernelMsg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (msg_value (V1 m ρ) c).trans ?_
  unfold kernelMsg
  rw [show V1 m ρ c main_v12 = _ from before_v12 (W0 m ρ c), show V1 m ρ c main_v19 = _ from before_v19 (W0 m ρ c),
    show V1 m ρ c main_v5 = _ from before_v5 (W0 m ρ c), show V1 m ρ c main_v21 = _ from before_v21 (W0 m ρ c),
    show V1 m ρ c main_v23 = _ from before_v23 (W0 m ρ c), show V1 m ρ c main_v25 = _ from before_v25 (W0 m ρ c),
    show V1 m ρ c main_v28 = _ from before_v28 (W0 m ρ c), show V1 m ρ c main_v26 = _ from before_v26 (W0 m ρ c),
    show V1 m ρ c main_v29 = _ from before_v29 (W0 m ρ c), show V1 m ρ c main_v27 = _ from before_v27 (W0 m ρ c),
    show V1 m ρ c main_v30 = _ from before_v30 (W0 m ρ c)]
  all_goals rfl

/-- After the first kernel its output buffer holds the messages, -/
theorem W2_v31 : W2 m ρ c (main_v31 : DevRef τ sig) = kernelMsg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (W2_arr m ρ c 11).trans (msg_arr m ρ c)
/-- and the two endpoint vectors are as the host lines before it left them. -/
theorem W2_v1 : W2 m ρ c (main_v1 : DevRef τ sig) = column0 (m ((c.tc : Thread nD τ).loc main_arg2)) :=
  (W2_of_ne m ρ c main_v1 (by decide)).trans (before_v1 (W0 m ρ c))
theorem W2_v3 : W2 m ρ c (main_v3 : DevRef τ sig) = column1 (m ((c.tc : Thread nD τ).loc main_arg2)) :=
  (W2_of_ne m ρ c main_v3 (by decide)).trans (before_v3 (W0 m ρ c))

/-- THE AGGREGATE the second kernel finds. -/
theorem V3_v36 : V3 m ρ c main_v36 = kernelSum (m ((c.tc : Thread nD τ).loc main_arg2)) (kernelMsg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  refine (between_v36 (W2 m ρ c)).trans ?_
  unfold kernelSum
  rw [W2_v1 m ρ c, W2_v3 m ρ c, W2_v31 m ρ c]
  all_goals rfl

/-- The three row groups of the update network's first weight matrix, and its bias rows. -/
theorem V3_v37 : V3 m ρ c main_v37 = extractStridedSlice S128x256 ![0, 0] (m ((c.tc : Thread nD τ).loc main_arg9)) slices_S384x256_S128x256_0_0 :=
  (between_v37 (W2 m ρ c)).trans (congrArg (extractStridedSlice S128x256 ![0, 0] · slices_S384x256_S128x256_0_0) (W2_keep m ρ c main_arg9 (by decide) (by decide)))
theorem V3_v38 : V3 m ρ c main_v38 = extractStridedSlice S128x256 ![128, 0] (m ((c.tc : Thread nD τ).loc main_arg9)) slices_S384x256_S128x256_128_0 :=
  (between_v38 (W2 m ρ c)).trans (congrArg (extractStridedSlice S128x256 ![128, 0] · slices_S384x256_S128x256_128_0) (W2_keep m ρ c main_arg9 (by decide) (by decide)))
theorem V3_v39 : V3 m ρ c main_v39 = extractStridedSlice S128x256 ![256, 0] (m ((c.tc : Thread nD τ).loc main_arg9)) slices_S384x256_S128x256_256_0 :=
  (between_v39 (W2 m ρ c)).trans (congrArg (extractStridedSlice S128x256 ![256, 0] · slices_S384x256_S128x256_256_0) (W2_keep m ρ c main_arg9 (by decide) (by decide)))
theorem V3_v40 : V3 m ρ c main_v40 = shapeCast S1x256 (m ((c.tc : Thread nD τ).loc main_arg10)) shapeCasts_S256_S1x256 :=
  (between_v40 (W2 m ρ c)).trans (congrArg (shapeCast S1x256 · shapeCasts_S256_S1x256) (W2_keep m ρ c main_arg10 (by decide) (by decide)))
theorem V3_v41 : V3 m ρ c main_v41 = shapeCast S1x256 (m ((c.tc : Thread nD τ).loc main_arg12)) shapeCasts_S256_S1x256 :=
  (between_v41 (W2 m ρ c)).trans (congrArg (shapeCast S1x256 · shapeCasts_S256_S1x256) (W2_keep m ρ c main_arg12 (by decide) (by decide)))
theorem V3_v42 : V3 m ρ c main_v42 = shapeCast S1x128 (m ((c.tc : Thread nD τ).loc main_arg14)) shapeCasts_S128_S1x128 :=
  (between_v42 (W2 m ρ c)).trans (congrArg (shapeCast S1x128 · shapeCasts_S128_S1x128) (W2_keep m ρ c main_arg14 (by decide) (by decide)))

/-- The three arguments the second kernel reads directly. -/
theorem V3_arg0 : V3 m ρ c main_arg0 = m ((c.tc : Thread nD τ).loc main_arg0) := W3_keep m ρ c main_arg0 (by decide) (by decide) (by decide)
theorem V3_arg11 : V3 m ρ c main_arg11 = m ((c.tc : Thread nD τ).loc main_arg11) := W3_keep m ρ c main_arg11 (by decide) (by decide) (by decide)
theorem V3_arg13 : V3 m ρ c main_arg13 = m ((c.tc : Thread nD τ).loc main_arg13) := W3_keep m ρ c main_arg13 (by decide) (by decide) (by decide)

/-! ## The result -/

/-- THE RESULT ARRAY after the second kernel is `kernelOut` of the fifteen arguments. -/
theorem kernel_value : (dat1 (V3 m ρ) c).arrAt 11 cfg1.N = kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  refine (out_value (V3 m ρ) c).trans ?_
  unfold kernelOut
  rw [V3_arg0 m ρ c, V3_v36 m ρ c, V3_v37 m ρ c, V3_v38 m ρ c, V3_v39 m ρ c, V3_v40 m ρ c, V3_arg11 m ρ c, V3_v41 m ρ c,
    V3_arg13 m ρ c, V3_v42 m ρ c]
  all_goals rfl

end Trace

/-- THE RUN: every weakly fair execution of the program terminates, faults nowhere, leaves the result buffer at
    `kernelOut` of the fifteen arguments and every argument as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v43) = kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (kernel_value m ρ c), (h c).2⟩) (run_main m ρ)

end Cert.KernelIdeal.Hand

end
-- ==== Proof.Ref.Ops.lean ====
/-
  The reference program as a list of host operations.

  The reference is a straight line of 86 host operations (a called function's three operations standing in its call's
  place, over that call's own buffers). They are listed here in program order, cut into eleven consecutive stretches
  after the mathematics: the two gathers, the message network's three layers, the summed messages, the attention
  differences (in two stretches), and the update network's three layers. `upTo1 … upTo11` are the program's prefixes
  by whole stretches, `ops` the whole line, `written` every buffer some operation writes (none of them an argument).
-/
import proofs.«100937_j83021717831844_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Column 0 of the endpoint array made a vector, its negative entries wrapped, and the state rows of the first endpoints gathered. -/
abbrev opsGatherI : List (HloOp τ sig (Elt F)) :=
  [ unary main_arg2 main_v0 ((extractStridedSlice S524288x1 ![0, 0] · slices_S524288x2_S524288x1_0_0) : (⟨S524288x2, .i32⟩ : BufTy).Contents (Elt F) → (⟨S524288x1, .i32⟩ : BufTy).Contents (Elt F)),
    reshape main_v0 main_v1 rfl shapeCasts_S524288x1_S524288,
    nullary main_c (constantI S_ 32 0#32),
    unary main_c main_v2 (broadcastInDim S524288 ![] bcast_S_S524288 : (⟨S_, .i32⟩ : BufTy).Contents (Elt F) → (⟨S524288, .i32⟩ : BufTy).Contents (Elt F)),
    binary main_v1 main_v2 main_v3 (cmpi .slt : (⟨S524288, .i32⟩ : BufTy).Contents (Elt F) → (⟨S524288, .i32⟩ : BufTy).Contents (Elt F) → (⟨S524288, .i1⟩ : BufTy).Contents (Elt F)),
    nullary main_c_0 (constantI S_ 32 65536#32),
    unary main_c_0 main_v4 (broadcastInDim S524288 ![] bcast_S_S524288 : (⟨S_, .i32⟩ : BufTy).Contents (Elt F) → (⟨S524288, .i32⟩ : BufTy).Contents (Elt F)),
    binary main_v1 main_v4 main_v5 (addi : (⟨S524288, .i32⟩ : BufTy).Contents (Elt F) → (⟨S524288, .i32⟩ : BufTy).Contents (Elt F) → (⟨S524288, .i32⟩ : BufTy).Contents (Elt F)),
    ternary main_v3 main_v5 main_v1 main_v6 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v6 main_v7 (broadcastInDim S524288x1 ![0] bcast_S524288_S524288x1_0 : (⟨S524288, .i32⟩ : BufTy).Contents (Elt F) → (⟨S524288x1, .i32⟩ : BufTy).Contents (Elt F)),
    binary main_arg0 main_v7 main_v8 ((fun x i => Host.gather gather_S65536x128_S524288x1_S524288x128_1_0_n_n_0_1_1128 x i) : (⟨S65536x128, .f32⟩ : BufTy).Contents (Elt F) → (⟨S524288x1, .i32⟩ : BufTy).Contents (Elt F) → (⟨S524288x128, .f32⟩ : BufTy).Contents (Elt F)) ]

/-- The same for column 1, and the rows (first endpoint | second endpoint | edge features) laid side by side. -/
abbrev opsGatherJ : List (HloOp τ sig (Elt F)) :=
  [ unary main_arg2 main_v9 ((extractStridedSlice S524288x1 ![0, 1] · slices_S524288x2_S524288x1_0_1) : (⟨S524288x2, .i32⟩ : BufTy).Contents (Elt F) → (⟨S524288x1, .i32⟩ : BufTy).Contents (Elt F)),
    reshape main_v9 main_v10 rfl shapeCasts_S524288x1_S524288,
    nullary main_c_1 (constantI S_ 32 0#32),
    unary main_c_1 main_v11 (broadcastInDim S524288 ![] bcast_S_S524288 : (⟨S_, .i32⟩ : BufTy).Contents (Elt F) → (⟨S524288, .i32⟩ : BufTy).Contents (Elt F)),
    binary main_v10 main_v11 main_v12 (cmpi .slt : (⟨S524288, .i32⟩ : BufTy).Contents (Elt F) → (⟨S524288, .i32⟩ : BufTy).Contents (Elt F) → (⟨S524288, .i1⟩ : BufTy).Contents (Elt F)),
    nullary main_c_2 (constantI S_ 32 65536#32),
    unary main_c_2 main_v13 (broadcastInDim S524288 ![] bcast_S_S524288 : (⟨S_, .i32⟩ : BufTy).Contents (Elt F) → (⟨S524288, .i32⟩ : BufTy).Contents (Elt F)),
    binary main_v10 main_v13 main_v14 (addi : (⟨S524288, .i32⟩ : BufTy).Contents (Elt F) → (⟨S524288, .i32⟩ : BufTy).Contents (Elt F) → (⟨S524288, .i32⟩ : BufTy).Contents (Elt F)),
    ternary main_v12 main_v14 main_v10 main_v15 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    unary main_v15 main_v16 (broadcastInDim S524288x1 ![0] bcast_S524288_S524288x1_0 : (⟨S524288, .i32⟩ : BufTy).Contents (Elt F) → (⟨S524288x1, .i32⟩ : BufTy).Contents (Elt F)),
    binary main_arg0 main_v16 main_v17 ((fun x i => Host.gather gather_S65536x128_S524288x1_S524288x128_1_0_n_n_0_1_1128 x i) : (⟨S65536x128, .f32⟩ : BufTy).Contents (Elt F) → (⟨S524288x1, .i32⟩ : BufTy).Contents (Elt F) → (⟨S524288x128, .f32⟩ : BufTy).Contents (Elt F)),
    nary ![main_v8, main_v17, main_arg1] main_v18 (fun u => concatenate S524288x320 1 [⟨S524288x128, u 0⟩, ⟨S524288x128, u 1⟩, ⟨S524288x64, u 2⟩] concatenates_S524288x128_S524288x128_S524288x64_S524288x320_d1) ]

/-- The message network's first layer: product, bias row, maximum with zero. -/
abbrev opsMsg1 : List (HloOp τ sig (Elt F)) :=
  [ binary main_v18 main_arg3 main_v19 ((fun l r => Host.dotGeneral dot_S524288x320_S320x256_S524288x256_1_0_0_1_n_n none l r) : (⟨S524288x320, .f32⟩ : BufTy).Contents (Elt F) → (⟨S320x256, .f32⟩ : BufTy).Contents (Elt F) → (⟨S524288x256, .f32⟩ : BufTy).Contents (Elt F)),
    unary main_arg4 main_v20 (broadcastInDim S1x256 ![1] bcast_S256_S1x256_1 : (⟨S256, .f32⟩ : BufTy).Contents (Elt F) → (⟨S1x256, .f32⟩ : BufTy).Contents (Elt F)),
    unary main_v20 main_v21 (broadcastInDim S524288x256 ![0, 1] bcast_S1x256_S524288x256_0_1 : (⟨S1x256, .f32⟩ : BufTy).Contents (Elt F) → (⟨S524288x256, .f32⟩ : BufTy).Contents (Elt F)),
    binary main_v19 main_v21 main_v22 (addf : (⟨S524288x256, .f32⟩ : BufTy).Contents (Elt F) → (⟨S524288x256, .f32⟩ : BufTy).Contents (Elt F) → (⟨S524288x256, .f32⟩ : BufTy).Contents (Elt F)),
    TRef.nullary main_call0.cst (constant S_ .f32 0x00000000#32),
    TRef.unary main_call0.cst main_call0.v0 (broadcastInDim S524288x256 ![] bcast_S_S524288x256),
    TRef.binary (TRef.of (T := ⟨S524288x256, .f32⟩) main_v22) main_call0.v0 main_call0.v1 maximumf ]

/-- The message network's second layer. -/
abbrev opsMsg2 : List (HloOp τ sig (Elt F)) :=
  [ binary main_v23 main_arg5 main_v24 ((fun l r => Host.dotGeneral dot_S524288x256_S256x256_S524288x256_1_0_0_1_n_n none l r) : (⟨S524288x256, .f32⟩ : BufTy).Contents (Elt F) → (⟨S256x256, .f32⟩ : BufTy).Contents (Elt F) → (⟨S524288x256, .f32⟩ : BufTy).Contents (Elt F)),
    unary main_arg6 main_v25 (broadcastInDim S1x256 ![1] bcast_S256_S1x256_1 : (⟨S256, .f32⟩ : BufTy).Contents (Elt F) → (⟨S1x256, .f32⟩ : BufTy).Contents (Elt F)),
    unary main_v25 main_v26 (broadcastInDim S524288x256 ![0, 1] bcast_S1x256_S524288x256_0_1 : (⟨S1x256, .f32⟩ : BufTy).Contents (Elt F) → (⟨S524288x256, .f32⟩ : BufTy).Contents (Elt F)),
    binary main_v24 main_v26 main_v27 (addf : (⟨S524288x256, .f32⟩ : BufTy).Contents (Elt F) → (⟨S524288x256, .f32⟩ : BufTy).Contents (Elt F) → (⟨S524288x256, .f32⟩ : BufTy).Contents (Elt F)),
    TRef.nullary main_call1.cst (constant S_ .f32 0x00000000#32),
    TRef.unary main_call1.cst main_call1.v0 (broadcastInDim S524288x256 ![] bcast_S_S524288x256),
    TRef.binary (TRef.of (T := ⟨S524288x256, .f32⟩) main_v27) main_call1.v0 main_call1.v1 maximumf ]

/-- The message network's third layer: product and bias row. -/
abbrev opsMsg3 : List (HloOp τ sig (Elt F)) :=
  [ binary main_v28 main_arg7 main_v29 ((fun l r => Host.dotGeneral dot_S524288x256_S256x128_S524288x128_1_0_0_1_n_n none l r) : (⟨S524288x256, .f32⟩ : BufTy).Contents (Elt F) → (⟨S256x128, .f32⟩ : BufTy).Contents (Elt F) → (⟨S524288x128, .f32⟩ : BufTy).Contents (Elt F)),
    unary main_arg8 main_v30 (broadcastInDim S1x128 ![1] bcast_S128_S1x128_1 : (⟨S128, .f32⟩ : BufTy).Contents (Elt F) → (⟨S1x128, .f32⟩ : BufTy).Contents (Elt F)),
    unary main_v30 main_v31 (broadcastInDim S524288x128 ![0, 1] bcast_S1x128_S524288x128_0_1 : (⟨S1x128, .f32⟩ : BufTy).Contents (Elt F) → (⟨S524288x128, .f32⟩ : BufTy).Contents (Elt F)),
    binary main_v29 main_v31 main_v32 (addf : (⟨S524288x128, .f32⟩ : BufTy).Contents (Elt F) → (⟨S524288x128, .f32⟩ : BufTy).Contents (Elt F) → (⟨S524288x128, .f32⟩ : BufTy).Contents (Elt F)) ]

/-- The messages accumulated into zeros by column 0 and by column 1 of the endpoint array, and the two sums added. -/
abbrev opsSum : List (HloOp τ sig (Elt F)) :=
  [ unary main_arg2 main_v33 ((extractStridedSlice S524288x1 ![0, 0] · slices_S524288x2_S524288x1_0_0) : (⟨S524288x2, .i32⟩ : BufTy).Contents (Elt F) → (⟨S524288x1, .i32⟩ : BufTy).Contents (Elt F)),
    reshape main_v33 main_v34 rfl shapeCasts_S524288x1_S524288,
    nullary main_cst (constant S_ .f32 0x00000000#32),
    unary main_cst main_v35 (broadcastInDim S65536x128 ![] bcast_S_S65536x128 : (⟨S_, .f32⟩ : BufTy).Contents (Elt F) → (⟨S65536x128, .f32⟩ : BufTy).Contents (Elt F)),
    unary main_v34 main_v36 (broadcastInDim S524288x1 ![0] bcast_S524288_S524288x1_0 : (⟨S524288, .i32⟩ : BufTy).Contents (Elt F) → (⟨S524288x1, .i32⟩ : BufTy).Contents (Elt F)),
    ternary main_v35 main_v36 main_v32 main_v37 ((fun x i u => Host.scatterAdd scatter_S65536x128_S524288x1_S524288x128_1_0_0_1 x i u) : (⟨S65536x128, .f32⟩ : BufTy).Contents (Elt F) → (⟨S524288x1, .i32⟩ : BufTy).Contents (Elt F) → (⟨S524288x128, .f32⟩ : BufTy).Contents (Elt F) → (⟨S65536x128, .f32⟩ : BufTy).Contents (Elt F)),
    unary main_arg2 main_v38 ((extractStridedSlice S524288x1 ![0, 1] · slices_S524288x2_S524288x1_0_1) : (⟨S524288x2, .i32⟩ : BufTy).Contents (Elt F) → (⟨S524288x1, .i32⟩ : BufTy).Contents (Elt F)),
    reshape main_v38 main_v39 rfl shapeCasts_S524288x1_S524288,
    nullary main_cst_3 (constant S_ .f32 0x00000000#32),
    unary main_cst_3 main_v40 (broadcastInDim S65536x128 ![] bcast_S_S65536x128 : (⟨S_, .f32⟩ : BufTy).Contents (Elt F) → (⟨S65536x128, .f32⟩ : BufTy).Contents (Elt F)),
    unary main_v39 main_v41 (broadcastInDim S524288x1 ![0] bcast_S524288_S524288x1_0 : (⟨S524288, .i32⟩ : BufTy).Contents (Elt F) → (⟨S524288x1, .i32⟩ : BufTy).Contents (Elt F)),
    ternary main_v40 main_v41 main_v32 main_v42 ((fun x i u => Host.scatterAdd scatter_S65536x128_S524288x1_S524288x128_1_0_0_1 x i u) : (⟨S65536x128, .f32⟩ : BufTy).Contents (Elt F) → (⟨S524288x1, .i32⟩ : BufTy).Contents (Elt F) → (⟨S524288x128, .f32⟩ : BufTy).Contents (Elt F) → (⟨S65536x128, .f32⟩ : BufTy).Contents (Elt F)),
    binary main_v37 main_v42 main_v43 (addf : (⟨S65536x128, .f32⟩ : BufTy).Contents (Elt F) → (⟨S65536x128, .f32⟩ : BufTy).Contents (Elt F) → (⟨S65536x128, .f32⟩ : BufTy).Contents (Elt F)) ]

/-- The states read as pairs of graphs, the first and the second graph of every pair, and the first difference. -/
abbrev opsAttA : List (HloOp τ sig (Elt F)) :=
  [ reshape main_arg0 main_v44 rfl shapeCasts_S65536x128_S16x2x2048x128,
    unary main_v44 main_v45 ((extractStridedSlice S16x1x2048x128 ![0, 0, 0, 0] · slices_S16x2x2048x128_S16x1x2048x128_0_0_0_0) : (⟨S16x2x2048x128, .f32⟩ : BufTy).Contents (Elt F) → (⟨S16x1x2048x128, .f32⟩ : BufTy).Contents (Elt F)),
    reshape main_v45 main_v46 rfl shapeCasts_S16x1x2048x128_S16x2048x128,
    unary main_v44 main_v47 ((extractStridedSlice S16x1x2048x128 ![0, 1, 0, 0] · slices_S16x2x2048x128_S16x1x2048x128_0_1_0_0) : (⟨S16x2x2048x128, .f32⟩ : BufTy).Contents (Elt F) → (⟨S16x1x2048x128, .f32⟩ : BufTy).Contents (Elt F)),
    reshape main_v47 main_v48 rfl shapeCasts_S16x1x2048x128_S16x2048x128,
    binary main_v46 main_v48 main_v49 (subf : (⟨S16x2048x128, .f32⟩ : BufTy).Contents (Elt F) → (⟨S16x2048x128, .f32⟩ : BufTy).Contents (Elt F) → (⟨S16x2048x128, .f32⟩ : BufTy).Contents (Elt F)),
    unary main_v44 main_v50 ((extractStridedSlice S16x1x2048x128 ![0, 1, 0, 0] · slices_S16x2x2048x128_S16x1x2048x128_0_1_0_0) : (⟨S16x2x2048x128, .f32⟩ : BufTy).Contents (Elt F) → (⟨S16x1x2048x128, .f32⟩ : BufTy).Contents (Elt F)),
    reshape main_v50 main_v51 rfl shapeCasts_S16x1x2048x128_S16x2048x128,
    unary main_v44 main_v52 ((extractStridedSlice S16x1x2048x128 ![0, 0, 0, 0] · slices_S16x2x2048x128_S16x1x2048x128_0_0_0_0) : (⟨S16x2x2048x128, .f32⟩ : BufTy).Contents (Elt F) → (⟨S16x1x2048x128, .f32⟩ : BufTy).Contents (Elt F)),
    reshape main_v52 main_v53 rfl shapeCasts_S16x1x2048x128_S16x2048x128 ]

/-- The second difference, the two laid back in node order, and the rows (state | summed messages | attention difference) laid side by side. -/
abbrev opsAttB : List (HloOp τ sig (Elt F)) :=
  [ binary main_v51 main_v53 main_v54 (subf : (⟨S16x2048x128, .f32⟩ : BufTy).Contents (Elt F) → (⟨S16x2048x128, .f32⟩ : BufTy).Contents (Elt F) → (⟨S16x2048x128, .f32⟩ : BufTy).Contents (Elt F)),
    binary main_v49 main_v54 main_v55 ((fun a b => concatenate S16x4096x128 1 [⟨S16x2048x128, a⟩, ⟨S16x2048x128, b⟩] concatenates_S16x2048x128_S16x2048x128_S16x4096x128_d1) : (⟨S16x2048x128, .f32⟩ : BufTy).Contents (Elt F) → (⟨S16x2048x128, .f32⟩ : BufTy).Contents (Elt F) → (⟨S16x4096x128, .f32⟩ : BufTy).Contents (Elt F)),
    reshape main_v55 main_v56 rfl shapeCasts_S16x4096x128_S65536x128,
    nary ![main_arg0, main_v43, main_v56] main_v57 (fun u => concatenate S65536x384 1 [⟨S65536x128, u 0⟩, ⟨S65536x128, u 1⟩, ⟨S65536x128, u 2⟩] concatenates_S65536x128_S65536x128_S65536x128_S65536x384_d1) ]

/-- The update network's first layer. -/
abbrev opsUpd1 : List (HloOp τ sig (Elt F)) :=
  [ binary main_v57 main_arg9 main_v58 ((fun l r => Host.dotGeneral dot_S65536x384_S384x256_S65536x256_1_0_0_1_n_n none l r) : (⟨S65536x384, .f32⟩ : BufTy).Contents (Elt F) → (⟨S384x256, .f32⟩ : BufTy).Contents (Elt F) → (⟨S65536x256, .f32⟩ : BufTy).Contents (Elt F)),
    unary main_arg10 main_v59 (broadcastInDim S1x256 ![1] bcast_S256_S1x256_1 : (⟨S256, .f32⟩ : BufTy).Contents (Elt F) → (⟨S1x256, .f32⟩ : BufTy).Contents (Elt F)),
    unary main_v59 main_v60 (broadcastInDim S65536x256 ![0, 1] bcast_S1x256_S65536x256_0_1 : (⟨S1x256, .f32⟩ : BufTy).Contents (Elt F) → (⟨S65536x256, .f32⟩ : BufTy).Contents (Elt F)),
    binary main_v58 main_v60 main_v61 (addf : (⟨S65536x256, .f32⟩ : BufTy).Contents (Elt F) → (⟨S65536x256, .f32⟩ : BufTy).Contents (Elt F) → (⟨S65536x256, .f32⟩ : BufTy).Contents (Elt F)),
    TRef.nullary main_call2.cst (constant S_ .f32 0x00000000#32),
    TRef.unary main_call2.cst main_call2.v0 (broadcastInDim S65536x256 ![] bcast_S_S65536x256),
    TRef.binary (TRef.of (T := ⟨S65536x256, .f32⟩) main_v61) main_call2.v0 main_call2.v1 maximumf ]

/-- The update network's second layer. -/
abbrev opsUpd2 : List (HloOp τ sig (Elt F)) :=
  [ binary main_v62 main_arg11 main_v63 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg12 main_v64 (broadcastInDim S1x256 ![1] bcast_S256_S1x256_1 : (⟨S256, .f32⟩ : BufTy).Contents (Elt F) → (⟨S1x256, .f32⟩ : BufTy).Contents (Elt F)),
    unary main_v64 main_v65 (broadcastInDim S65536x256 ![0, 1] bcast_S1x256_S65536x256_0_1 : (⟨S1x256, .f32⟩ : BufTy).Contents (Elt F) → (⟨S65536x256, .f32⟩ : BufTy).Contents (Elt F)),
    binary main_v63 main_v65 main_v66 (addf : (⟨S65536x256, .f32⟩ : BufTy).Contents (Elt F) → (⟨S65536x256, .f32⟩ : BufTy).Contents (Elt F) → (⟨S65536x256, .f32⟩ : BufTy).Contents (Elt F)),
    TRef.nullary main_call3.cst (constant S_ .f32 0x00000000#32),
    TRef.unary main_call3.cst main_call3.v0 (broadcastInDim S65536x256 ![] bcast_S_S65536x256),
    TRef.binary (TRef.of (T := ⟨S65536x256, .f32⟩) main_v66) main_call3.v0 main_call3.v1 maximumf ]

/-- The update network's third layer. -/
abbrev opsUpd3 : List (HloOp τ sig (Elt F)) :=
  [ binary main_v67 main_arg13 main_v68 ((fun l r => Host.dotGeneral dot_S65536x256_S256x128_S65536x128_1_0_0_1_n_n none l r) : (⟨S65536x256, .f32⟩ : BufTy).Contents (Elt F) → (⟨S256x128, .f32⟩ : BufTy).Contents (Elt F) → (⟨S65536x128, .f32⟩ : BufTy).Contents (Elt F)),
    unary main_arg14 main_v69 (broadcastInDim S1x128 ![1] bcast_S128_S1x128_1 : (⟨S128, .f32⟩ : BufTy).Contents (Elt F) → (⟨S1x128, .f32⟩ : BufTy).Contents (Elt F)),
    unary main_v69 main_v70 (broadcastInDim S65536x128 ![0, 1] bcast_S1x128_S65536x128_0_1 : (⟨S1x128, .f32⟩ : BufTy).Contents (Elt F) → (⟨S65536x128, .f32⟩ : BufTy).Contents (Elt F)),
    binary main_v68 main_v70 main_v71 (addf : (⟨S65536x128, .f32⟩ : BufTy).Contents (Elt F) → (⟨S65536x128, .f32⟩ : BufTy).Contents (Elt F) → (⟨S65536x128, .f32⟩ : BufTy).Contents (Elt F)) ]

/-! ## The prefixes by whole stretches, and the whole line -/

abbrev upTo1 : List (HloOp τ sig (Elt F)) := opsGatherI
abbrev upTo2 : List (HloOp τ sig (Elt F)) := upTo1 ++ opsGatherJ
abbrev upTo3 : List (HloOp τ sig (Elt F)) := upTo2 ++ opsMsg1
abbrev upTo4 : List (HloOp τ sig (Elt F)) := upTo3 ++ opsMsg2
abbrev upTo5 : List (HloOp τ sig (Elt F)) := upTo4 ++ opsMsg3
abbrev upTo6 : List (HloOp τ sig (Elt F)) := upTo5 ++ opsSum
abbrev upTo7 : List (HloOp τ sig (Elt F)) := upTo6 ++ opsAttA
abbrev upTo8 : List (HloOp τ sig (Elt F)) := upTo7 ++ opsAttB
abbrev upTo9 : List (HloOp τ sig (Elt F)) := upTo8 ++ opsUpd1
abbrev upTo10 : List (HloOp τ sig (Elt F)) := upTo9 ++ opsUpd2
abbrev upTo11 : List (HloOp τ sig (Elt F)) := upTo10 ++ opsUpd3

/-- The reference's 86 operations, in program order. -/
abbrev ops : List (HloOp τ sig (Elt F)) := upTo11

/-- Every buffer some operation writes: one per operation, none an argument. -/
abbrev written : List (Ref sig .tc) :=
  [main_v0, main_v1, main_c, main_v2, main_v3, main_c_0, main_v4, main_v5, main_v6, main_v7, main_v8, main_v9, main_v10, main_c_1, main_v11, main_v12, main_c_2, main_v13, main_v14, main_v15, main_v16, main_v17, main_v18, main_v19, main_v20, main_v21, main_v22, main_call0_cst, main_call0_v0, main_v23, main_v24, main_v25, main_v26, main_v27, main_call1_cst, main_call1_v0, main_v28, main_v29, main_v30, main_v31, main_v32, main_v33, main_v34, main_cst, main_v35, main_v36, main_v37, main_v38, main_v39, main_cst_3, main_v40, main_v41, main_v42, main_v43, main_v44, main_v45, main_v46, main_v47, main_v48, main_v49, main_v50, main_v51, main_v52, main_v53, main_v54, main_v55, main_v56, main_v57, main_v58, main_v59, main_v60, main_v61, main_call2_cst, main_call2_v0, main_v62, main_v63, main_v64, main_v65, main_v66, main_call3_cst, main_call3_v0, main_v67, main_v68, main_v69, main_v70, main_v71]

end Cert.ReferenceIdeal.Hand

end
-- ==== Proof.Ref.Out.lean ====
/-
  The reference's value, as a function of its fifteen argument arrays.

  The reference computes one layer of a graph network on 65536 nodes and 524288 edges:

  * column 0 and column 1 of the integer endpoint array, each made a vector and a negative entry wrapped by adding the
    number of nodes (`endpoint0`, `endpoint1`), select for every edge the state row of its first and of its second
    endpoint (`nodes_i`, `nodes_j`);
  * the message network — product with the first weight matrix, bias row, maximum with zero; the same with the second;
    product with the third and its bias row — is applied to the rows (first endpoint's state | second endpoint's
    state | edge features) laid side by side (`messages`);
  * the messages are accumulated into zeros once by the first endpoint column and once by the second (the columns
    here NOT wrapped), and the two accumulations added (`summed`);
  * the node states, read as 16 pairs of graphs of 2048 nodes, give for the first graph of a pair its states minus the
    second graph's and for the second graph its states minus the first graph's (`attention`);
  * the update network, the same three layers with its own weights, is applied to the rows (state | summed messages |
    attention difference) laid side by side (`refOut`).

  Every definition below is the reference's own operations applied to the previous ones, in the order the reference
  applies them; nothing is rearranged.
-/
import proofs.«100937_j83021717831844_2_alg».proof.Proof.Gen.ReferenceIdeal
import Idealize.ShloMosaic.PureOps.Ideal

noncomputable section

namespace Cert.ReferenceIdeal.Hand

open Cert.ReferenceIdeal Cert.ReferenceIdeal.Gen Idealize.ShloMosaic

/-- Column 0 of the endpoint array, as a vector over the edges. -/
def column0 (vx : IVec S524288x2 32) : IVec S524288 32 :=
  shapeCast _ (extractStridedSlice S524288x1 ![0, 0] vx slices_S524288x2_S524288x1_0_0) shapeCasts_S524288x1_S524288

/-- Column 1 of the endpoint array, as a vector over the edges. -/
def column1 (vx : IVec S524288x2 32) : IVec S524288 32 :=
  shapeCast _ (extractStridedSlice S524288x1 ![0, 1] vx slices_S524288x2_S524288x1_0_1) shapeCasts_S524288x1_S524288

/-- An endpoint vector with every negative entry increased by the number of nodes, as a one-column array. -/
def wrapped (k : IVec S524288 32) : IVec S524288x1 32 :=
  broadcastInDim S524288x1 ![0] bcast_S524288_S524288x1_0
    (select (cmpi .slt k (broadcastInDim S524288 ![] bcast_S_S524288 (constantI S_ 32 0#32)))
      (addi k (broadcastInDim S524288 ![] bcast_S_S524288 (constantI S_ 32 65536#32))) k)

/-- The first endpoints, wrapped: the start indices of the first gather. -/
def endpoint0 (vx : IVec S524288x2 32) : IVec S524288x1 32 :=
  wrapped (column0 vx)

/-- The second endpoints, wrapped: the start indices of the second gather. -/
def endpoint1 (vx : IVec S524288x2 32) : IVec S524288x1 32 :=
  wrapped (column1 vx)

/-- For every edge, the state row of its first endpoint. -/
def nodes_i (ns : FVec Ideal S65536x128 .f32) (vx : IVec S524288x2 32) :
    FVec Ideal S524288x128 .f32 :=
  Host.gather gather_S65536x128_S524288x1_S524288x128_1_0_n_n_0_1_1128 ns (endpoint0 vx)

/-- For every edge, the state row of its second endpoint. -/
def nodes_j (ns : FVec Ideal S65536x128 .f32) (vx : IVec S524288x2 32) :
    FVec Ideal S524288x128 .f32 :=
  Host.gather gather_S65536x128_S524288x1_S524288x128_1_0_n_n_0_1_1128 ns (endpoint1 vx)

/-- The message network's input: (first endpoint's state | second endpoint's state | edge features), row by row. -/
def msgIn (ns : FVec Ideal S65536x128 .f32) (ed : FVec Ideal S524288x64 .f32)
    (vx : IVec S524288x2 32) : FVec Ideal S524288x320 .f32 :=
  concatenate S524288x320 1 [⟨S524288x128, nodes_i ns vx⟩, ⟨S524288x128, nodes_j ns vx⟩, ⟨S524288x64, ed⟩]
    concatenates_S524288x128_S524288x128_S524288x64_S524288x320_d1

/-- The message network's first layer: max(input · W1 + b1, 0). -/
def msgH1 (X : FVec Ideal S524288x320 .f32) (mW1 : FVec Ideal S320x256 .f32)
    (mb1 : FVec Ideal S256 .f32) : FVec Ideal S524288x256 .f32 :=
  maximumf (addf (Host.dotGeneral dot_S524288x320_S320x256_S524288x256_1_0_0_1_n_n none X mW1)
      (broadcastInDim S524288x256 ![0, 1] bcast_S1x256_S524288x256_0_1 (broadcastInDim S1x256 ![1] bcast_S256_S1x256_1 mb1)))
    (broadcastInDim S524288x256 ![] bcast_S_S524288x256 (constant S_ .f32 0x00000000#32))

/-- The message network's second layer: max(H · W2 + b2, 0). -/
def msgH2 (H : FVec Ideal S524288x256 .f32) (mW2 : FVec Ideal S256x256 .f32)
    (mb2 : FVec Ideal S256 .f32) : FVec Ideal S524288x256 .f32 :=
  maximumf (addf (Host.dotGeneral dot_S524288x256_S256x256_S524288x256_1_0_0_1_n_n none H mW2)
      (broadcastInDim S524288x256 ![0, 1] bcast_S1x256_S524288x256_0_1 (broadcastInDim S1x256 ![1] bcast_S256_S1x256_1 mb2)))
    (broadcastInDim S524288x256 ![] bcast_S_S524288x256 (constant S_ .f32 0x00000000#32))

/-- The message network's third layer: H · W3 + b3. -/
def msgH3 (H : FVec Ideal S524288x256 .f32) (mW3 : FVec Ideal S256x128 .f32)
    (mb3 : FVec Ideal S128 .f32) : FVec Ideal S524288x128 .f32 :=
  addf (Host.dotGeneral dot_S524288x256_S256x128_S524288x128_1_0_0_1_n_n none H mW3)
    (broadcastInDim S524288x128 ![0, 1] bcast_S1x128_S524288x128_0_1 (broadcastInDim S1x128 ![1] bcast_S128_S1x128_1 mb3))

/-- The messages: the message network applied to every edge's row. -/
def messages (ns : FVec Ideal S65536x128 .f32) (ed : FVec Ideal S524288x64 .f32)
    (vx : IVec S524288x2 32)
    (mW1 : FVec Ideal S320x256 .f32) (mb1 : FVec Ideal S256 .f32)
    (mW2 : FVec Ideal S256x256 .f32) (mb2 : FVec Ideal S256 .f32)
    (mW3 : FVec Ideal S256x128 .f32) (mb3 : FVec Ideal S128 .f32) :
    FVec Ideal S524288x128 .f32 :=
  msgH3 (msgH2 (msgH1 (msgIn ns ed vx) mW1 mb1) mW2 mb2) mW3 mb3

/-- The messages accumulated, into zeros, at the rows an endpoint vector names. -/
def scattered (k : IVec S524288 32) (msg : FVec Ideal S524288x128 .f32) :
    FVec Ideal S65536x128 .f32 :=
  Host.scatterAdd scatter_S65536x128_S524288x1_S524288x128_1_0_0_1
    (broadcastInDim S65536x128 ![] bcast_S_S65536x128 (constant S_ .f32 0x00000000#32))
    (broadcastInDim S524288x1 ![0] bcast_S524288_S524288x1_0 k) msg

/-- Every node's summed messages: those of the edges it is the first endpoint of plus those it is the second of. -/
def summed (vx : IVec S524288x2 32) (msg : FVec Ideal S524288x128 .f32) :
    FVec Ideal S65536x128 .f32 :=
  addf (scattered (column0 vx) msg) (scattered (column1 vx) msg)

/-- The node states as 16 pairs of graphs of 2048 nodes. -/
def paired (ns : FVec Ideal S65536x128 .f32) : FVec Ideal S16x2x2048x128 .f32 :=
  shapeCast _ ns shapeCasts_S65536x128_S16x2x2048x128

/-- The first graph of every pair. -/
def graph0 (ns : FVec Ideal S65536x128 .f32) : FVec Ideal S16x2048x128 .f32 :=
  shapeCast _ (extractStridedSlice S16x1x2048x128 ![0, 0, 0, 0] (paired ns) slices_S16x2x2048x128_S16x1x2048x128_0_0_0_0)
    shapeCasts_S16x1x2048x128_S16x2048x128

/-- The second graph of every pair. -/
def graph1 (ns : FVec Ideal S65536x128 .f32) : FVec Ideal S16x2048x128 .f32 :=
  shapeCast _ (extractStridedSlice S16x1x2048x128 ![0, 1, 0, 0] (paired ns) slices_S16x2x2048x128_S16x1x2048x128_0_1_0_0)
    shapeCasts_S16x1x2048x128_S16x2048x128

/-- The attention differences: for the first graph of a pair its states minus the second's, for the second graph its
    states minus the first's, laid back in node order. -/
def attention (ns : FVec Ideal S65536x128 .f32) : FVec Ideal S65536x128 .f32 :=
  shapeCast _ (concatenate S16x4096x128 1 [⟨S16x2048x128, subf (graph0 ns) (graph1 ns)⟩, ⟨S16x2048x128, subf (graph1 ns) (graph0 ns)⟩]
    concatenates_S16x2048x128_S16x2048x128_S16x4096x128_d1) shapeCasts_S16x4096x128_S65536x128

/-- The update network's input: (state | summed messages | attention difference), row by row. -/
def updIn (ns sm at_ : FVec Ideal S65536x128 .f32) : FVec Ideal S65536x384 .f32 :=
  concatenate S65536x384 1 [⟨S65536x128, ns⟩, ⟨S65536x128, sm⟩, ⟨S65536x128, at_⟩]
    concatenates_S65536x128_S65536x128_S65536x128_S65536x384_d1

/-- The update network's first layer: max(input · W1 + b1, 0). -/
def updH1 (X : FVec Ideal S65536x384 .f32) (uW1 : FVec Ideal S384x256 .f32)
    (ub1 : FVec Ideal S256 .f32) : FVec Ideal S65536x256 .f32 :=
  maximumf (addf (Host.dotGeneral dot_S65536x384_S384x256_S65536x256_1_0_0_1_n_n none X uW1)
      (broadcastInDim S65536x256 ![0, 1] bcast_S1x256_S65536x256_0_1 (broadcastInDim S1x256 ![1] bcast_S256_S1x256_1 ub1)))
    (broadcastInDim S65536x256 ![] bcast_S_S65536x256 (constant S_ .f32 0x00000000#32))

/-- The update network's second layer: max(H · W2 + b2, 0). -/
def updH2 (H : FVec Ideal S65536x256 .f32) (uW2 : FVec Ideal S256x256 .f32)
    (ub2 : FVec Ideal S256 .f32) : FVec Ideal S65536x256 .f32 :=
  maximumf (addf (Host.dotGeneral dot_S65536x256_S256x256_S65536x256_1_0_0_1_n_n none H uW2)
      (broadcastInDim S65536x256 ![0, 1] bcast_S1x256_S65536x256_0_1 (broadcastInDim S1x256 ![1] bcast_S256_S1x256_1 ub2)))
    (broadcastInDim S65536x256 ![] bcast_S_S65536x256 (constant S_ .f32 0x00000000#32))

/-- The update network's third layer: H · W3 + b3. -/
def updH3 (H : FVec Ideal S65536x256 .f32) (uW3 : FVec Ideal S256x128 .f32)
    (ub3 : FVec Ideal S128 .f32) : FVec Ideal S65536x128 .f32 :=
  addf (Host.dotGeneral dot_S65536x256_S256x128_S65536x128_1_0_0_1_n_n none H uW3)
    (broadcastInDim S65536x128 ![0, 1] bcast_S1x128_S65536x128_0_1 (broadcastInDim S1x128 ![1] bcast_S128_S1x128_1 ub3))

/-- THE REFERENCE'S RESULT as a function of its fifteen argument arrays. -/
def refOut (ns : FVec Ideal S65536x128 .f32) (ed : FVec Ideal S524288x64 .f32)
    (vx : IVec S524288x2 32)
    (mW1 : FVec Ideal S320x256 .f32) (mb1 : FVec Ideal S256 .f32)
    (mW2 : FVec Ideal S256x256 .f32) (mb2 : FVec Ideal S256 .f32)
    (mW3 : FVec Ideal S256x128 .f32) (mb3 : FVec Ideal S128 .f32)
    (uW1 : FVec Ideal S384x256 .f32) (ub1 : FVec Ideal S256 .f32)
    (uW2 : FVec Ideal S256x256 .f32) (ub2 : FVec Ideal S256 .f32)
    (uW3 : FVec Ideal S256x128 .f32) (ub3 : FVec Ideal S128 .f32) :
    FVec Ideal S65536x128 .f32 :=
  updH3 (updH2 (updH1 (updIn ns (summed vx (messages ns ed vx mW1 mb1 mW2 mb2 mW3 mb3)) (attention ns)) uW1 ub1) uW2 ub2) uW3 ub3

end Cert.ReferenceIdeal.Hand

end
-- ==== Proof.Ref.SegMsg.lean ====
/-
  The gathers' and the message network's stretches of operations, each read as one function of the buffers it starts
  from.

  For ANY contents `V` of the buffers, the contents after a stretch, at the buffer its last operation writes, are the
  stretch's operations composed: the stage's definition applied to the contents of the buffers the stretch reads.
-/
import proofs.«100937_j83021717831844_2_alg».proof.Proof.Ref.Ops
import proofs.«100937_j83021717831844_2_alg».proof.Proof.Ref.Out

noncomputable section

namespace Cert.ReferenceIdeal.Hand

open Cert.ReferenceIdeal Cert.ReferenceIdeal.Gen Idealize.ShloMosaic Idealize.ShloMosaic.TcCoe Idealize.SL.Sem Idealize.ShloMosaic.StableHlo

/-- The first stretch leaves the first endpoints' state rows. -/
theorem opsGatherI_value (V : Valuation τ sig (Elt Ideal)) :
    after (opsGatherI (F := Ideal)) V (Proc.devRef .tc main_v8) = nodes_i (V (Proc.devRef .tc main_arg0)) (V (Proc.devRef .tc main_arg2)) := by
  after_results_simp <;> first | rfl | (simp only [TRef.toBuf, TRef.ofBuf, cast_eq]; rfl)

/-- The second stretch leaves the rows (what the first stretch left | the second endpoints' state rows | edge features). -/
theorem opsGatherJ_value (V : Valuation τ sig (Elt Ideal)) :
    after (opsGatherJ (F := Ideal)) V (Proc.devRef .tc main_v18)
      = concatenate S524288x320 1 [⟨S524288x128, (V (Proc.devRef .tc main_v8))⟩, ⟨S524288x128, nodes_j (V (Proc.devRef .tc main_arg0)) (V (Proc.devRef .tc main_arg2))⟩,
          ⟨S524288x64, (V (Proc.devRef .tc main_arg1))⟩] concatenates_S524288x128_S524288x128_S524288x64_S524288x320_d1 := by
  after_results_simp <;> first | rfl | (simp only [TRef.toBuf, TRef.ofBuf, cast_eq]; rfl)

/-- The message network's first layer. -/
theorem opsMsg1_value (V : Valuation τ sig (Elt Ideal)) :
    after (opsMsg1 (F := Ideal)) V (Proc.devRef .tc main_v23) = msgH1 (V (Proc.devRef .tc main_v18)) (V (Proc.devRef .tc main_arg3)) (V (Proc.devRef .tc main_arg4)) := by
  after_results_simp <;> first | rfl | (simp only [TRef.toBuf, TRef.ofBuf, cast_eq]; rfl)

/-- The message network's second layer. -/
theorem opsMsg2_value (V : Valuation τ sig (Elt Ideal)) :
    after (opsMsg2 (F := Ideal)) V (Proc.devRef .tc main_v28) = msgH2 (V (Proc.devRef .tc main_v23)) (V (Proc.devRef .tc main_arg5)) (V (Proc.devRef .tc main_arg6)) := by
  after_results_simp <;> first | rfl | (simp only [TRef.toBuf, TRef.ofBuf, cast_eq]; rfl)

/-- The message network's third layer. -/
theorem opsMsg3_value (V : Valuation τ sig (Elt Ideal)) :
    after (opsMsg3 (F := Ideal)) V (Proc.devRef .tc main_v32) = msgH3 (V (Proc.devRef .tc main_v28)) (V (Proc.devRef .tc main_arg7)) (V (Proc.devRef .tc main_arg8)) := by
  after_results_simp <;> first | rfl | (simp only [TRef.toBuf, TRef.ofBuf, cast_eq]; rfl)

end Cert.ReferenceIdeal.Hand

end
-- ==== Proof.Ref.SegSumAtt.lean ====
/-
  The summed messages' and the attention differences' stretches of operations, each read as one function of the
  buffers it starts from.

  For ANY contents `V` of the buffers, the contents after a stretch, at a buffer it writes, are the stretch's
  operations composed. The attention differences are cut in two stretches; the first leaves three buffers the second
  reads (the first difference, the second graphs, the first graphs) and does not touch the summed messages.
-/
import proofs.«100937_j83021717831844_2_alg».proof.Proof.Ref.Ops
import proofs.«100937_j83021717831844_2_alg».proof.Proof.Ref.Out

noncomputable section

namespace Cert.ReferenceIdeal.Hand

open Cert.ReferenceIdeal Cert.ReferenceIdeal.Gen Idealize.ShloMosaic Idealize.ShloMosaic.TcCoe Idealize.SL.Sem Idealize.ShloMosaic.StableHlo

/-- The accumulations' stretch leaves the summed messages. -/
theorem opsSum_value (V : Valuation τ sig (Elt Ideal)) :
    after (opsSum (F := Ideal)) V (Proc.devRef .tc main_v43) = summed (V (Proc.devRef .tc main_arg2)) (V (Proc.devRef .tc main_v32)) := by
  after_results_simp <;> first | rfl | (simp only [TRef.toBuf, TRef.ofBuf, cast_eq]; rfl)

/-- The first attention stretch leaves the first difference … -/
theorem opsAttA_diff (V : Valuation τ sig (Elt Ideal)) :
    after (opsAttA (F := Ideal)) V (Proc.devRef .tc main_v49) = subf (graph0 (V (Proc.devRef .tc main_arg0))) (graph1 (V (Proc.devRef .tc main_arg0))) := by
  after_results_simp <;> first | rfl | (simp only [TRef.toBuf, TRef.ofBuf, cast_eq]; rfl)

/-- … the second graphs … -/
theorem opsAttA_graph1 (V : Valuation τ sig (Elt Ideal)) :
    after (opsAttA (F := Ideal)) V (Proc.devRef .tc main_v51) = graph1 (V (Proc.devRef .tc main_arg0)) := by
  after_results_simp <;> first | rfl | (simp only [TRef.toBuf, TRef.ofBuf, cast_eq]; rfl)

/-- … and the first graphs, -/
theorem opsAttA_graph0 (V : Valuation τ sig (Elt Ideal)) :
    after (opsAttA (F := Ideal)) V (Proc.devRef .tc main_v53) = graph0 (V (Proc.devRef .tc main_arg0)) := by
  after_results_simp <;> first | rfl | (simp only [TRef.toBuf, TRef.ofBuf, cast_eq]; rfl)

/-- and keeps the summed messages. -/
theorem opsAttA_keeps_sum (V : Valuation τ sig (Elt Ideal)) :
    after (opsAttA (F := Ideal)) V (Proc.devRef .tc main_v43) = (V (Proc.devRef .tc main_v43)) := by
  after_results_simp <;> first | rfl | (simp only [TRef.toBuf, TRef.ofBuf, cast_eq]; rfl)

/-- The second attention stretch leaves the rows (state | summed messages | the two differences laid back in node order). -/
theorem opsAttB_value (V : Valuation τ sig (Elt Ideal)) :
    after (opsAttB (F := Ideal)) V (Proc.devRef .tc main_v57)
      = updIn (V (Proc.devRef .tc main_arg0)) (V (Proc.devRef .tc main_v43))
          (shapeCast _ (concatenate S16x4096x128 1 [⟨S16x2048x128, (V (Proc.devRef .tc main_v49))⟩, ⟨S16x2048x128, subf (V (Proc.devRef .tc main_v51)) (V (Proc.devRef .tc main_v53))⟩]
            concatenates_S16x2048x128_S16x2048x128_S16x4096x128_d1) shapeCasts_S16x4096x128_S65536x128) := by
  after_results_simp <;> first | rfl | (simp only [TRef.toBuf, TRef.ofBuf, cast_eq]; rfl)

end Cert.ReferenceIdeal.Hand

end
-- ==== Proof.Ref.SegUpd.lean ====
/-
  The update network's three stretches of operations, each read as one function of the buffers it starts from.

  For ANY contents `V` of the buffers, the contents after a stretch, at the buffer its last operation writes, are the
  stretch's operations composed: the layer's definition applied to the contents of the buffers the stretch reads.
-/
import proofs.«100937_j83021717831844_2_alg».proof.Proof.Ref.Ops
import proofs.«100937_j83021717831844_2_alg».proof.Proof.Ref.Out

noncomputable section

namespace Cert.ReferenceIdeal.Hand

open Cert.ReferenceIdeal Cert.ReferenceIdeal.Gen Idealize.ShloMosaic Idealize.ShloMosaic.TcCoe Idealize.SL.Sem Idealize.ShloMosaic.StableHlo

/-- The first layer's stretch leaves `updH1` of the joined input, the weights and the bias. -/
theorem opsUpd1_value (V : Valuation τ sig (Elt Ideal)) :
    after (opsUpd1 (F := Ideal)) V (Proc.devRef .tc main_v62) = updH1 (V (Proc.devRef .tc main_v57)) (V (Proc.devRef .tc main_arg9)) (V (Proc.devRef .tc main_arg10)) := by
  after_results_simp <;> first | rfl | (simp only [TRef.toBuf, TRef.ofBuf, cast_eq]; rfl)

/-- The second layer's stretch. -/
theorem opsUpd2_value (V : Valuation τ sig (Elt Ideal)) :
    after (opsUpd2 (F := Ideal)) V (Proc.devRef .tc main_v67) = updH2 (V (Proc.devRef .tc main_v62)) (V (Proc.devRef .tc main_arg11)) (V (Proc.devRef .tc main_arg12)) := by
  after_results_simp <;> first | rfl | (simp only [TRef.toBuf, TRef.ofBuf, cast_eq]; rfl)

/-- The third layer's stretch. -/
theorem opsUpd3_value (V : Valuation τ sig (Elt Ideal)) :
    after (opsUpd3 (F := Ideal)) V (Proc.devRef .tc main_v71) = updH3 (V (Proc.devRef .tc main_v67)) (V (Proc.devRef .tc main_arg13)) (V (Proc.devRef .tc main_arg14)) := by
  after_results_simp <;> first | rfl | (simp only [TRef.toBuf, TRef.ofBuf, cast_eq]; rfl)

end Cert.ReferenceIdeal.Hand

end
-- ==== Proof.LibAfter.lean ====
/-
  Two facts about a straight line of host operations, for running a long line in segments.

  The contents of the buffers after a line of operations is a fold over the line (each operation rewrites the buffers
  it writes and leaves the rest), so the contents after a concatenation of two lines are the contents after the second
  line, started from the contents after the first (`after_append`). And the side condition "no operation of the line
  allocates a buffer", which a run of the line asks for every member of the list, follows from the same condition
  stated as one conjunction over the list (`fresh_of_forall`), which splits along a concatenation (`forall_append`)
  and which, for a list written out operation by operation, holds by computation (`all_fresh`).
-/
import Idealize.ShloMosaic.Lib.StableHlo.Run

namespace Cert.LibAfter

open Idealize.ShloMosaic Idealize.ShloMosaic.StableHlo

variable {τ : Topo} {sig : RefSig} {Val : EltTy → Type}

/-- The buffer contents after a concatenation of two lines of operations are the contents after the second line,
    started from the contents after the first. -/
theorem after_append (a b : List (HloOp τ sig Val)) (V : Valuation τ sig Val) :
    after (a ++ b) V = after b (after a V) := by
  induction a generalizing V with
  | nil => rfl
  | cons op a ih => rw [List.cons_append, after_cons, after_cons, ih]

/-- A property of every operation of a concatenation is the property of every operation of each part. -/
theorem forall_append {α : Type} (p : α → Prop) (a b : List α) :
    (a ++ b).Forall p ↔ a.Forall p ∧ b.Forall p :=
  List.forall_append

/-- The property of each part gives the property of the concatenation. -/
theorem Forall.append {α : Type} {p : α → Prop} {a b : List α} (ha : a.Forall p) (hb : b.Forall p) :
    (a ++ b).Forall p :=
  (forall_append p a b).mpr ⟨ha, hb⟩

/-- "No operation allocates a buffer", stated as one conjunction over the list, gives it for every member. -/
theorem fresh_of_forall {ops : List (HloOp τ sig Val)} (h : ops.Forall fun op => op.fresh = ∅) :
    ∀ op ∈ ops, op.fresh = ∅ :=
  List.forall_iff_forall_mem.mp h

/-- The same for a family of lines, one per device: the form a run of the line asks for. -/
theorem fresh_of_forall_dev {ι : Type} {ops : ι → List (HloOp τ sig Val)}
    (h : ∀ d, (ops d).Forall fun op => op.fresh = ∅) : ∀ d, ∀ op ∈ ops d, op.fresh = ∅ :=
  fun d => fresh_of_forall (h d)

/-- `all_fresh ops` proves `ops.Forall fun op => op.fresh = ∅` for a list `ops` written out operation by operation
    (under a name, which is unfolded first): the conjunction over the list is split, and each operation built by a
    non-allocating builder has the empty set of fresh buffers by computation. -/
macro "all_fresh " ops:ident : tactic =>
  `(tactic| (first | simp only [$ops:ident, List.Forall] | simp only [List.Forall]
             repeat' constructor))

end Cert.LibAfter
-- ==== Proof.Ref.OpsFacts.lean ====
/-
  The side conditions of running the reference's line of operations.

  A straight line of host operations runs to its end when its signature scopes no buffer and no semaphore, every
  operation names TensorCore buffers only, and none allocates. Each is a finite check on the list, made stretch by
  stretch and joined along the concatenations. Also recorded: every operation writes one of the buffers listed in
  `written`, so a buffer outside that list — every argument — keeps its contents through any prefix of the line.
-/
import proofs.«100937_j83021717831844_2_alg».proof.Proof.Ref.Ops
import proofs.«100937_j83021717831844_2_alg».proof.Proof.LibAfter

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.LibAfter (Forall.append fresh_of_forall_dev)

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-! ## Every operation names TensorCore buffers only -/

theorem opsGatherI_sub : (opsGatherI : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]
theorem opsGatherJ_sub : (opsGatherJ : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]
theorem opsMsg1_sub : (opsMsg1 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]
theorem opsMsg2_sub : (opsMsg2 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]
theorem opsMsg3_sub : (opsMsg3 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]
theorem opsSum_sub : (opsSum : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]
theorem opsAttA_sub : (opsAttA : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]
theorem opsAttB_sub : (opsAttB : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]
theorem opsUpd1_sub : (opsUpd1 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]
theorem opsUpd2_sub : (opsUpd2 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]
theorem opsUpd3_sub : (opsUpd3 : List (HloOp τ sig (Elt F))).Forall fun op => op.bufs ⊆ tcRefs τ sig := by
  simp only [List.Forall, nullary_bufs_sub, unary_bufs_sub, binary_bufs_sub, ternary_bufs_sub, reshape_bufs_sub, nary_bufs_sub, and_self]

theorem ops_sub : (ops : List (HloOp τ sig (Elt F))).Forall fun op => op.bufs ⊆ tcRefs τ sig :=
  Forall.append (Forall.append (Forall.append (Forall.append (Forall.append (Forall.append (Forall.append (Forall.append (Forall.append (Forall.append (opsGatherI_sub) opsGatherJ_sub) opsMsg1_sub) opsMsg2_sub) opsMsg3_sub) opsSum_sub) opsAttA_sub) opsAttB_sub) opsUpd1_sub) opsUpd2_sub) opsUpd3_sub

/-! ## No operation allocates -/

theorem opsGatherI_fresh : (opsGatherI : List (HloOp τ sig (Elt F))).Forall fun op => op.fresh = ∅ := by
  simp only [List.Forall]; repeat' constructor
theorem opsGatherJ_fresh : (opsGatherJ : List (HloOp τ sig (Elt F))).Forall fun op => op.fresh = ∅ := by
  simp only [List.Forall]; repeat' constructor
theorem opsMsg1_fresh : (opsMsg1 : List (HloOp τ sig (Elt F))).Forall fun op => op.fresh = ∅ := by
  simp only [List.Forall]; repeat' constructor
theorem opsMsg2_fresh : (opsMsg2 : List (HloOp τ sig (Elt F))).Forall fun op => op.fresh = ∅ := by
  simp only [List.Forall]; repeat' constructor
theorem opsMsg3_fresh : (opsMsg3 : List (HloOp τ sig (Elt F))).Forall fun op => op.fresh = ∅ := by
  simp only [List.Forall]; repeat' constructor
theorem opsSum_fresh : (opsSum : List (HloOp τ sig (Elt F))).Forall fun op => op.fresh = ∅ := by
  simp only [List.Forall]; repeat' constructor
theorem opsAttA_fresh : (opsAttA : List (HloOp τ sig (Elt F))).Forall fun op => op.fresh = ∅ := by
  simp only [List.Forall]; repeat' constructor
theorem opsAttB_fresh : (opsAttB : List (HloOp τ sig (Elt F))).Forall fun op => op.fresh = ∅ := by
  simp only [List.Forall]; repeat' constructor
theorem opsUpd1_fresh : (opsUpd1 : List (HloOp τ sig (Elt F))).Forall fun op => op.fresh = ∅ := by
  simp only [List.Forall]; repeat' constructor
theorem opsUpd2_fresh : (opsUpd2 : List (HloOp τ sig (Elt F))).Forall fun op => op.fresh = ∅ := by
  simp only [List.Forall]; repeat' constructor
theorem opsUpd3_fresh : (opsUpd3 : List (HloOp τ sig (Elt F))).Forall fun op => op.fresh = ∅ := by
  simp only [List.Forall]; repeat' constructor

theorem ops_fresh : (ops : List (HloOp τ sig (Elt F))).Forall fun op => op.fresh = ∅ :=
  Forall.append (Forall.append (Forall.append (Forall.append (Forall.append (Forall.append (Forall.append (Forall.append (Forall.append (Forall.append (opsGatherI_fresh) opsGatherJ_fresh) opsMsg1_fresh) opsMsg2_fresh) opsMsg3_fresh) opsSum_fresh) opsAttA_fresh) opsAttB_fresh) opsUpd1_fresh) opsUpd2_fresh) opsUpd3_fresh

/-! ## Every operation writes a buffer of `written` -/

theorem opsGatherI_writes : (opsGatherI : List (HloOp τ sig (Elt F))).Forall fun op => op.writes ⊆ (written.map (Proc.devRef (τ := τ) .tc)).toFinset := by
  simp only [List.Forall, nullary_writes, unary_writes, binary_writes, ternary_writes, reshape_writes, nary_writes, Finset.singleton_subset_iff, List.mem_toFinset]
  repeat' (apply And.intro)
  all_goals exact List.mem_map_of_mem (by decide)
theorem opsGatherJ_writes : (opsGatherJ : List (HloOp τ sig (Elt F))).Forall fun op => op.writes ⊆ (written.map (Proc.devRef (τ := τ) .tc)).toFinset := by
  simp only [List.Forall, nullary_writes, unary_writes, binary_writes, ternary_writes, reshape_writes, nary_writes, Finset.singleton_subset_iff, List.mem_toFinset]
  repeat' (apply And.intro)
  all_goals exact List.mem_map_of_mem (by decide)
theorem opsMsg1_writes : (opsMsg1 : List (HloOp τ sig (Elt F))).Forall fun op => op.writes ⊆ (written.map (Proc.devRef (τ := τ) .tc)).toFinset := by
  simp only [List.Forall, nullary_writes, unary_writes, binary_writes, ternary_writes, reshape_writes, nary_writes, Finset.singleton_subset_iff, List.mem_toFinset]
  repeat' (apply And.intro)
  all_goals exact List.mem_map_of_mem (by decide)
theorem opsMsg2_writes : (opsMsg2 : List (HloOp τ sig (Elt F))).Forall fun op => op.writes ⊆ (written.map (Proc.devRef (τ := τ) .tc)).toFinset := by
  simp only [List.Forall, nullary_writes, unary_writes, binary_writes, ternary_writes, reshape_writes, nary_writes, Finset.singleton_subset_iff, List.mem_toFinset]
  repeat' (apply And.intro)
  all_goals exact List.mem_map_of_mem (by decide)
theorem opsMsg3_writes : (opsMsg3 : List (HloOp τ sig (Elt F))).Forall fun op => op.writes ⊆ (written.map (Proc.devRef (τ := τ) .tc)).toFinset := by
  simp only [List.Forall, nullary_writes, unary_writes, binary_writes, ternary_writes, reshape_writes, nary_writes, Finset.singleton_subset_iff, List.mem_toFinset]
  repeat' (apply And.intro)
  all_goals exact List.mem_map_of_mem (by decide)
theorem opsSum_writes : (opsSum : List (HloOp τ sig (Elt F))).Forall fun op => op.writes ⊆ (written.map (Proc.devRef (τ := τ) .tc)).toFinset := by
  simp only [List.Forall, nullary_writes, unary_writes, binary_writes, ternary_writes, reshape_writes, nary_writes, Finset.singleton_subset_iff, List.mem_toFinset]
  repeat' (apply And.intro)
  all_goals exact List.mem_map_of_mem (by decide)
theorem opsAttA_writes : (opsAttA : List (HloOp τ sig (Elt F))).Forall fun op => op.writes ⊆ (written.map (Proc.devRef (τ := τ) .tc)).toFinset := by
  simp only [List.Forall, nullary_writes, unary_writes, binary_writes, ternary_writes, reshape_writes, nary_writes, Finset.singleton_subset_iff, List.mem_toFinset]
  repeat' (apply And.intro)
  all_goals exact List.mem_map_of_mem (by decide)
theorem opsAttB_writes : (opsAttB : List (HloOp τ sig (Elt F))).Forall fun op => op.writes ⊆ (written.map (Proc.devRef (τ := τ) .tc)).toFinset := by
  simp only [List.Forall, nullary_writes, unary_writes, binary_writes, ternary_writes, reshape_writes, nary_writes, Finset.singleton_subset_iff, List.mem_toFinset]
  repeat' (apply And.intro)
  all_goals exact List.mem_map_of_mem (by decide)
theorem opsUpd1_writes : (opsUpd1 : List (HloOp τ sig (Elt F))).Forall fun op => op.writes ⊆ (written.map (Proc.devRef (τ := τ) .tc)).toFinset := by
  simp only [List.Forall, nullary_writes, unary_writes, binary_writes, ternary_writes, reshape_writes, nary_writes, Finset.singleton_subset_iff, List.mem_toFinset]
  repeat' (apply And.intro)
  all_goals exact List.mem_map_of_mem (by decide)
theorem opsUpd2_writes : (opsUpd2 : List (HloOp τ sig (Elt F))).Forall fun op => op.writes ⊆ (written.map (Proc.devRef (τ := τ) .tc)).toFinset := by
  simp only [List.Forall, nullary_writes, unary_writes, binary_writes, ternary_writes, reshape_writes, nary_writes, Finset.singleton_subset_iff, List.mem_toFinset]
  repeat' (apply And.intro)
  all_goals exact List.mem_map_of_mem (by decide)
theorem opsUpd3_writes : (opsUpd3 : List (HloOp τ sig (Elt F))).Forall fun op => op.writes ⊆ (written.map (Proc.devRef (τ := τ) .tc)).toFinset := by
  simp only [List.Forall, nullary_writes, unary_writes, binary_writes, ternary_writes, reshape_writes, nary_writes, Finset.singleton_subset_iff, List.mem_toFinset]
  repeat' (apply And.intro)
  all_goals exact List.mem_map_of_mem (by decide)

theorem upTo1_writes : (upTo1 : List (HloOp τ sig (Elt F))).Forall fun op => op.writes ⊆ (written.map (Proc.devRef (τ := τ) .tc)).toFinset :=
  opsGatherI_writes
theorem upTo2_writes : (upTo2 : List (HloOp τ sig (Elt F))).Forall fun op => op.writes ⊆ (written.map (Proc.devRef (τ := τ) .tc)).toFinset :=
  Forall.append upTo1_writes opsGatherJ_writes
theorem upTo3_writes : (upTo3 : List (HloOp τ sig (Elt F))).Forall fun op => op.writes ⊆ (written.map (Proc.devRef (τ := τ) .tc)).toFinset :=
  Forall.append upTo2_writes opsMsg1_writes
theorem upTo4_writes : (upTo4 : List (HloOp τ sig (Elt F))).Forall fun op => op.writes ⊆ (written.map (Proc.devRef (τ := τ) .tc)).toFinset :=
  Forall.append upTo3_writes opsMsg2_writes
theorem upTo5_writes : (upTo5 : List (HloOp τ sig (Elt F))).Forall fun op => op.writes ⊆ (written.map (Proc.devRef (τ := τ) .tc)).toFinset :=
  Forall.append upTo4_writes opsMsg3_writes
theorem upTo6_writes : (upTo6 : List (HloOp τ sig (Elt F))).Forall fun op => op.writes ⊆ (written.map (Proc.devRef (τ := τ) .tc)).toFinset :=
  Forall.append upTo5_writes opsSum_writes
theorem upTo7_writes : (upTo7 : List (HloOp τ sig (Elt F))).Forall fun op => op.writes ⊆ (written.map (Proc.devRef (τ := τ) .tc)).toFinset :=
  Forall.append upTo6_writes opsAttA_writes
theorem upTo8_writes : (upTo8 : List (HloOp τ sig (Elt F))).Forall fun op => op.writes ⊆ (written.map (Proc.devRef (τ := τ) .tc)).toFinset :=
  Forall.append upTo7_writes opsAttB_writes
theorem upTo9_writes : (upTo9 : List (HloOp τ sig (Elt F))).Forall fun op => op.writes ⊆ (written.map (Proc.devRef (τ := τ) .tc)).toFinset :=
  Forall.append upTo8_writes opsUpd1_writes
theorem upTo10_writes : (upTo10 : List (HloOp τ sig (Elt F))).Forall fun op => op.writes ⊆ (written.map (Proc.devRef (τ := τ) .tc)).toFinset :=
  Forall.append upTo9_writes opsUpd2_writes
theorem upTo11_writes : (upTo11 : List (HloOp τ sig (Elt F))).Forall fun op => op.writes ⊆ (written.map (Proc.devRef (τ := τ) .tc)).toFinset :=
  Forall.append upTo10_writes opsUpd3_writes

/-- A buffer no operation writes keeps its contents through a prefix of the line. -/
theorem upTo1_keeps (V : Valuation τ sig (Elt F)) {r : Ref sig .tc} (h : r ∉ written) :
    after upTo1 V (Proc.devRef .tc r) = V (Proc.devRef .tc r) := after_of_writes_sub upTo1 V upTo1_writes h
theorem upTo2_keeps (V : Valuation τ sig (Elt F)) {r : Ref sig .tc} (h : r ∉ written) :
    after upTo2 V (Proc.devRef .tc r) = V (Proc.devRef .tc r) := after_of_writes_sub upTo2 V upTo2_writes h
theorem upTo3_keeps (V : Valuation τ sig (Elt F)) {r : Ref sig .tc} (h : r ∉ written) :
    after upTo3 V (Proc.devRef .tc r) = V (Proc.devRef .tc r) := after_of_writes_sub upTo3 V upTo3_writes h
theorem upTo4_keeps (V : Valuation τ sig (Elt F)) {r : Ref sig .tc} (h : r ∉ written) :
    after upTo4 V (Proc.devRef .tc r) = V (Proc.devRef .tc r) := after_of_writes_sub upTo4 V upTo4_writes h
theorem upTo5_keeps (V : Valuation τ sig (Elt F)) {r : Ref sig .tc} (h : r ∉ written) :
    after upTo5 V (Proc.devRef .tc r) = V (Proc.devRef .tc r) := after_of_writes_sub upTo5 V upTo5_writes h
theorem upTo6_keeps (V : Valuation τ sig (Elt F)) {r : Ref sig .tc} (h : r ∉ written) :
    after upTo6 V (Proc.devRef .tc r) = V (Proc.devRef .tc r) := after_of_writes_sub upTo6 V upTo6_writes h
theorem upTo7_keeps (V : Valuation τ sig (Elt F)) {r : Ref sig .tc} (h : r ∉ written) :
    after upTo7 V (Proc.devRef .tc r) = V (Proc.devRef .tc r) := after_of_writes_sub upTo7 V upTo7_writes h
theorem upTo8_keeps (V : Valuation τ sig (Elt F)) {r : Ref sig .tc} (h : r ∉ written) :
    after upTo8 V (Proc.devRef .tc r) = V (Proc.devRef .tc r) := after_of_writes_sub upTo8 V upTo8_writes h
theorem upTo9_keeps (V : Valuation τ sig (Elt F)) {r : Ref sig .tc} (h : r ∉ written) :
    after upTo9 V (Proc.devRef .tc r) = V (Proc.devRef .tc r) := after_of_writes_sub upTo9 V upTo9_writes h
theorem upTo10_keeps (V : Valuation τ sig (Elt F)) {r : Ref sig .tc} (h : r ∉ written) :
    after upTo10 V (Proc.devRef .tc r) = V (Proc.devRef .tc r) := after_of_writes_sub upTo10 V upTo10_writes h
theorem upTo11_keeps (V : Valuation τ sig (Elt F)) {r : Ref sig .tc} (h : r ∉ written) :
    after upTo11 V (Proc.devRef .tc r) = V (Proc.devRef .tc r) := after_of_writes_sub upTo11 V upTo11_writes h

end Cert.ReferenceIdeal.Hand

end
-- ==== Proof.Ref.Value.lean ====
/-
  The reference's line of operations read as `refOut`.

  For ANY contents `V` of the buffers at the start, the contents after the first k stretches, at the buffer the k-th
  stretch ends on, are the stage of `refOut` that stretch computes, applied to the arguments' contents in `V`. Each
  step unfolds one concatenation (the contents after `a ++ b` are the contents after `b` started from the contents
  after `a`), reads the new stretch as a function of the buffers it starts from, and replaces those by the previous
  step's value or — for an argument, which no operation writes — by the contents in `V`.
-/
import proofs.«100937_j83021717831844_2_alg».proof.Proof.Ref.SegMsg
import proofs.«100937_j83021717831844_2_alg».proof.Proof.Ref.SegSumAtt
import proofs.«100937_j83021717831844_2_alg».proof.Proof.Ref.SegUpd
import proofs.«100937_j83021717831844_2_alg».proof.Proof.Ref.OpsFacts

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.LibAfter (after_append)

variable (V : Valuation τ sig (Elt Ideal))

/-- The messages' stage of `refOut` at the arguments' contents in `V`. -/
abbrev msgsOf : FVec Ideal S524288x128 .f32 :=
  messages (V (Proc.devRef .tc main_arg0)) (V (Proc.devRef .tc main_arg1)) (V (Proc.devRef .tc main_arg2)) (V (Proc.devRef .tc main_arg3)) (V (Proc.devRef .tc main_arg4)) (V (Proc.devRef .tc main_arg5))
    (V (Proc.devRef .tc main_arg6)) (V (Proc.devRef .tc main_arg7)) (V (Proc.devRef .tc main_arg8))

theorem upTo1_value : after (upTo1 (F := Ideal)) V (Proc.devRef .tc main_v8) = nodes_i (V (Proc.devRef .tc main_arg0)) (V (Proc.devRef .tc main_arg2)) :=
  opsGatherI_value V

theorem upTo2_value : after (upTo2 (F := Ideal)) V (Proc.devRef .tc main_v18) = msgIn (V (Proc.devRef .tc main_arg0)) (V (Proc.devRef .tc main_arg1)) (V (Proc.devRef .tc main_arg2)) := by
  rw [after_append, opsGatherJ_value, upTo1_value, upTo1_keeps V (r := main_arg0) (by decide), upTo1_keeps V (r := main_arg1) (by decide), upTo1_keeps V (r := main_arg2) (by decide)]
  rfl

theorem upTo3_value : after (upTo3 (F := Ideal)) V (Proc.devRef .tc main_v23)
    = msgH1 (msgIn (V (Proc.devRef .tc main_arg0)) (V (Proc.devRef .tc main_arg1)) (V (Proc.devRef .tc main_arg2))) (V (Proc.devRef .tc main_arg3)) (V (Proc.devRef .tc main_arg4)) := by
  rw [after_append, opsMsg1_value, upTo2_value, upTo2_keeps V (r := main_arg3) (by decide), upTo2_keeps V (r := main_arg4) (by decide)]

theorem upTo4_value : after (upTo4 (F := Ideal)) V (Proc.devRef .tc main_v28)
    = msgH2 (msgH1 (msgIn (V (Proc.devRef .tc main_arg0)) (V (Proc.devRef .tc main_arg1)) (V (Proc.devRef .tc main_arg2))) (V (Proc.devRef .tc main_arg3)) (V (Proc.devRef .tc main_arg4))) (V (Proc.devRef .tc main_arg5)) (V (Proc.devRef .tc main_arg6)) := by
  rw [after_append, opsMsg2_value, upTo3_value, upTo3_keeps V (r := main_arg5) (by decide), upTo3_keeps V (r := main_arg6) (by decide)]

theorem upTo5_value : after (upTo5 (F := Ideal)) V (Proc.devRef .tc main_v32) = msgsOf V := by
  rw [after_append, opsMsg3_value, upTo4_value, upTo4_keeps V (r := main_arg7) (by decide), upTo4_keeps V (r := main_arg8) (by decide)]
  rfl

theorem upTo6_value : after (upTo6 (F := Ideal)) V (Proc.devRef .tc main_v43) = summed (V (Proc.devRef .tc main_arg2)) (msgsOf V) := by
  rw [after_append, opsSum_value, upTo5_value, upTo5_keeps V (r := main_arg2) (by decide)]

theorem upTo8_value : after (upTo8 (F := Ideal)) V (Proc.devRef .tc main_v57)
    = updIn (V (Proc.devRef .tc main_arg0)) (summed (V (Proc.devRef .tc main_arg2)) (msgsOf V)) (attention (V (Proc.devRef .tc main_arg0))) := by
  rw [after_append, opsAttB_value, after_append, opsAttA_diff, opsAttA_graph1, opsAttA_graph0, opsAttA_keeps_sum, upTo6_value,
    upTo6_keeps V (r := main_arg0) (by decide)]
  rw [show after (opsAttA (F := Ideal)) (after upTo6 V) (Proc.devRef .tc main_arg0) = (V (Proc.devRef .tc main_arg0)) from
    (congrFun (after_append upTo6 opsAttA V) _).symm.trans (upTo7_keeps V (r := main_arg0) (by decide))]
  rfl

theorem upTo9_value : after (upTo9 (F := Ideal)) V (Proc.devRef .tc main_v62)
    = updH1 (updIn (V (Proc.devRef .tc main_arg0)) (summed (V (Proc.devRef .tc main_arg2)) (msgsOf V)) (attention (V (Proc.devRef .tc main_arg0)))) (V (Proc.devRef .tc main_arg9)) (V (Proc.devRef .tc main_arg10)) := by
  rw [after_append, opsUpd1_value, upTo8_value, upTo8_keeps V (r := main_arg9) (by decide), upTo8_keeps V (r := main_arg10) (by decide)]

theorem upTo10_value : after (upTo10 (F := Ideal)) V (Proc.devRef .tc main_v67)
    = updH2 (updH1 (updIn (V (Proc.devRef .tc main_arg0)) (summed (V (Proc.devRef .tc main_arg2)) (msgsOf V)) (attention (V (Proc.devRef .tc main_arg0)))) (V (Proc.devRef .tc main_arg9)) (V (Proc.devRef .tc main_arg10)))
        (V (Proc.devRef .tc main_arg11)) (V (Proc.devRef .tc main_arg12)) := by
  rw [after_append, opsUpd2_value, upTo9_value, upTo9_keeps V (r := main_arg11) (by decide), upTo9_keeps V (r := main_arg12) (by decide)]

/-- THE WHOLE LINE: the contents of the result buffer after the reference's operations are `refOut` of the arguments'
    contents at the start. -/
theorem ops_value : after (ops (F := Ideal)) V (Proc.devRef .tc main_v71)
    = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  rw [after_append, opsUpd3_value, upTo10_value, upTo10_keeps V (r := main_arg13) (by decide), upTo10_keeps V (r := main_arg14) (by decide)]
  rfl

end Cert.ReferenceIdeal.Hand

end
-- ==== Proof.Ref.MainEq.lean ====
/-
  The reference program IS its list of operations run in order.

  The program's text is two consecutive windows of statements, each a chain of single operations (a call standing for
  the callee's three); a list of operations run in order is the same chain. Each window is compared with its part of the
  list, and the two parts run one after the other are the concatenation run as one.
-/
import proofs.«100937_j83021717831844_2_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of the program's second window. -/
abbrev tail4 : List (HloOp τ sig (Elt F)) := opsAttB ++ opsUpd1 ++ opsUpd2 ++ opsUpd3

set_option maxRecDepth 8192 in
set_option maxHeartbeats 4000000 in
/-- The first window of statements is the first seven stretches run in order. -/
theorem part0_eq (c : Dev nD) : main_part0 (F := F) c = seq upTo7 := rfl

set_option maxRecDepth 8192 in
set_option maxHeartbeats 4000000 in
/-- The second window of statements is the last four stretches run in order. -/
theorem part1_eq (c : Dev nD) : main_part1 (F := F) c = seq tail4 := rfl

/-- The whole line is the first seven stretches followed by the last four. -/
theorem ops_split : (ops : List (HloOp τ sig (Elt F))) = upTo7 ++ tail4 := by
  simp only [ops, upTo11, upTo10, upTo9, upTo8, tail4, List.append_assoc]

/-- The reference program is its operations run in order. -/
theorem main_eq (c : Dev nD) : main (F := F) c = seq ops := by
  rw [ops_split, seq_append, ← part0_eq c, ← part1_eq c]
  rfl

end Cert.ReferenceIdeal.Hand

end
-- ==== Proof.Ref.Run.lean ====
/-
  The reference's run: every weakly fair execution of the reference program terminates, nothing faults, its fifteen
  argument arrays end unchanged, and its result array ends at `refOut` of the argument arrays as the run found them.

  The reference is a straight line of host operations on a signature that scopes nothing, each operation naming
  TensorCore buffers only and none allocating; so it runs to its end and leaves every buffer at the fold of the
  operations' results over the contents at launch. That fold, read at the result buffer, is `refOut` of the arguments'
  contents at launch; read at an argument buffer it is the contents at launch, since no operation writes an argument.
-/
import proofs.«100937_j83021717831844_2_alg».proof.Proof.Ref.Value
import proofs.«100937_j83021717831844_2_alg».proof.Proof.Ref.MainEq

noncomputable section

namespace Cert.ReferenceIdeal.Hand

open Cert.ReferenceIdeal Cert.ReferenceIdeal.Gen Idealize.ShloMosaic Idealize.ShloMosaic.TcCoe Idealize.SL.Sem Idealize.ShloMosaic.StableHlo

/-- On every device, from any memory with zero counters: every weakly fair execution of the reference terminates with
    its result at `refOut` of the argument arrays, and the argument arrays unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v71) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run (Cert.ReferenceIdeal.defs (F := Ideal)) _ _).mono (fun _ h c => ⟨(h c main_v71).trans (ops_value (launchContents m c)),
      (h c main_arg0).trans (upTo11_keeps _ (by decide)),
      (h c main_arg1).trans (upTo11_keeps _ (by decide)),
      (h c main_arg2).trans (upTo11_keeps _ (by decide)),
      (h c main_arg3).trans (upTo11_keeps _ (by decide)),
      (h c main_arg4).trans (upTo11_keeps _ (by decide)),
      (h c main_arg5).trans (upTo11_keeps _ (by decide)),
      (h c main_arg6).trans (upTo11_keeps _ (by decide)),
      (h c main_arg7).trans (upTo11_keeps _ (by decide)),
      (h c main_arg8).trans (upTo11_keeps _ (by decide)),
      (h c main_arg9).trans (upTo11_keeps _ (by decide)),
      (h c main_arg10).trans (upTo11_keeps _ (by decide)),
      (h c main_arg11).trans (upTo11_keeps _ (by decide)),
      (h c main_arg12).trans (upTo11_keeps _ (by decide)),
      (h c main_arg13).trans (upTo11_keeps _ (by decide)),
      (h c main_arg14).trans (upTo11_keeps _ (by decide))⟩)
    (run_seq scopedRefs_eq scopedSems_eq (Cert.ReferenceIdeal.defs (F := Ideal)) (Cert.ReferenceIdeal.main (F := Ideal)) (fun _ => ops) main_eq
      (fun _ => ops_sub) m ρ (Cert.LibAfter.fresh_of_forall_dev fun _ => ops_fresh))

end Cert.ReferenceIdeal.Hand

end
-- ==== Proof.SpecOut.lean ====
/-
  The whole layer as ONE function of its processed pieces: the node states, the gathered endpoint states, the edge
  features, the message network's weights (the first matrix as its three row groups) and bias rows, the two endpoint
  keys of every edge, and the update network's weights and bias rows. Both programs are shown to compute this function
  of the same pieces.
-/
import proofs.«100937_j83021717831844_2_alg».proof.Proof.Spec

noncomputable section

namespace Cert.GNN

open Idealize.ShloMosaic Idealize.ShloMosaic.ValueIdx Cert.Linear

/-- The messages: the network applied edge by edge to (first endpoint's state | second endpoint's state | features). -/
def messages (NI NJ : (Mat 524288 128).Idx → EReal) (ed : (Mat 524288 64).Idx → EReal)
    (Wa Wb : (Mat 128 256).Idx → EReal) (Wc : (Mat 64 256).Idx → EReal) (b1 : (Mat 1 256).Idx → EReal)
    (W2 : (Mat 256 256).Idx → EReal) (b2 : (Mat 1 256).Idx → EReal) (W3 : (Mat 256 128).Idx → EReal) (b3 : (Mat 1 128).Idx → EReal) :
    (Mat 524288 128).Idx → EReal :=
  net NI NJ ed Wa Wb Wc b1 W2 b2 W3 b3

/-- The layer's result: the network applied node by node to (state | aggregate of the messages over the node's edges |
    state minus the partner's state). -/
def outSpec (ns : (Mat 65536 128).Idx → EReal) (k0 k1 : Fin 524288 → ℤ) (msg : (Mat 524288 128).Idx → EReal)
    (Ua Ub Uc : (Mat 128 256).Idx → EReal) (u1 : (Mat 1 256).Idx → EReal)
    (U2 : (Mat 256 256).Idx → EReal) (u2 : (Mat 1 256).Idx → EReal) (U3 : (Mat 256 128).Idx → EReal) (u3 : (Mat 1 128).Idx → EReal) :
    (Mat 65536 128).Idx → EReal :=
  net ns (aggregate (Nn := 65536) k0 k1 msg) (attention ns) Ua Ub Uc u1 U2 u2 U3 u3

end Cert.GNN

end
-- ==== Proof.LibRowOps.lean ====
/-
  Rows of a matrix taken and accumulated by an index vector, read at an index.

  What `x[idx]` of a matrix `x : [N, C]` at an integer vector `idx : [E]` lowers to is a gather whose start indices
  are `idx` as a column `[E, 1]`: result row `e` is row `idx[e]` of `x`, the start read as a signed integer and clamped
  into `[0, N - 1]`.  What `segment_sum(u, idx, N)` of `u : [E, C]` lowers to is an accumulating scatter with the same
  column of indices: row `v` of the result is row `v` of the operand plus the sum of the rows `u[e]` over the `e` with
  `idx[e] = v`, the index read signed and NOT clamped (a row whose index is outside `[0, N)` lands nowhere).
-/
import Idealize.ShloMosaic.PureOps.Ideal
import Idealize.ShloMosaic.Lib.ValueIdx

noncomputable section

open scoped BigOperators

namespace Idealize.ShloMosaic.RowOps

open Idealize.ShloMosaic Idealize.ShloMosaic.ValueIdx

/-! ## The row gather -/

section Gather
variable {α : Type}

/-- The dimension numbers of a row gather: operand `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A start index read signed and clamped into `[0, N - 1]`: the row a gather reads. -/
def clampRow (N : Nat) (hN : 0 < N) {w : Nat} (z : BitVec w) : Fin N := ⟨min z.toInt.toNat (N - 1), by omega⟩

/-- THE ROW GATHER READ AT `(e, c)`: the operand at row `idx[e]` (signed, clamped), column `c`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (clampRow N hN (idx (ix2 e (0 : Fin 1)))) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    unfold GatherDims.start
    rw [dif_neg (show (1 : Fin 2) ∉ ([0] : List (Fin 2)) by decide)]
    unfold GatherDims.offCoord
    have hk : (1 : Fin 2) ∈ (rowGatherDims N E C wf).sKept :=
      show (1 : Fin 2) ∈ (List.finRange 2).filter (· ∉ (([0] : List (Fin 2)) ++ [])) from by decide
    rw [dif_pos hk]
    simp only [Nat.zero_add]
    rfl

end Gather

/-! ## The accumulating row scatter -/

section Scatter

/-- The dimension numbers of a row scatter: operand `[N, C]`, scatter indices `[E, 1]`, updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w)

/-- On the row axis an update's window starts at its index, read signed … -/
theorem rowScatter_start0 (j : (⟨2, ![E, C]⟩ : Shape).Idx) :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl
/-- … and has no extent (the row axis is inserted); -/
theorem rowScatter_window0 (j : (⟨2, ![E, C]⟩ : Shape).Idx) : (rowScatterDims N E C wf).window j 0 = 0 := by
  unfold ScatterDims.window
  have hk : (0 : Fin 2) ∉ (rowScatterDims N E C wf).sKept :=
    show (0 : Fin 2) ∉ (List.finRange 2).filter (· ∉ ([0] : List (Fin 2))) from by decide
  rw [dif_neg hk]
/-- on the column axis it starts at `0` … -/
theorem rowScatter_start1 (j : (⟨2, ![E, C]⟩ : Shape).Idx) : (rowScatterDims N E C wf).start j idx 1 = 0 := by
  unfold ScatterDims.start
  rw [dif_neg (show (1 : Fin 2) ∉ ([0] : List (Fin 2)) by decide)]
/-- … and the window coordinate is the update's column. -/
theorem rowScatter_window1 (j : (⟨2, ![E, C]⟩ : Shape).Idx) : (rowScatterDims N E C wf).window j 1 = (j 1).val := by
  unfold ScatterDims.window
  have hk : (1 : Fin 2) ∈ (rowScatterDims N E C wf).sKept :=
    show (1 : Fin 2) ∈ (List.finRange 2).filter (· ∉ ([0] : List (Fin 2))) from by decide
  rw [dif_pos hk]
  rfl

/-- Update `(e, b)` lands at `(v, c)` exactly when `idx[e] = v` as integers and `b = c`. -/
theorem rowScatter_lands_iff (e : Fin E) (b : Fin C) (v : Fin N) (c : Fin C) :
    (rowScatterDims N E C wf).resultIdx? (ix2 e b) idx = some (ix2 v c)
      ↔ (idx (ix2 e (0 : Fin 1))).toInt = (v.val : ℤ) ∧ b = c := by
  unfold ScatterDims.resultIdx?
  have s0 := rowScatter_start0 wf idx (ix2 e b)
  have w0 := rowScatter_window0 wf (ix2 e b)
  have s1 := rowScatter_start1 wf idx (ix2 e b)
  have w1 := rowScatter_window1 wf (ix2 e b)
  have e0 : (ix2 e b : (⟨2, ![E, C]⟩ : Shape).Idx) 0 = e := rfl
  have e1 : ((ix2 e b : (⟨2, ![E, C]⟩ : Shape).Idx) 1).val = b.val := rfl
  rw [e0] at s0
  rw [e1] at w1
  split
  · rename_i h
    rw [Option.some.injEq]
    constructor
    · intro hf
      have h0 := congrArg (fun f : (⟨2, ![N, C]⟩ : Shape).Idx => (f 0).val) hf
      have h1 := congrArg (fun f : (⟨2, ![N, C]⟩ : Shape).Idx => (f 1).val) hf
      simp only at h0 h1
      have hv : ((ix2 v c : (⟨2, ![N, C]⟩ : Shape).Idx) 0).val = v.val := rfl
      have hc : ((ix2 v c : (⟨2, ![N, C]⟩ : Shape).Idx) 1).val = c.val := rfl
      rw [hv] at h0; rw [hc] at h1
      have hh0 := (h 0).1
      rw [s0, w0] at h0 hh0
      rw [s1, w1] at h1
      refine ⟨by omega, Fin.ext (by omega)⟩
    · rintro ⟨hz, rfl⟩
      funext a
      refine Fin.ext ?_
      match a with
      | ⟨0, _⟩ =>
        show ((rowScatterDims N E C wf).start (ix2 e b) idx 0 + ((rowScatterDims N E C wf).window (ix2 e b) 0 : ℕ)).toNat = v.val
        rw [s0, w0, hz]; simp
      | ⟨1, _⟩ =>
        show ((rowScatterDims N E C wf).start (ix2 e b) idx 1 + ((rowScatterDims N E C wf).window (ix2 e b) 1 : ℕ)).toNat = b.val
        rw [s1, w1]; simp
  · rename_i h
    constructor
    · intro hf; exact absurd hf (by simp)
    · rintro ⟨hz, rfl⟩
      exfalso; apply h
      intro a
      match a with
      | ⟨0, _⟩ =>
        show 0 ≤ (rowScatterDims N E C wf).start (ix2 e b) idx 0 + ((rowScatterDims N E C wf).window (ix2 e b) 0 : ℕ)
          ∧ (rowScatterDims N E C wf).start (ix2 e b) idx 0 + ((rowScatterDims N E C wf).window (ix2 e b) 0 : ℕ) < (N : ℤ)
        rw [s0, w0, hz]; have := v.isLt; constructor <;> omega
      | ⟨1, _⟩ =>
        show 0 ≤ (rowScatterDims N E C wf).start (ix2 e b) idx 1 + ((rowScatterDims N E C wf).window (ix2 e b) 1 : ℕ)
          ∧ (rowScatterDims N E C wf).start (ix2 e b) idx 1 + ((rowScatterDims N E C wf).window (ix2 e b) 1 : ℕ) < (C : ℤ)
        rw [s1, w1]; have := b.isLt; constructor <;> omega

/-- THE ACCUMULATING ROW SCATTER READ AT `(v, c)`: the operand there plus the sum, over the update rows `e` whose
    index is `v`, of the update at `(e, c)`. -/
theorem rowScatterAdd_apply (x : (⟨2, ![N, C]⟩ : Shape).Idx → EReal) (upd : (⟨2, ![E, C]⟩ : Shape).Idx → EReal)
    (v : Fin N) (c : Fin C) :
    Ideal.hostScatterAdd (rowScatterDims N E C wf) x idx upd (ix2 v c)
      = x (ix2 v c) + ∑ e ∈ Finset.univ.filter (fun e : Fin E => (idx (ix2 e (0 : Fin 1))).toInt = (v.val : ℤ)),
          upd (ix2 e c) := by
  unfold Ideal.hostScatterAdd
  congr 1
  rw [Finset.sum_filter, sum_idx2, Finset.sum_filter]
  refine Finset.sum_congr rfl fun e _ => ?_
  simp only [rowScatter_lands_iff wf idx]
  by_cases hz : (idx (ix2 e (0 : Fin 1))).toInt = (v.val : ℤ)
  · simp only [hz, true_and, if_true]
    rw [Finset.sum_ite_eq' Finset.univ c]
    simp
  · simp [hz]

end Scatter

end Idealize.ShloMosaic.RowOps

end
-- ==== Proof.Math.ScatterMerge.lean ====
/-
  One accumulation over a doubled list is two accumulations over the list.

  Lay a list of E keyed terms end to end with a second list of E keyed terms. The sum, over the 2·E positions whose key
  is v, of the terms there is the sum over the first list's positions with key v plus the sum over the second list's
  positions with key v: a sum over E + E consecutive indices is the sum over the first E plus the sum over the last E,
  and a sum over the positions satisfying a condition is the sum of "term if the condition holds, else zero". This
  holds in any commutative monoid. On the extended reals, with each accumulation started from the zero word, it says
  that ONE accumulation of the messages laid end to end with themselves, keyed by the first endpoints then the second
  endpoints, is the specification's aggregate: the first-endpoint sum plus the second-endpoint sum.
-/
import proofs.«100937_j83021717831844_2_alg».proof.Proof.Spec
import proofs.«100937_j83021717831844_2_alg».proof.Proof.LibStackedProd

noncomputable section

open scoped BigOperators

namespace Cert.GNN

open Idealize.ShloMosaic Idealize.ShloMosaic.ValueIdx Cert.Linear

/-- Two keyed lists laid end to end: the terms at the positions with key v are those of the first list with key v and
    those of the second list with key v. -/
theorem sum_filter_two_runs {M κ : Type} [AddCommMonoid M] [DecidableEq κ] (E T : Nat) (hT : E + E = T)
    (f g : Fin E → κ) (u w : Fin E → M) (key2 : Fin T → κ) (u2 : Fin T → M)
    (hf : ∀ e : Fin E, key2 ⟨e.val, by omega⟩ = f e) (hg : ∀ e : Fin E, key2 ⟨E + e.val, by omega⟩ = g e)
    (hu : ∀ e : Fin E, u2 ⟨e.val, by omega⟩ = u e) (hw : ∀ e : Fin E, u2 ⟨E + e.val, by omega⟩ = w e) (v : κ) :
    ∑ e ∈ Finset.univ.filter (fun e : Fin T => key2 e = v), u2 e
      = (∑ e ∈ Finset.univ.filter (fun e : Fin E => f e = v), u e)
        + ∑ e ∈ Finset.univ.filter (fun e : Fin E => g e = v), w e := by
  rw [Finset.sum_filter, Finset.sum_filter, Finset.sum_filter, sum_split E E T hT]
  refine congrArg₂ (· + ·) (Finset.sum_congr rfl fun e _ => ?_) (Finset.sum_congr rfl fun e _ => ?_)
  · rw [hf e, hu e]
  · rw [hg e, hw e]

/-- On the extended reals: an accumulation started from zero, of two sums, is the two accumulations each started from
    zero. -/
theorem zero_add_add (a b : EReal) : z0 + (a + b) = (z0 + a) + (z0 + b) := by
  show Ideal.ofBits .f32 0x00000000#32 + (a + b) = (Ideal.ofBits .f32 0x00000000#32 + a) + (Ideal.ofBits .f32 0x00000000#32 + b)
  rw [Ideal.ofBits_zero_f32, zero_add, zero_add, zero_add]

/-- THE MERGE: one accumulation, started from the zero word, of the messages laid end to end with themselves and keyed
    by the first-endpoint keys then the second-endpoint keys, is the specification's aggregate. -/
theorem aggregate_of_doubled {E T Nn C : Nat} (hT : E + E = T) (k0 k1 : Fin E → ℤ) (msg : (Mat E C).Idx → EReal)
    (key2 : Fin T → ℤ) (msg2 : (Mat T C).Idx → EReal)
    (hk0 : ∀ e : Fin E, key2 ⟨e.val, by omega⟩ = k0 e) (hk1 : ∀ e : Fin E, key2 ⟨E + e.val, by omega⟩ = k1 e)
    (hm0 : ∀ (e : Fin E) (c : Fin C), msg2 (ix2 ⟨e.val, by omega⟩ c) = msg (ix2 e c))
    (hm1 : ∀ (e : Fin E) (c : Fin C), msg2 (ix2 ⟨E + e.val, by omega⟩ c) = msg (ix2 e c))
    (v : Fin Nn) (c : Fin C) :
    z0 + ∑ e ∈ Finset.univ.filter (fun e : Fin T => key2 e = (v.val : ℤ)), msg2 (ix2 e c)
      = aggregate (Nn := Nn) k0 k1 msg (ix2 v c) := by
  show _ = (z0 + ∑ e ∈ Finset.univ.filter (fun e : Fin E => k0 e = (v.val : ℤ)), msg (ix2 e c))
    + (z0 + ∑ e ∈ Finset.univ.filter (fun e : Fin E => k1 e = (v.val : ℤ)), msg (ix2 e c))
  rw [← zero_add_add]
  exact congrArg (z0 + ·)
    (sum_filter_two_runs E T hT k0 k1 (fun e => msg (ix2 e c)) (fun e => msg (ix2 e c)) key2 (fun e => msg2 (ix2 e c))
      hk0 hk1 (fun e => hm0 e c) (fun e => hm1 e c) (v.val : ℤ))

end Cert.GNN

end
-- ==== Proof.Math.JoinReads.lean ====
/-
  Layout operations read at an index: a vector made a column, two vectors laid end to end, two arrays laid one below
  the other, and the splat of the zero word.
-/
import proofs.«100937_j83021717831844_2_alg».proof.Proof.Spec
import proofs.«100937_j83021717831844_2_alg».proof.Proof.LibSelfLoop
import proofs.«100937_j83021717831844_2_alg».proof.Proof.LibStackedProd
import Idealize.ShloMosaic.Lib.Pipeline.Value

noncomputable section

open scoped BigOperators

namespace Cert.GNN

open Idealize.ShloMosaic Idealize.ShloMosaic.ValueIdx Cert.Linear

variable {α : Type}

/-! ## Layout operations read at an index -/

/-- A length-E vector made a column [E, 1] reads, at (e, 0), the vector at e. -/
theorem column_apply {E : Nat} (x : (Vc E).Idx → α) (h : (Vc E).BroadcastsInDim (Mat E 1) ![0]) (e : Fin E) :
    broadcastInDim (Mat E 1) ![0] h x (ix2 e (0 : Fin 1)) = x (ix1 e) :=
  broadcastInDim_apply ![0] h x (ix2 e (0 : Fin 1)) (ix1 e) fun ax => by
    match ax with
    | ⟨0, _⟩ =>
      show e.val = if E = 1 then 0 else e.val
      split
      · have := e.isLt; omega
      · rfl

/-- Two length-E vectors laid end to end, read in the first one's span. -/
theorem vec_join_first {E T : Nat} (x0 x1 : (Vc E).Idx → α)
    (h : Shape.Concatenates [Vc E, Vc E] (Vc T) 0) (J : (Vc T).Idx) (e : Fin E) (h0 : (J 0).val = e.val) :
    concatenate (Vc T) 0 [⟨Vc E, x0⟩, ⟨Vc E, x1⟩] h J = x0 (ix1 e) :=
  concatenate_apply_piece 0 [⟨Vc E, x0⟩, ⟨Vc E, x1⟩] h J 0 (Nat.succ_le_succ (Nat.zero_le 1)) (Vc E) x0 rfl rfl 0 rfl (ix1 e)
    (fun b hb => by
      match b with
      | ⟨0, _⟩ => exact absurd (Fin.ext rfl) hb)
    (by show 0 + e.val = (J 0).val; omega)

/-- Two length-E vectors laid end to end, read in the second one's span. -/
theorem vec_join_second {E T : Nat} (x0 x1 : (Vc E).Idx → α)
    (h : Shape.Concatenates [Vc E, Vc E] (Vc T) 0) (J : (Vc T).Idx) (e : Fin E) (h0 : (J 0).val = E + e.val) :
    concatenate (Vc T) 0 [⟨Vc E, x0⟩, ⟨Vc E, x1⟩] h J = x1 (ix1 e) :=
  concatenate_apply_piece 0 [⟨Vc E, x0⟩, ⟨Vc E, x1⟩] h J 1 (Nat.succ_le_succ (Nat.succ_le_succ (Nat.zero_le 0))) (Vc E) x1 rfl rfl E
    (by show E + 0 = E; omega) (ix1 e)
    (fun b hb => by
      match b with
      | ⟨0, _⟩ => exact absurd (Fin.ext rfl) hb)
    (by show E + e.val = (J 0).val; omega)

/-- Two [E, C] arrays laid one below the other, read in the first one's rows. -/
theorem rows_join_first {E T C : Nat} (x0 x1 : (Mat E C).Idx → α)
    (h : Shape.Concatenates [Mat E C, Mat E C] (Mat T C) 0) (J : (Mat T C).Idx) (e : Fin E) (c : Fin C)
    (h0 : (J 0).val = e.val) (h1 : (J 1).val = c.val) :
    concatenate (Mat T C) 0 [⟨Mat E C, x0⟩, ⟨Mat E C, x1⟩] h J = x0 (ix2 e c) :=
  concatenate_apply_piece 0 [⟨Mat E C, x0⟩, ⟨Mat E C, x1⟩] h J 0 (Nat.succ_le_succ (Nat.zero_le 1)) (Mat E C) x0 rfl rfl 0 rfl (ix2 e c)
    (fun b hb => by
      match b with
      | ⟨0, _⟩ => exact absurd (Fin.ext rfl) hb
      | ⟨1, _⟩ => exact h1.symm)
    (by show 0 + e.val = (J 0).val; omega)

/-- Two [E, C] arrays laid one below the other, read in the second one's rows. -/
theorem rows_join_second {E T C : Nat} (x0 x1 : (Mat E C).Idx → α)
    (h : Shape.Concatenates [Mat E C, Mat E C] (Mat T C) 0) (J : (Mat T C).Idx) (e : Fin E) (c : Fin C)
    (h0 : (J 0).val = E + e.val) (h1 : (J 1).val = c.val) :
    concatenate (Mat T C) 0 [⟨Mat E C, x0⟩, ⟨Mat E C, x1⟩] h J = x1 (ix2 e c) :=
  concatenate_apply_piece 0 [⟨Mat E C, x0⟩, ⟨Mat E C, x1⟩] h J 1 (Nat.succ_le_succ (Nat.succ_le_succ (Nat.zero_le 0))) (Mat E C) x1 rfl rfl E
    (by show E + 0 = E; omega) (ix2 e c)
    (fun b hb => by
      match b with
      | ⟨0, _⟩ => exact absurd (Fin.ext rfl) hb
      | ⟨1, _⟩ => exact h1.symm)
    (by show E + e.val = (J 0).val; omega)

/-- The splat of the zero word reads the zero word everywhere. -/
theorem zero_splat_apply {t : Shape} (h : (⟨0, ![]⟩ : Shape).BroadcastsInDim t ![]) (j : t.Idx) :
    broadcastInDim t ![] h (constant (F := Ideal) (⟨0, ![]⟩ : Shape) .f32 0x00000000#32) j = z0 :=
  Cert.SelfLoop.broadcastInDim_scalar_apply _ h j

end Cert.GNN

end
-- ==== Proof.Math.KernelSum.lean ====
/-
  One accumulating scatter over the doubled edge list is the specification's aggregate.

  Lay the two endpoint vectors end to end, make the result a column of indices, lay the messages end to end with
  themselves, and accumulate the 2·E rows into an array of zeros: row v receives the zero word plus the rows whose index
  is v. Entry by entry this is the first-endpoint sum plus the second-endpoint sum, each started from the zero word,
  because a sum over E + E consecutive positions is the sum over its two runs, and a sum over the positions satisfying a
  condition is the sum of "term if the condition holds, else zero". An index is read as a signed integer, and an edge
  whose index is no node number lands nowhere.
-/
import proofs.«100937_j83021717831844_2_alg».proof.Proof.Spec
import proofs.«100937_j83021717831844_2_alg».proof.Proof.LibRowOps
import proofs.«100937_j83021717831844_2_alg».proof.Proof.LibStackedProd
import proofs.«100937_j83021717831844_2_alg».proof.Proof.Math.ScatterMerge
import proofs.«100937_j83021717831844_2_alg».proof.Proof.Math.JoinReads

noncomputable section

open scoped BigOperators

namespace Cert.GNN

open Idealize.ShloMosaic Idealize.ShloMosaic.ValueIdx Idealize.ShloMosaic.RowOps Cert.Linear

/-- ONE SCATTER OVER THE DOUBLED LIST: for any number of edges E (T = E + E), nodes Nn and features C. -/
theorem doubled_scatter_eq {E T Nn C w : Nat} (hT : E + E = T) (I0 I1 : IVec (Vc E) w) (MSG : (Mat E C).Idx → EReal)
    (h1 : Shape.Concatenates [Vc E, Vc E] (Vc T) 0)
    (h2 : Shape.Concatenates [Mat E C, Mat E C] (Mat T C) 0)
    (h3 : (Vc T).BroadcastsInDim (Mat T 1) ![0])
    (h4 : (⟨0, ![]⟩ : Shape).BroadcastsInDim (Mat Nn C) ![])
    (wf : ScatterDims.WF (Mat Nn C) (Mat T 1) (Mat T C) [1] [0] [0] 1) :
    Ideal.hostScatterAdd (rowScatterDims Nn T C wf)
        (broadcastInDim (Mat Nn C) ![] h4 (constant (F := Ideal) (⟨0, ![]⟩ : Shape) .f32 0x00000000#32))
        (broadcastInDim (Mat T 1) ![0] h3 (concatenate (Vc T) 0 [⟨Vc E, I0⟩, ⟨Vc E, I1⟩] h1))
        (concatenate (Mat T C) 0 [⟨Mat E C, MSG⟩, ⟨Mat E C, MSG⟩] h2)
      = aggregate (Nn := Nn) (fun e => (I0 (ix1 e)).toInt) (fun e => (I1 (ix1 e)).toInt) MSG := by
  funext i
  obtain ⟨v, c, rfl⟩ : ∃ (v : Fin Nn) (c : Fin C), i = ix2 v c := ⟨i 0, i 1, eq_ix2 i⟩
  rw [rowScatterAdd_apply wf _ _ _ v c]
  rw [zero_splat_apply h4]
  have hk0 : ∀ e : Fin E, (broadcastInDim (Mat T 1) ![0] h3 (concatenate (Vc T) 0 [⟨Vc E, I0⟩, ⟨Vc E, I1⟩] h1)
      (ix2 (⟨e.val, by omega⟩ : Fin T) (0 : Fin 1))).toInt = (I0 (ix1 e)).toInt := fun e =>
    congrArg BitVec.toInt ((column_apply _ h3 ⟨e.val, by omega⟩).trans
      (vec_join_first I0 I1 h1 (ix1 (⟨e.val, by omega⟩ : Fin T)) e rfl))
  have hk1 : ∀ e : Fin E, (broadcastInDim (Mat T 1) ![0] h3 (concatenate (Vc T) 0 [⟨Vc E, I0⟩, ⟨Vc E, I1⟩] h1)
      (ix2 (⟨E + e.val, by omega⟩ : Fin T) (0 : Fin 1))).toInt = (I1 (ix1 e)).toInt := fun e =>
    congrArg BitVec.toInt ((column_apply _ h3 ⟨E + e.val, by omega⟩).trans
      (vec_join_second I0 I1 h1 (ix1 (⟨E + e.val, by omega⟩ : Fin T)) e rfl))
  have hm0 : ∀ (e : Fin E) (c : Fin C), concatenate (Mat T C) 0 [⟨Mat E C, MSG⟩, ⟨Mat E C, MSG⟩] h2
      (ix2 (⟨e.val, by omega⟩ : Fin T) c) = MSG (ix2 e c) := fun e c =>
    rows_join_first MSG MSG h2 (ix2 (⟨e.val, by omega⟩ : Fin T) c) e c rfl rfl
  have hm1 : ∀ (e : Fin E) (c : Fin C), concatenate (Mat T C) 0 [⟨Mat E C, MSG⟩, ⟨Mat E C, MSG⟩] h2
      (ix2 (⟨E + e.val, by omega⟩ : Fin T) c) = MSG (ix2 e c) := fun e c =>
    rows_join_second MSG MSG h2 (ix2 (⟨E + e.val, by omega⟩ : Fin T) c) e c rfl rfl
  show _ = (z0 + ∑ e ∈ Finset.univ.filter (fun e : Fin E => (I0 (ix1 e)).toInt = (v.val : ℤ)), MSG (ix2 e c))
    + (z0 + ∑ e ∈ Finset.univ.filter (fun e : Fin E => (I1 (ix1 e)).toInt = (v.val : ℤ)), MSG (ix2 e c))
  rw [← zero_add_add]
  refine congrArg (z0 + ·) ?_
  rw [Finset.sum_filter, Finset.sum_filter, Finset.sum_filter, sum_split E E T hT]
  refine congrArg₂ (· + ·) (Finset.sum_congr rfl fun e _ => ?_) (Finset.sum_congr rfl fun e _ => ?_)
  · rw [hk0 e, hm0 e c]
  · rw [hk1 e, hm1 e c]

/-- The same at 524288 edges, 65536 nodes, 128 features. -/
theorem kernel_sum (I0 I1 : IVec (Vc 524288) 32) (MSG : (Mat 524288 128).Idx → EReal)
    (h1 : Shape.Concatenates [Vc 524288, Vc 524288] (Vc 1048576) 0)
    (h2 : Shape.Concatenates [Mat 524288 128, Mat 524288 128] (Mat 1048576 128) 0)
    (h3 : (Vc 1048576).BroadcastsInDim (Mat 1048576 1) ![0])
    (h4 : (⟨0, ![]⟩ : Shape).BroadcastsInDim (Mat 65536 128) ![])
    (wf : ScatterDims.WF (Mat 65536 128) (Mat 1048576 1) (Mat 1048576 128) [1] [0] [0] 1) :
    Ideal.hostScatterAdd (rowScatterDims 65536 1048576 128 wf)
        (broadcastInDim (Mat 65536 128) ![] h4 (constant (F := Ideal) (⟨0, ![]⟩ : Shape) .f32 0x00000000#32))
        (broadcastInDim (Mat 1048576 1) ![0] h3 (concatenate (Vc 1048576) 0 [⟨Vc 524288, I0⟩, ⟨Vc 524288, I1⟩] h1))
        (concatenate (Mat 1048576 128) 0 [⟨Mat 524288 128, MSG⟩, ⟨Mat 524288 128, MSG⟩] h2)
      = aggregate (Nn := 65536) (fun e => (I0 (ix1 e)).toInt) (fun e => (I1 (ix1 e)).toInt) MSG :=
  doubled_scatter_eq (by norm_num) I0 I1 MSG h1 h2 h3 h4 wf

end Cert.GNN

end
-- ==== Proof.KI.KernelSpec.lean ====
/- The program's value is the specification's layer of the processed arguments: a change of float format is the
   identity on the extended reals, a cut of consecutive rows out of a weight matrix is that row block, and the one
   accumulating scatter of the doubled messages at the doubled endpoint columns is the aggregate over each node's
   edges. -/
import proofs.«100937_j83021717831844_2_alg».proof.Proof.KI.KernelValue
import proofs.«100937_j83021717831844_2_alg».proof.Proof.SpecOut
import proofs.«100937_j83021717831844_2_alg».proof.Proof.LibRowLayout
import proofs.«100937_j83021717831844_2_alg».proof.Proof.Math.KernelSum

noncomputable section

namespace Cert.KernelIdeal.Hand

open Idealize.ShloMosaic Idealize.ShloMosaic.TcCoe Idealize.ShloMosaic.StableHlo Idealize.ShloMosaic.ValueIdx
open Cert.KernelIdeal Cert.KernelIdeal.Facts₀ Cert.KernelIdeal.Facts

/-- The network of equal pieces is equal. -/
theorem net_congr {R A B C N1 N2 N3 : Nat}
    {X1 X1' : (Cert.Linear.Mat R A).Idx → EReal} {X2 X2' : (Cert.Linear.Mat R B).Idx → EReal} {X3 X3' : (Cert.Linear.Mat R C).Idx → EReal}
    {Wa Wa' : (Cert.Linear.Mat A N1).Idx → EReal} {Wb Wb' : (Cert.Linear.Mat B N1).Idx → EReal} {Wc Wc' : (Cert.Linear.Mat C N1).Idx → EReal}
    {b1 b1' : (Cert.Linear.Mat 1 N1).Idx → EReal} {W2 W2' : (Cert.Linear.Mat N1 N2).Idx → EReal} {b2 b2' : (Cert.Linear.Mat 1 N2).Idx → EReal}
    {W3 W3' : (Cert.Linear.Mat N2 N3).Idx → EReal} {b3 b3' : (Cert.Linear.Mat 1 N3).Idx → EReal}
    (h1 : X1 = X1') (h2 : X2 = X2') (h3 : X3 = X3') (h4 : Wa = Wa') (h5 : Wb = Wb') (h6 : Wc = Wc') (h7 : b1 = b1')
    (h8 : W2 = W2') (h9 : b2 = b2') (h10 : W3 = W3') (h11 : b3 = b3') :
    Cert.GNN.net X1 X2 X3 Wa Wb Wc b1 W2 b2 W3 b3 = Cert.GNN.net X1' X2' X3' Wa' Wb' Wc' b1' W2' b2' W3' b3' := by
  subst h1 h2 h3 h4 h5 h6 h7 h8 h9 h10 h11; rfl

/-- THE MESSAGES are the specification's: the conversions are the identity and the three cuts of the first weight matrix
    are its row blocks. -/
theorem kernelMsg_eq (a0 : (⟨S65536x128, .f32⟩ : BufTy).Contents (Elt Ideal)) (a1 : (⟨S524288x64, .f32⟩ : BufTy).Contents (Elt Ideal)) (a2 : (⟨S524288x2, .i32⟩ : BufTy).Contents (Elt Ideal)) (a3 : (⟨S320x256, .f32⟩ : BufTy).Contents (Elt Ideal)) (a4 : (⟨S256, .f32⟩ : BufTy).Contents (Elt Ideal)) (a5 : (⟨S256x256, .f32⟩ : BufTy).Contents (Elt Ideal)) (a6 : (⟨S256, .f32⟩ : BufTy).Contents (Elt Ideal)) (a7 : (⟨S256x128, .f32⟩ : BufTy).Contents (Elt Ideal)) (a8 : (⟨S128, .f32⟩ : BufTy).Contents (Elt Ideal)) :
    kernelMsg a0 a1 a2 a3 a4 a5 a6 a7 a8 = (Cert.GNN.messages
      (Host.gather gather_S65536x128_S524288x1_S524288x128_1_0_n_n_0_1_1128 a0 (startRows (column0 a2)))
      (Host.gather gather_S65536x128_S524288x1_S524288x128_1_0_n_n_0_1_1128 a0 (startRows (column1 a2)))
      a1 (Cert.Linear.rowBlock 128 0 (by omega) a3) (Cert.Linear.rowBlock 128 128 (by omega) a3) (Cert.Linear.rowBlock 64 256 (by omega) a3)
      (shapeCast S1x256 a4 shapeCasts_S256_S1x256) a5 (shapeCast S1x256 a6 shapeCasts_S256_S1x256) a7
      (shapeCast S1x128 a8 shapeCasts_S128_S1x128)) :=
  net_congr rfl rfl rfl
    (Cert.Linear.slice_rows 0 a3 slices_S320x256_S128x256_0_0 (by omega))
    (Cert.Linear.slice_rows 128 a3 slices_S320x256_S128x256_128_0 (by omega))
    (Cert.Linear.slice_rows 256 a3 slices_S320x256_S64x256_256_0 (by omega)) rfl rfl rfl rfl rfl

/-- THE AGGREGATE: the one scatter of the doubled messages at the doubled endpoint columns adds, at every node, the
    messages of the edges whose first endpoint it is and of those whose second endpoint it is. -/
theorem kernelSum_eq (a2 : (⟨S524288x2, .i32⟩ : BufTy).Contents (Elt Ideal)) (MSG : (⟨S524288x128, .f32⟩ : BufTy).Contents (Elt Ideal)) :
    kernelSum a2 MSG
      = Cert.GNN.aggregate (Nn := 65536) (fun e => (column0 a2 (ix1 e)).toInt) (fun e => (column1 a2 (ix1 e)).toInt) MSG :=
  Cert.GNN.kernel_sum (column0 a2) (column1 a2) MSG concatenates_S524288_S524288_S1048576_d0
    concatenates_S524288x128_S524288x128_S1048576x128_d0 bcast_S1048576_S1048576x1_0 bcast_S_S65536x128
    scatter_S65536x128_S1048576x1_S1048576x128_1_0_0_1_wf

/-- THE PROGRAM'S VALUE IS THE SPECIFICATION'S LAYER of the processed arguments. -/
theorem kernelOut_eq_spec (a0 : (⟨S65536x128, .f32⟩ : BufTy).Contents (Elt Ideal)) (a1 : (⟨S524288x64, .f32⟩ : BufTy).Contents (Elt Ideal)) (a2 : (⟨S524288x2, .i32⟩ : BufTy).Contents (Elt Ideal)) (a3 : (⟨S320x256, .f32⟩ : BufTy).Contents (Elt Ideal)) (a4 : (⟨S256, .f32⟩ : BufTy).Contents (Elt Ideal)) (a5 : (⟨S256x256, .f32⟩ : BufTy).Contents (Elt Ideal)) (a6 : (⟨S256, .f32⟩ : BufTy).Contents (Elt Ideal)) (a7 : (⟨S256x128, .f32⟩ : BufTy).Contents (Elt Ideal)) (a8 : (⟨S128, .f32⟩ : BufTy).Contents (Elt Ideal)) (a9 : (⟨S384x256, .f32⟩ : BufTy).Contents (Elt Ideal)) (a10 : (⟨S256, .f32⟩ : BufTy).Contents (Elt Ideal)) (a11 : (⟨S256x256, .f32⟩ : BufTy).Contents (Elt Ideal)) (a12 : (⟨S256, .f32⟩ : BufTy).Contents (Elt Ideal)) (a13 : (⟨S256x128, .f32⟩ : BufTy).Contents (Elt Ideal)) (a14 : (⟨S128, .f32⟩ : BufTy).Contents (Elt Ideal)) :
    kernelOut a0 a1 a2 a3 a4 a5 a6 a7 a8 a9 a10 a11 a12 a13 a14
      = Cert.GNN.outSpec a0 (fun e => (column0 a2 (ix1 e)).toInt) (fun e => (column1 a2 (ix1 e)).toInt)
          (Cert.GNN.messages
      (Host.gather gather_S65536x128_S524288x1_S524288x128_1_0_n_n_0_1_1128 a0 (startRows (column0 a2)))
      (Host.gather gather_S65536x128_S524288x1_S524288x128_1_0_n_n_0_1_1128 a0 (startRows (column1 a2)))
      a1 (Cert.Linear.rowBlock 128 0 (by omega) a3) (Cert.Linear.rowBlock 128 128 (by omega) a3) (Cert.Linear.rowBlock 64 256 (by omega) a3)
      (shapeCast S1x256 a4 shapeCasts_S256_S1x256) a5 (shapeCast S1x256 a6 shapeCasts_S256_S1x256) a7
      (shapeCast S1x128 a8 shapeCasts_S128_S1x128))
          (Cert.Linear.rowBlock 128 0 (by omega) a9) (Cert.Linear.rowBlock 128 128 (by omega) a9) (Cert.Linear.rowBlock 128 256 (by omega) a9)
          (shapeCast S1x256 a10 shapeCasts_S256_S1x256) a11 (shapeCast S1x256 a12 shapeCasts_S256_S1x256) a13
          (shapeCast S1x128 a14 shapeCasts_S128_S1x128) :=
  net_congr rfl
    ((kernelSum_eq a2 _).trans (congrArg (Cert.GNN.aggregate (Nn := 65536) (fun e => (column0 a2 (ix1 e)).toInt) (fun e => (column1 a2 (ix1 e)).toInt))
      (kernelMsg_eq a0 a1 a2 a3 a4 a5 a6 a7 a8)))
    rfl
    (Cert.Linear.slice_rows 0 a9 slices_S384x256_S128x256_0_0 (by omega))
    (Cert.Linear.slice_rows 128 a9 slices_S384x256_S128x256_128_0 (by omega))
    (Cert.Linear.slice_rows 256 a9 slices_S384x256_S128x256_256_0 (by omega)) rfl rfl rfl rfl rfl

end Cert.KernelIdeal.Hand

end
-- ==== Proof.Ref.Layers.lean ====
/-
  The reference's dense layers as plain matrix products with a bias row.

  Each of the reference's six dense layers is a `dot_general` that contracts the left operand's columns with the
  right operand's rows, a bias vector spread over the rows by two `broadcast_in_dim`s and added, and — for the
  first two layers of each network — the maximum with a splat zero. At the ideal values the `dot_general` is the
  plain sum of products `matProd`, and the bias and maximum are `rowBiasMax` / `rowBias` at the bias vector
  reshaped to one row. No law of arithmetic is used: both sides are the same expression entry by entry.
-/
import proofs.«100937_j83021717831844_2_alg».proof.Proof.Ref.Out
import proofs.«100937_j83021717831844_2_alg».proof.Proof.LibMatProd
import proofs.«100937_j83021717831844_2_alg».proof.Proof.LibDotLists
import proofs.«100937_j83021717831844_2_alg».proof.Proof.LibRowBlock
import proofs.«100937_j83021717831844_2_alg».proof.Proof.LibSelfLoop

noncomputable section

namespace Cert.ReferenceIdeal.Hand

open Cert.ReferenceIdeal Cert.ReferenceIdeal.Gen Idealize.ShloMosaic Cert.Linear

/-- The zero float word's value. -/
abbrev zw : EReal := Ideal.ofBits .f32 0x00000000#32

/-! ## The message network -/

theorem msgH1_eq (X : FVec Ideal S524288x320 .f32) (mW1 : FVec Ideal S320x256 .f32) (mb1 : FVec Ideal S256 .f32)
    (h : S256.ShapeCasts (Mat 1 256)) :
    msgH1 X mW1 mb1 = rowBiasMax (matProd (R := 524288) (K := 320) (N := 256) X mW1) (shapeCast (Mat 1 256) mb1 h) zw := by
  unfold msgH1 Host.dotGeneral
  rw [dotGeneral_eq (contracts_of_lists (R := 524288) (K := 320) (N := 256) dot_S524288x320_S320x256_S524288x256_1_0_0_1_n_n rfl rfl rfl rfl rfl rfl)]
  exact rowBiasMax_of_host_ops (R := 524288) (K := 256) _ mb1 0x00000000#32 _ _ _ h

theorem msgH2_eq (H : FVec Ideal S524288x256 .f32) (mW2 : FVec Ideal S256x256 .f32) (mb2 : FVec Ideal S256 .f32)
    (h : S256.ShapeCasts (Mat 1 256)) :
    msgH2 H mW2 mb2 = rowBiasMax (matProd (R := 524288) (K := 256) (N := 256) H mW2) (shapeCast (Mat 1 256) mb2 h) zw := by
  unfold msgH2 Host.dotGeneral
  rw [dotGeneral_eq (contracts_of_lists (R := 524288) (K := 256) (N := 256) dot_S524288x256_S256x256_S524288x256_1_0_0_1_n_n rfl rfl rfl rfl rfl rfl)]
  exact rowBiasMax_of_host_ops (R := 524288) (K := 256) _ mb2 0x00000000#32 _ _ _ h

theorem msgH3_eq (H : FVec Ideal S524288x256 .f32) (mW3 : FVec Ideal S256x128 .f32) (mb3 : FVec Ideal S128 .f32)
    (h : S128.ShapeCasts (Mat 1 128)) :
    msgH3 H mW3 mb3 = Cert.SelfLoop.rowBias (matProd (R := 524288) (K := 256) (N := 128) H mW3) (shapeCast (Mat 1 128) mb3 h) := by
  unfold msgH3 Host.dotGeneral
  rw [dotGeneral_eq (contracts_of_lists (R := 524288) (K := 256) (N := 128) dot_S524288x256_S256x128_S524288x128_1_0_0_1_n_n rfl rfl rfl rfl rfl rfl)]
  exact Cert.SelfLoop.rowBias_of_host_ops (R := 524288) (K := 128) _ mb3 _ _ h

/-! ## The update network -/

theorem updH1_eq (X : FVec Ideal S65536x384 .f32) (uW1 : FVec Ideal S384x256 .f32) (ub1 : FVec Ideal S256 .f32)
    (h : S256.ShapeCasts (Mat 1 256)) :
    updH1 X uW1 ub1 = rowBiasMax (matProd (R := 65536) (K := 384) (N := 256) X uW1) (shapeCast (Mat 1 256) ub1 h) zw := by
  unfold updH1 Host.dotGeneral
  rw [dotGeneral_eq (contracts_of_lists (R := 65536) (K := 384) (N := 256) dot_S65536x384_S384x256_S65536x256_1_0_0_1_n_n rfl rfl rfl rfl rfl rfl)]
  exact rowBiasMax_of_host_ops (R := 65536) (K := 256) _ ub1 0x00000000#32 _ _ _ h

theorem updH2_eq (H : FVec Ideal S65536x256 .f32) (uW2 : FVec Ideal S256x256 .f32) (ub2 : FVec Ideal S256 .f32)
    (h : S256.ShapeCasts (Mat 1 256)) :
    updH2 H uW2 ub2 = rowBiasMax (matProd (R := 65536) (K := 256) (N := 256) H uW2) (shapeCast (Mat 1 256) ub2 h) zw := by
  unfold updH2 Host.dotGeneral
  rw [dotGeneral_eq (contracts_of_lists (R := 65536) (K := 256) (N := 256) dot_S65536x256_S256x256_S65536x256_1_0_0_1_n_n rfl rfl rfl rfl rfl rfl)]
  exact rowBiasMax_of_host_ops (R := 65536) (K := 256) _ ub2 0x00000000#32 _ _ _ h

theorem updH3_eq (H : FVec Ideal S65536x256 .f32) (uW3 : FVec Ideal S256x128 .f32) (ub3 : FVec Ideal S128 .f32)
    (h : S128.ShapeCasts (Mat 1 128)) :
    updH3 H uW3 ub3 = Cert.SelfLoop.rowBias (matProd (R := 65536) (K := 256) (N := 128) H uW3) (shapeCast (Mat 1 128) ub3 h) := by
  unfold updH3 Host.dotGeneral
  rw [dotGeneral_eq (contracts_of_lists (R := 65536) (K := 256) (N := 128) dot_S65536x256_S256x128_S65536x128_1_0_0_1_n_n rfl rfl rfl rfl rfl rfl)]
  exact Cert.SelfLoop.rowBias_of_host_ops (R := 65536) (K := 128) _ ub3 _ _ h

end Cert.ReferenceIdeal.Hand

end
-- ==== Proof.Ref.Summed.lean ====
/-
  The reference's summed messages, entry by entry.

  The reference accumulates the messages into an array of zeros twice — once at the rows named by column 0 of the
  endpoint array and once at the rows named by column 1, each column read as signed integers and not wrapped, so an
  edge whose entry is no node number lands nowhere — and adds the two accumulations. Entry `(v, c)` of one
  accumulation is the zero word plus the sum of the messages' entries `(e, c)` over the edges `e` whose column entry
  is `v`; so the summed messages are `Cert.GNN.aggregate` at the two columns' integer values. Nothing is
  rearranged: each side is the same two sums, added in the same order.
-/
import proofs.«100937_j83021717831844_2_alg».proof.Proof.Ref.Out
import proofs.«100937_j83021717831844_2_alg».proof.Proof.LibRowOps
import proofs.«100937_j83021717831844_2_alg».proof.Proof.LibSelfLoop
import proofs.«100937_j83021717831844_2_alg».proof.Proof.Spec
import Idealize.ShloMosaic.Lib.Pipeline.Value

noncomputable section

open scoped BigOperators

namespace Cert.ReferenceIdeal.Hand

open Cert.ReferenceIdeal Cert.ReferenceIdeal.Gen Idealize.ShloMosaic Idealize.ShloMosaic.ValueIdx

/-- Column 0 of the endpoint array at edge `e`. -/
theorem column0_apply (vx : IVec S524288x2 32) (e : Fin 524288) : column0 vx (ix1 e) = vx (ix2 e (0 : Fin 2)) := by
  unfold column0
  rw [shapeCast_apply _ shapeCasts_S524288x1_S524288 (ix1 e) (ix2 e (0 : Fin 1))
    (by rewrite [Shape.rowMajor_val_two, Shape.rowMajor_val_one]; show e.val * 1 + 0 = e.val; omega)]
  exact extractStridedSlice_apply ![0, 0] vx slices_S524288x2_S524288x1_0_0 (ix2 e (0 : Fin 1)) (ix2 e (0 : Fin 2)) (fun a => match a with
    | ⟨0, _⟩ => by show e.val = 0 + e.val; omega
    | ⟨1, _⟩ => by show 0 = 0 + 0; rfl)

/-- Column 1 of the endpoint array at edge `e`. -/
theorem column1_apply (vx : IVec S524288x2 32) (e : Fin 524288) : column1 vx (ix1 e) = vx (ix2 e (1 : Fin 2)) := by
  unfold column1
  rw [shapeCast_apply _ shapeCasts_S524288x1_S524288 (ix1 e) (ix2 e (0 : Fin 1))
    (by rewrite [Shape.rowMajor_val_two, Shape.rowMajor_val_one]; show e.val * 1 + 0 = e.val; omega)]
  exact extractStridedSlice_apply ![0, 1] vx slices_S524288x2_S524288x1_0_1 (ix2 e (0 : Fin 1)) (ix2 e (1 : Fin 2)) (fun a => match a with
    | ⟨0, _⟩ => by show e.val = 0 + e.val; omega
    | ⟨1, _⟩ => by show 1 = 1 + 0; rfl)

/-- One accumulation into the zero splat, at any sizes: entry `(v, c)` is the zero word plus the updates' entries
    `(e, c)` over the rows `e` whose key is `v`. -/
theorem scattered_gen {Nn E C w : Nat} (wf : ScatterDims.WF ⟨2, ![Nn, C]⟩ ⟨2, ![E, 1]⟩ ⟨2, ![E, C]⟩ [1] [0] [0] 1)
    (hz : (⟨0, ![]⟩ : Shape).BroadcastsInDim ⟨2, ![Nn, C]⟩ ![]) (hc : (⟨1, ![E]⟩ : Shape).BroadcastsInDim ⟨2, ![E, 1]⟩ ![0])
    (hE : E ≠ 1) (k : IVec ⟨1, ![E]⟩ w) (msg : FVec Ideal ⟨2, ![E, C]⟩ .f32) (v : Fin Nn) (c : Fin C) :
    (Host.scatterAdd (F := Ideal) (RowOps.rowScatterDims Nn E C wf)
        (broadcastInDim ⟨2, ![Nn, C]⟩ ![] hz (constant (F := Ideal) ⟨0, ![]⟩ .f32 0x00000000#32))
        (broadcastInDim ⟨2, ![E, 1]⟩ ![0] hc k) msg (ix2 v c) : EReal)
      = Cert.GNN.z0 + ∑ e ∈ Finset.univ.filter (fun e : Fin E => (k (ix1 e)).toInt = (v.val : ℤ)), msg (ix2 e c) := by
  unfold Host.scatterAdd
  rw [Ideal.hostScatterAdd_def, RowOps.rowScatterAdd_apply]
  refine congrArg₂ (fun a b : EReal => a + b) ?_ ?_
  · exact Cert.SelfLoop.broadcastInDim_scalar_apply _ hz (ix2 v c)
  · rw [Finset.sum_filter, Finset.sum_filter]
    refine Finset.sum_congr rfl fun e _ => ?_
    rw [broadcastInDim_apply ![0] hc k (ix2 e (0 : Fin 1)) (ix1 e) (fun a => match a with
      | ⟨0, _⟩ => by show e.val = if E = 1 then 0 else e.val; rw [if_neg hE])]

/-- One accumulation at `(v, c)`: the zero word plus the messages' entries `(e, c)` over the edges whose key is `v`. -/
theorem scattered_apply (k : IVec S524288 32) (msg : FVec Ideal S524288x128 .f32) (v : Fin 65536) (c : Fin 128) :
    (scattered k msg (ix2 v c) : EReal)
      = Cert.GNN.z0 + ∑ e ∈ Finset.univ.filter (fun e : Fin 524288 => (k (ix1 e)).toInt = (v.val : ℤ)), msg (ix2 e c) :=
  scattered_gen (Nn := 65536) (E := 524288) (C := 128) scatter_S65536x128_S524288x1_S524288x128_1_0_0_1_wf
    bcast_S_S65536x128 bcast_S524288_S524288x1_0 (by decide) k msg v c

/-- The summed messages are the aggregate whose keys are the reference's own two endpoint vectors read as signed
    integers. -/
theorem summed_eq_keys (vx : IVec S524288x2 32) (msg : FVec Ideal S524288x128 .f32) :
    summed vx msg = Cert.GNN.aggregate (E := 524288) (Nn := 65536) (C := 128)
      (fun e => (column0 vx (ix1 e)).toInt) (fun e => (column1 vx (ix1 e)).toInt) msg := by
  funext i
  obtain ⟨v, c, rfl⟩ : ∃ (v : Fin 65536) (c : Fin 128), i = ix2 v c := ⟨i 0, i 1, eq_ix2 i⟩
  exact congrArg₂ (fun a b : EReal => a + b) (scattered_apply (column0 vx) msg v c) (scattered_apply (column1 vx) msg v c)

/-- The summed messages are the aggregate at the two endpoint columns' integer values. -/
theorem summed_eq (vx : IVec S524288x2 32) (msg : FVec Ideal S524288x128 .f32) :
    summed vx msg = Cert.GNN.aggregate (E := 524288) (Nn := 65536) (C := 128)
      (fun e => (vx (ix2 e (0 : Fin 2))).toInt) (fun e => (vx (ix2 e (1 : Fin 2))).toInt) msg := by
  rw [summed_eq_keys]
  simp only [column0_apply, column1_apply]

end Cert.ReferenceIdeal.Hand

end
-- ==== Proof.Ref.Attention.lean ====
/-
  The reference's attention differences, entry by entry.

  The node states `[65536, 128]` are read as `[16, 2, 2048, 128]`: 16 pairs of graphs, 2 graphs in a pair, 2048 nodes
  in a graph; node `n` is graph `(n / 2048) % 2` of pair `n / 4096`, at position `n % 2048`. The reference takes
  the first graphs `[16, 2048, 128]` and the second graphs, subtracts each way, lays the two differences side by side
  along the node axis `[16, 4096, 128]` and reads the result back as `[65536, 128]`. Since `4096 = 2 · 2048`, row `n`
  of the result is position `n % 4096` of pair `n / 4096`: in the first half a first graph's node minus the second
  graph's node at the same position — the node `2048` rows further on —, in the second half a second graph's node
  minus the first graph's — the node `2048` rows back. That is `Cert.GNN.attention`: every node's state minus its
  partner's. No arithmetic law is used, only where each entry is read.
-/
import proofs.«100937_j83021717831844_2_alg».proof.Proof.Ref.Out
import proofs.«100937_j83021717831844_2_alg».proof.Proof.Spec
import Idealize.ShloMosaic.Lib.Pipeline.Value
import Idealize.ShloMosaic.Lib.ValueIdx

noncomputable section

namespace Cert.ReferenceIdeal.Hand

open Cert.ReferenceIdeal Cert.ReferenceIdeal.Gen Idealize.ShloMosaic Idealize.ShloMosaic.ValueIdx

/-- The states as pairs of graphs: entry `(g, b, s, c)` is node `(2g + b) · 2048 + s`, feature `c`. -/
theorem paired_apply (ns : FVec Ideal S65536x128 .f32) (g : Fin 16) (b : Fin 2) (s : Fin 2048) (c : Fin 128) :
    paired ns (ix4 g b s c)
      = ns (ix2 (n0 := 65536) (n1 := 128) ⟨(g.val * 2 + b.val) * 2048 + s.val, by have := g.isLt; have := b.isLt; have := s.isLt; omega⟩ c) := by
  unfold paired
  exact shapeCast_apply ns shapeCasts_S65536x128_S16x2x2048x128 (ix4 g b s c) _
    (by rewrite [Shape.rowMajor_val_two, Shape.rowMajor_val_four]
        show ((g.val * 2 + b.val) * 2048 + s.val) * 128 + c.val = ((g.val * 2 + b.val) * 2048 + s.val) * 128 + c.val
        rfl)

/-- The first graphs: entry `(g, s, c)` is node `2g · 2048 + s`. -/
theorem graph0_apply (ns : FVec Ideal S65536x128 .f32) (g : Fin 16) (s : Fin 2048) (c : Fin 128) :
    graph0 ns (ix3 g s c)
      = ns (ix2 (n0 := 65536) (n1 := 128) ⟨(g.val * 2 + 0) * 2048 + s.val, by have := g.isLt; have := s.isLt; omega⟩ c) := by
  unfold graph0
  rw [shapeCast_apply _ shapeCasts_S16x1x2048x128_S16x2048x128 (ix3 g s c) (ix4 g (0 : Fin 1) s c)
    (by rewrite [Shape.rowMajor_val_four, Shape.rowMajor_val_three]
        show ((g.val * 1 + 0) * 2048 + s.val) * 128 + c.val = (g.val * 2048 + s.val) * 128 + c.val
        omega)]
  rw [extractStridedSlice_apply ![0, 0, 0, 0] (paired ns) slices_S16x2x2048x128_S16x1x2048x128_0_0_0_0 (ix4 g (0 : Fin 1) s c)
    (ix4 g (0 : Fin 2) s c) (fun a => match a with
      | ⟨0, _⟩ => by show g.val = 0 + g.val; omega
      | ⟨1, _⟩ => by show 0 = 0 + 0; rfl
      | ⟨2, _⟩ => by show s.val = 0 + s.val; omega
      | ⟨3, _⟩ => by show c.val = 0 + c.val; omega)]
  exact paired_apply ns g 0 s c

/-- The second graphs: entry `(g, s, c)` is node `(2g + 1) · 2048 + s`. -/
theorem graph1_apply (ns : FVec Ideal S65536x128 .f32) (g : Fin 16) (s : Fin 2048) (c : Fin 128) :
    graph1 ns (ix3 g s c)
      = ns (ix2 (n0 := 65536) (n1 := 128) ⟨(g.val * 2 + 1) * 2048 + s.val, by have := g.isLt; have := s.isLt; omega⟩ c) := by
  unfold graph1
  rw [shapeCast_apply _ shapeCasts_S16x1x2048x128_S16x2048x128 (ix3 g s c) (ix4 g (0 : Fin 1) s c)
    (by rewrite [Shape.rowMajor_val_four, Shape.rowMajor_val_three]
        show ((g.val * 1 + 0) * 2048 + s.val) * 128 + c.val = (g.val * 2048 + s.val) * 128 + c.val
        omega)]
  rw [extractStridedSlice_apply ![0, 1, 0, 0] (paired ns) slices_S16x2x2048x128_S16x1x2048x128_0_1_0_0 (ix4 g (0 : Fin 1) s c)
    (ix4 g (1 : Fin 2) s c) (fun a => match a with
      | ⟨0, _⟩ => by show g.val = 0 + g.val; omega
      | ⟨1, _⟩ => by show 1 = 1 + 0; rfl
      | ⟨2, _⟩ => by show s.val = 0 + s.val; omega
      | ⟨3, _⟩ => by show c.val = 0 + c.val; omega)]
  exact paired_apply ns g 1 s c

/-- Two `[16, 2048, 128]` arrays laid side by side along the node axis, read in the first array's span. -/
theorem nodes_first (A B : FVec Ideal S16x2048x128 .f32) (g : Fin 16) (r : Fin 4096) (c : Fin 128) (hr : r.val < 2048) :
    concatenate S16x4096x128 1 [⟨S16x2048x128, A⟩, ⟨S16x2048x128, B⟩] concatenates_S16x2048x128_S16x2048x128_S16x4096x128_d1
        (ix3 (n0 := 16) (n1 := 4096) (n2 := 128) g r c)
      = A (ix3 (n0 := 16) (n1 := 2048) (n2 := 128) g ⟨r.val, hr⟩ c) :=
  concatenate_apply_piece (t := S16x4096x128) (1 : Fin 3) [⟨S16x2048x128, A⟩, ⟨S16x2048x128, B⟩]
    concatenates_S16x2048x128_S16x2048x128_S16x4096x128_d1 (ix3 (n0 := 16) (n1 := 4096) (n2 := 128) g r c) 0 (by show 0 < 2; omega)
    S16x2048x128 A rfl rfl 0 rfl (ix3 (n0 := 16) (n1 := 2048) (n2 := 128) g ⟨r.val, hr⟩ c)
    (fun b hb => by
      match b with
      | ⟨0, _⟩ => rfl
      | ⟨1, _⟩ => exact absurd (Fin.ext rfl) hb
      | ⟨2, _⟩ => rfl)
    (by show 0 + r.val = r.val; omega)

/-- The same, read in the second array's span. -/
theorem nodes_second (A B : FVec Ideal S16x2048x128 .f32) (g : Fin 16) (r : Fin 4096) (c : Fin 128) (hr : ¬ r.val < 2048) :
    concatenate S16x4096x128 1 [⟨S16x2048x128, A⟩, ⟨S16x2048x128, B⟩] concatenates_S16x2048x128_S16x2048x128_S16x4096x128_d1
        (ix3 (n0 := 16) (n1 := 4096) (n2 := 128) g r c)
      = B (ix3 (n0 := 16) (n1 := 2048) (n2 := 128) g ⟨r.val - 2048, by have := r.isLt; omega⟩ c) :=
  concatenate_apply_piece (t := S16x4096x128) (1 : Fin 3) [⟨S16x2048x128, A⟩, ⟨S16x2048x128, B⟩]
    concatenates_S16x2048x128_S16x2048x128_S16x4096x128_d1 (ix3 (n0 := 16) (n1 := 4096) (n2 := 128) g r c) 1 (by show 1 < 2; omega)
    S16x2048x128 B rfl rfl 2048 (by show 2048 + 0 = 2048; rfl)
    (ix3 (n0 := 16) (n1 := 2048) (n2 := 128) g ⟨r.val - 2048, by have := r.isLt; omega⟩ c)
    (fun b hb => by
      match b with
      | ⟨0, _⟩ => rfl
      | ⟨1, _⟩ => exact absurd (Fin.ext rfl) hb
      | ⟨2, _⟩ => rfl)
    (by show 2048 + (r.val - 2048) = r.val; omega)

/-- THE ATTENTION DIFFERENCES are every node's state minus its partner's. -/
theorem attention_eq (ns : FVec Ideal S65536x128 .f32) : attention ns = Cert.GNN.attention ns := by
  funext i
  obtain ⟨n, c, rfl⟩ : ∃ (n : Fin 65536) (c : Fin 128), i = ix2 n c := ⟨i 0, i 1, eq_ix2 i⟩
  have hn := n.isLt
  unfold attention
  -- row n of the result is position n % 4096 of pair n / 4096
  rw [shapeCast_apply _ shapeCasts_S16x4096x128_S65536x128 (ix2 n c)
    (ix3 (n0 := 16) (n1 := 4096) (n2 := 128) ⟨n.val / 4096, by omega⟩ ⟨n.val % 4096, by omega⟩ c)
    (by rewrite [Shape.rowMajor_val_three, Shape.rowMajor_val_two]
        show (n.val / 4096 * 4096 + n.val % 4096) * 128 + c.val = n.val * 128 + c.val
        omega)]
  by_cases hr : n.val % 4096 < 2048
  · -- the first half: a first graph's node minus the second graph's
    rw [nodes_first _ _ ⟨n.val / 4096, by omega⟩ ⟨n.val % 4096, by omega⟩ c hr]
    show graph0 ns _ - graph1 ns _ = _
    rw [graph0_apply, graph1_apply]
    unfold Cert.GNN.attention Cert.GNN.partner
    have hp : n.val / 2048 % 2 = 0 := by omega
    have e0 : (⟨(n.val / 4096 * 2 + 0) * 2048 + n.val % 4096, by omega⟩ : Fin 65536) = n :=
      Fin.ext (by show (n.val / 4096 * 2 + 0) * 2048 + n.val % 4096 = n.val; omega)
    have e1 : (⟨(n.val / 4096 * 2 + 1) * 2048 + n.val % 4096, by omega⟩ : Fin 65536)
        = ⟨if n.val / 2048 % 2 = 0 then n.val + 2048 else n.val - 2048, by split <;> omega⟩ :=
      Fin.ext (by show (n.val / 4096 * 2 + 1) * 2048 + n.val % 4096 = if n.val / 2048 % 2 = 0 then n.val + 2048 else n.val - 2048
                  rw [if_pos hp]; omega)
    exact congrArg₂ (fun x y : Fin 65536 => ns (ix2 x c) - ns (ix2 y c)) e0 e1
  · -- the second half: a second graph's node minus the first graph's
    rw [nodes_second _ _ ⟨n.val / 4096, by omega⟩ ⟨n.val % 4096, by omega⟩ c hr]
    show graph1 ns _ - graph0 ns _ = _
    rw [graph0_apply, graph1_apply]
    unfold Cert.GNN.attention Cert.GNN.partner
    have hp : ¬ n.val / 2048 % 2 = 0 := by omega
    have e1 : (⟨(n.val / 4096 * 2 + 1) * 2048 + (n.val % 4096 - 2048), by omega⟩ : Fin 65536) = n :=
      Fin.ext (by show (n.val / 4096 * 2 + 1) * 2048 + (n.val % 4096 - 2048) = n.val; omega)
    have e0 : (⟨(n.val / 4096 * 2 + 0) * 2048 + (n.val % 4096 - 2048), by omega⟩ : Fin 65536)
        = ⟨if n.val / 2048 % 2 = 0 then n.val + 2048 else n.val - 2048, by split <;> omega⟩ :=
      Fin.ext (by show (n.val / 4096 * 2 + 0) * 2048 + (n.val % 4096 - 2048) = if n.val / 2048 % 2 = 0 then n.val + 2048 else n.val - 2048
                  rw [if_neg hp]; omega)
    exact congrArg₂ (fun x y : Fin 65536 => ns (ix2 x c) - ns (ix2 y c)) e1 e0

end Cert.ReferenceIdeal.Hand

end
-- ==== Proof.LibConcatProd.lean ====
/-
  GENERAL LEMMAS: a matrix product against a concatenation along the columns.

  If `X = [X₁ | X₂ | X₃]` is the concatenation along axis 1 of matrices with `A`, `B` and `C` columns (and the same
  `R` rows), then entry `(p, q)` of `X · W` is
      ∑ k < A, X₁ (p, k) · W (k, q)  +  ∑ k < B, X₂ (p, k) · W (A + k, q)  +  ∑ k < C, X₃ (p, k) · W (A + B + k, q):
  the sum over the `A + B + C` columns taken run by run, each column of `X` read in the piece that holds it. The same
  for two pieces. The only law used is that a finite sum over consecutive indices is the sum of the sums over its
  runs, which holds in any commutative monoid, so in the extended reals with no finiteness hypothesis.
  Imports the library and the matrix-product file only.
-/
import proofs.«100937_j83021717831844_2_alg».proof.Proof.LibMatProd
import Idealize.ShloMosaic.Lib.Pipeline.Value

noncomputable section

open scoped BigOperators

namespace Cert.Linear

open Idealize.ShloMosaic Idealize.ShloMosaic.ValueIdx

/-- A sum over `a + b + c` consecutive indices, run by run. -/
theorem sum_three_runs {M : Type} [AddCommMonoid M] (a b c : Nat) (f : Fin (a + b + c) → M) :
    ∑ k, f k = ∑ k : Fin a, f (Fin.castAdd c (Fin.castAdd b k)) + ∑ k : Fin b, f (Fin.castAdd c (Fin.natAdd a k))
      + ∑ k : Fin c, f (Fin.natAdd (a + b) k) := by
  rw [Fin.sum_univ_add, Fin.sum_univ_add]

/-- A product against three pieces joined along the columns, run by run. -/
theorem matProd_concat3 {R A B C N : Nat} (X1 : (Mat R A).Idx → EReal) (X2 : (Mat R B).Idx → EReal)
    (X3 : (Mat R C).Idx → EReal)
    (h : Shape.Concatenates [Mat R A, Mat R B, Mat R C] (Mat R (A + B + C)) 1)
    (W : (Mat (A + B + C) N).Idx → EReal) (p : Fin R) (q : Fin N) :
    matProd (concatenate (Mat R (A + B + C)) 1 [⟨Mat R A, X1⟩, ⟨Mat R B, X2⟩, ⟨Mat R C, X3⟩] h) W (ix2 p q)
      = ∑ k : Fin A, X1 (ix2 p k) * W (ix2 (Fin.castAdd C (Fin.castAdd B k)) q)
        + ∑ k : Fin B, X2 (ix2 p k) * W (ix2 (Fin.castAdd C (Fin.natAdd A k)) q)
        + ∑ k : Fin C, X3 (ix2 p k) * W (ix2 (Fin.natAdd (A + B) k) q) := by
  unfold matProd
  rw [sum_three_runs A B C]
  refine congrArg₂ (· + ·) (congrArg₂ (· + ·) ?_ ?_) ?_
  · refine Finset.sum_congr rfl fun k _ => congrArg (· * _) ?_
    exact concatenate_apply_piece (t := Mat R (A + B + C)) (1 : Fin 2) [⟨Mat R A, X1⟩, ⟨Mat R B, X2⟩, ⟨Mat R C, X3⟩] h _ 0 (by simp) (Mat R A) X1 rfl rfl 0 rfl (ix2 p k)
      (fun b hb => by
        match b with
        | ⟨0, _⟩ => rfl
        | ⟨1, _⟩ => exact absurd rfl hb)
      (by show 0 + k.val = k.val; omega)
  · refine Finset.sum_congr rfl fun k _ => congrArg (· * _) ?_
    exact concatenate_apply_piece (t := Mat R (A + B + C)) (1 : Fin 2) [⟨Mat R A, X1⟩, ⟨Mat R B, X2⟩, ⟨Mat R C, X3⟩] h _ 1 (by simp) (Mat R B) X2 rfl rfl A rfl (ix2 p k)
      (fun b hb => by
        match b with
        | ⟨0, _⟩ => rfl
        | ⟨1, _⟩ => exact absurd rfl hb)
      (by show A + k.val = A + k.val; rfl)
  · refine Finset.sum_congr rfl fun k _ => congrArg (· * _) ?_
    exact concatenate_apply_piece (t := Mat R (A + B + C)) (1 : Fin 2) [⟨Mat R A, X1⟩, ⟨Mat R B, X2⟩, ⟨Mat R C, X3⟩] h _ 2 (by simp) (Mat R C) X3 rfl rfl (A + B) rfl (ix2 p k)
      (fun b hb => by
        match b with
        | ⟨0, _⟩ => rfl
        | ⟨1, _⟩ => exact absurd rfl hb)
      (by show A + B + k.val = A + B + k.val; rfl)

/-- A product against two pieces joined along the columns, run by run. -/
theorem matProd_concat2 {R A B N : Nat} (X1 : (Mat R A).Idx → EReal) (X2 : (Mat R B).Idx → EReal)
    (h : Shape.Concatenates [Mat R A, Mat R B] (Mat R (A + B)) 1)
    (W : (Mat (A + B) N).Idx → EReal) (p : Fin R) (q : Fin N) :
    matProd (concatenate (Mat R (A + B)) 1 [⟨Mat R A, X1⟩, ⟨Mat R B, X2⟩] h) W (ix2 p q)
      = ∑ k : Fin A, X1 (ix2 p k) * W (ix2 (Fin.castAdd B k) q)
        + ∑ k : Fin B, X2 (ix2 p k) * W (ix2 (Fin.natAdd A k) q) := by
  unfold matProd
  rw [Fin.sum_univ_add]
  refine congrArg₂ (· + ·) ?_ ?_
  · refine Finset.sum_congr rfl fun k _ => congrArg (· * _) ?_
    exact concatenate_apply_piece (t := Mat R (A + B)) (1 : Fin 2) [⟨Mat R A, X1⟩, ⟨Mat R B, X2⟩] h _ 0 (by simp) (Mat R A) X1 rfl rfl 0 rfl (ix2 p k)
      (fun b hb => by
        match b with
        | ⟨0, _⟩ => rfl
        | ⟨1, _⟩ => exact absurd rfl hb)
      (by show 0 + k.val = k.val; omega)
  · refine Finset.sum_congr rfl fun k _ => congrArg (· * _) ?_
    exact concatenate_apply_piece (t := Mat R (A + B)) (1 : Fin 2) [⟨Mat R A, X1⟩, ⟨Mat R B, X2⟩] h _ 1 (by simp) (Mat R B) X2 rfl rfl A rfl (ix2 p k)
      (fun b hb => by
        match b with
        | ⟨0, _⟩ => rfl
        | ⟨1, _⟩ => exact absurd rfl hb)
      (by show A + k.val = A + k.val; rfl)

end Cert.Linear

end
-- ==== Proof.Math.Cols3.lean ====
/-
  The first layer's product, split over three column groups.

  If a wide matrix J of A + B + C columns holds X1 in its first A columns, X2 in the next B and X3 in the last C, then
  entry (p, q) of J · W is a sum over the A + B + C columns taken group by group:
      J · W = X1 · (rows 0 … A of W) + X2 · (rows A … A + B of W) + X3 · (rows A + B … of W),
  grouped ((· + ·) + ·). The only law used is that a finite sum over consecutive indices is the sum of the sums over its
  runs, which holds in any commutative monoid, so on the extended reals with no finiteness hypothesis. Hence a layer
  "product with the whole weight matrix, bias row, maximum with zero" of the wide matrix is the specification's first
  layer of the three groups at the three row blocks of the weight matrix. The wide matrix is given either by its three
  column-group equations or as the concatenation of the three groups along the column axis.
-/
import proofs.«100937_j83021717831844_2_alg».proof.Proof.Spec
import proofs.«100937_j83021717831844_2_alg».proof.Proof.LibStackedProd
import proofs.«100937_j83021717831844_2_alg».proof.Proof.LibConcatProd

noncomputable section

open scoped BigOperators

namespace Cert.GNN

open Idealize.ShloMosaic Idealize.ShloMosaic.ValueIdx Cert.Linear

/-- A wide matrix given by its three column groups, against a matrix of A + B + C rows: the groups' products with the
    matching row blocks, added in order. -/
theorem matProd_cols3 {R A B C N : Nat} (X1 : (Mat R A).Idx → EReal) (X2 : (Mat R B).Idx → EReal)
    (X3 : (Mat R C).Idx → EReal) (J : (Mat R (A + B + C)).Idx → EReal) (W : (Mat (A + B + C) N).Idx → EReal)
    (hA : ∀ (r : Fin R) (k : Fin A), J (ix2 r ⟨k.val, by omega⟩) = X1 (ix2 r k))
    (hB : ∀ (r : Fin R) (k : Fin B), J (ix2 r ⟨A + k.val, by omega⟩) = X2 (ix2 r k))
    (hC : ∀ (r : Fin R) (k : Fin C), J (ix2 r ⟨A + B + k.val, by omega⟩) = X3 (ix2 r k)) (p : (Mat R N).Idx) :
    matProd J W p = matProd X1 (rowBlock A 0 (by omega) W) p + matProd X2 (rowBlock B A (by omega) W) p
      + matProd X3 (rowBlock C (A + B) (by omega) W) p := by
  obtain ⟨r, q, rfl⟩ : ∃ (r : Fin R) (q : Fin N), p = ix2 r q := ⟨p 0, p 1, eq_ix2 p⟩
  show ∑ k : Fin (A + B + C), J (ix2 r k) * W (ix2 k q)
      = (∑ k : Fin A, X1 (ix2 r k) * W (ix2 ⟨0 + k.val, by omega⟩ q))
        + (∑ k : Fin B, X2 (ix2 r k) * W (ix2 ⟨A + k.val, by omega⟩ q))
        + ∑ k : Fin C, X3 (ix2 r k) * W (ix2 ⟨A + B + k.val, by omega⟩ q)
  refine (sum_split (A + B) C (A + B + C) rfl _).trans (congrArg₂ (· + ·) ?_ (Finset.sum_congr rfl fun k _ => ?_))
  · refine (sum_split A B (A + B) rfl _).trans
      (congrArg₂ (· + ·) (Finset.sum_congr rfl fun k _ => ?_) (Finset.sum_congr rfl fun k _ => ?_))
    · exact congrArg₂ (· * ·) (hA r k) (congrArg (fun z => W (ix2 z q)) (Fin.ext (Nat.zero_add _).symm))
    · exact congrArg (· * _) (hB r k)
  · exact congrArg (· * _) (hC r k)

/-- The same for the concatenation of the three groups along the column axis. -/
theorem matProd_concat3_blocks {R A B C N : Nat} (X1 : (Mat R A).Idx → EReal) (X2 : (Mat R B).Idx → EReal)
    (X3 : (Mat R C).Idx → EReal)
    (h : Shape.Concatenates [Mat R A, Mat R B, Mat R C] (Mat R (A + B + C)) 1)
    (W : (Mat (A + B + C) N).Idx → EReal) (p : (Mat R N).Idx) :
    matProd (concatenate (Mat R (A + B + C)) 1 [⟨Mat R A, X1⟩, ⟨Mat R B, X2⟩, ⟨Mat R C, X3⟩] h) W p
      = matProd X1 (rowBlock A 0 (by omega) W) p + matProd X2 (rowBlock B A (by omega) W) p
        + matProd X3 (rowBlock C (A + B) (by omega) W) p := by
  obtain ⟨r, q, rfl⟩ : ∃ (r : Fin R) (q : Fin N), p = ix2 r q := ⟨p 0, p 1, eq_ix2 p⟩
  rw [matProd_concat3 X1 X2 X3 h W r q]
  refine congrArg₂ (· + ·) (congrArg₂ (· + ·) ?_ ?_) ?_
  · exact Finset.sum_congr rfl fun k _ =>
      congrArg (_ * ·) (congrArg (fun z => W (ix2 z q)) (Fin.ext (Nat.zero_add _).symm))
  · exact Finset.sum_congr rfl fun k _ => rfl
  · exact Finset.sum_congr rfl fun k _ => rfl

/-- THE FIRST LAYER, UNSPLIT = SPLIT: product of the wide matrix with the whole weight matrix, bias row, maximum with
    zero, is the specification's first layer of the three column groups at the three row blocks of the weight matrix. -/
theorem first_layer_split {R A B C N : Nat} (X1 : (Mat R A).Idx → EReal) (X2 : (Mat R B).Idx → EReal)
    (X3 : (Mat R C).Idx → EReal) (J : (Mat R (A + B + C)).Idx → EReal) (W : (Mat (A + B + C) N).Idx → EReal)
    (b : (Mat 1 N).Idx → EReal)
    (hA : ∀ (r : Fin R) (k : Fin A), J (ix2 r ⟨k.val, by omega⟩) = X1 (ix2 r k))
    (hB : ∀ (r : Fin R) (k : Fin B), J (ix2 r ⟨A + k.val, by omega⟩) = X2 (ix2 r k))
    (hC : ∀ (r : Fin R) (k : Fin C), J (ix2 r ⟨A + B + k.val, by omega⟩) = X3 (ix2 r k)) :
    rowBiasMax (matProd J W) b z0
      = layer1 X1 X2 X3 (rowBlock A 0 (by omega) W) (rowBlock B A (by omega) W) (rowBlock C (A + B) (by omega) W) b := by
  funext i
  unfold layer1 rowBiasMax
  exact congrArg (fun t => max (t + b (ix2 (n0 := 1) (n1 := N) 0 (i 1))) z0) (matProd_cols3 X1 X2 X3 J W hA hB hC i)

/-- The same with the wide matrix written as the concatenation of the three groups along the column axis. -/
theorem first_layer_split_concat {R A B C N : Nat} (X1 : (Mat R A).Idx → EReal) (X2 : (Mat R B).Idx → EReal)
    (X3 : (Mat R C).Idx → EReal)
    (h : Shape.Concatenates [Mat R A, Mat R B, Mat R C] (Mat R (A + B + C)) 1)
    (W : (Mat (A + B + C) N).Idx → EReal) (b : (Mat 1 N).Idx → EReal) :
    rowBiasMax (matProd (concatenate (Mat R (A + B + C)) 1 [⟨Mat R A, X1⟩, ⟨Mat R B, X2⟩, ⟨Mat R C, X3⟩] h) W) b z0
      = layer1 X1 X2 X3 (rowBlock A 0 (by omega) W) (rowBlock B A (by omega) W) (rowBlock C (A + B) (by omega) W) b := by
  funext i
  unfold layer1 rowBiasMax
  exact congrArg (fun t => max (t + b (ix2 (n0 := 1) (n1 := N) 0 (i 1))) z0) (matProd_concat3_blocks X1 X2 X3 h W i)

end Cert.GNN

end
-- ==== Proof.Ref.RefSpec.lean ====
/-
  The reference's value IS the specification.

  `refOut`, the reference's operations composed, is the specification's three-layer network applied node by node to
  (state | aggregate of the messages | attention input), the messages being the same network with the message weights
  applied edge by edge to (first endpoint's state | second endpoint's state | edge features):

  * each dense layer is a plain matrix product with a bias row (and the maximum with zero);
  * a first layer's ONE product over three column groups laid side by side is the sum of the three groups' products with
    the matching row blocks of the weight matrix (a sum over consecutive columns taken run by run — the only
    rearrangement anywhere in this file, and it uses nothing but that finite sums split at a point);
  * the two accumulations added are the aggregate, the keys being the reference's own two endpoint vectors read as
    signed integers;
  * the attention differences are every node's state minus its partner's.

  The two gathers are left as the program's own terms (`nodes_i`, `nodes_j`).
-/
import proofs.«100937_j83021717831844_2_alg».proof.Proof.Ref.Layers
import proofs.«100937_j83021717831844_2_alg».proof.Proof.Ref.Summed
import proofs.«100937_j83021717831844_2_alg».proof.Proof.Ref.Attention
import proofs.«100937_j83021717831844_2_alg».proof.Proof.Math.Cols3
import proofs.«100937_j83021717831844_2_alg».proof.Proof.SpecOut

noncomputable section

namespace Cert.ReferenceIdeal.Hand

open Cert.ReferenceIdeal Cert.ReferenceIdeal.Gen Idealize.ShloMosaic Idealize.ShloMosaic.ValueIdx Cert.Linear

/-- The messages are the specification's network, with the message weights, on the edges' rows. -/
theorem messages_eq (ns : FVec Ideal S65536x128 .f32) (ed : FVec Ideal S524288x64 .f32) (vx : IVec S524288x2 32)
    (mW1 : FVec Ideal S320x256 .f32) (mb1 : FVec Ideal S256 .f32) (mW2 : FVec Ideal S256x256 .f32) (mb2 : FVec Ideal S256 .f32)
    (mW3 : FVec Ideal S256x128 .f32) (mb3 : FVec Ideal S128 .f32)
    (h256 : S256.ShapeCasts (Mat 1 256)) (h128 : S128.ShapeCasts (Mat 1 128)) :
    messages ns ed vx mW1 mb1 mW2 mb2 mW3 mb3
      = Cert.GNN.messages (nodes_i ns vx) (nodes_j ns vx) ed
          (rowBlock (R := 320) 128 0 (by omega) mW1) (rowBlock (R := 320) 128 128 (by omega) mW1) (rowBlock (R := 320) 64 256 (by omega) mW1)
          (shapeCast (Mat 1 256) mb1 h256) mW2 (shapeCast (Mat 1 256) mb2 h256) mW3 (shapeCast (Mat 1 128) mb3 h128) := by
  unfold messages Cert.GNN.messages
  rw [msgH3_eq _ _ _ h128, msgH2_eq _ _ _ h256, msgH1_eq _ _ _ h256]
  unfold msgIn
  rw [Cert.GNN.first_layer_split_concat (R := 524288) (A := 128) (B := 128) (C := 64) (N := 256) (nodes_i ns vx) (nodes_j ns vx) ed
    concatenates_S524288x128_S524288x128_S524288x64_S524288x320_d1 mW1 (shapeCast (Mat 1 256) mb1 h256)]
  rfl

/-- THE REFERENCE'S VALUE IS THE SPECIFICATION. -/
theorem refOut_eq_spec (ns : FVec Ideal S65536x128 .f32) (ed : FVec Ideal S524288x64 .f32) (vx : IVec S524288x2 32)
    (mW1 : FVec Ideal S320x256 .f32) (mb1 : FVec Ideal S256 .f32) (mW2 : FVec Ideal S256x256 .f32) (mb2 : FVec Ideal S256 .f32)
    (mW3 : FVec Ideal S256x128 .f32) (mb3 : FVec Ideal S128 .f32)
    (uW1 : FVec Ideal S384x256 .f32) (ub1 : FVec Ideal S256 .f32) (uW2 : FVec Ideal S256x256 .f32) (ub2 : FVec Ideal S256 .f32)
    (uW3 : FVec Ideal S256x128 .f32) (ub3 : FVec Ideal S128 .f32)
    (h256 : S256.ShapeCasts (Mat 1 256)) (h128 : S128.ShapeCasts (Mat 1 128)) :
    refOut ns ed vx mW1 mb1 mW2 mb2 mW3 mb3 uW1 ub1 uW2 ub2 uW3 ub3
      = Cert.GNN.outSpec ns
          (fun e => (column0 vx (ix1 e)).toInt) (fun e => (column1 vx (ix1 e)).toInt)
          (Cert.GNN.messages (nodes_i ns vx) (nodes_j ns vx) ed
            (rowBlock (R := 320) 128 0 (by omega) mW1) (rowBlock (R := 320) 128 128 (by omega) mW1) (rowBlock (R := 320) 64 256 (by omega) mW1)
            (shapeCast (Mat 1 256) mb1 h256) mW2 (shapeCast (Mat 1 256) mb2 h256) mW3 (shapeCast (Mat 1 128) mb3 h128))
          (rowBlock (R := 384) 128 0 (by omega) uW1) (rowBlock (R := 384) 128 128 (by omega) uW1) (rowBlock (R := 384) 128 256 (by omega) uW1)
          (shapeCast (Mat 1 256) ub1 h256) uW2 (shapeCast (Mat 1 256) ub2 h256) uW3 (shapeCast (Mat 1 128) ub3 h128) := by
  unfold refOut Cert.GNN.outSpec
  rw [updH3_eq _ _ _ h128, updH2_eq _ _ _ h256, updH1_eq _ _ _ h256, messages_eq ns ed vx mW1 mb1 mW2 mb2 mW3 mb3 h256 h128,
    summed_eq_keys, attention_eq]
  unfold updIn
  rw [Cert.GNN.first_layer_split_concat (R := 65536) (A := 128) (B := 128) (C := 128) (N := 256) ns _ (Cert.GNN.attention ns)
    concatenates_S65536x128_S65536x128_S65536x128_S65536x384_d1 uW1 (shapeCast (Mat 1 256) ub1 h256)]
  rfl

end Cert.ReferenceIdeal.Hand

end
-- ==== Proof.Bridge.lean ====
/-
  The two programs compute one function of their arguments.

  The kernel's program ends with its result array at the three-layer network applied node by node to (state |
  aggregate | state minus partner's state), the aggregate being its ONE accumulation of the doubled messages at the
  doubled endpoint columns, the messages the network applied edge by edge with the first product split in three. The
  reference ends at the same network applied to the same three column groups through ONE product per layer over the
  concatenation, with two accumulations added. Both have been brought to the same function of the same pieces — the
  node states, the two gathers of endpoint states, the edge features, the weight matrices' row groups, the bias rows and
  the two endpoint vectors read as integer keys — and piece by piece the two programs spell the same term.
-/
import proofs.«100937_j83021717831844_2_alg».proof.Proof.KI.KernelSpec
import proofs.«100937_j83021717831844_2_alg».proof.Proof.Ref.RefSpec

noncomputable section

namespace Cert.Bridge

open Idealize.ShloMosaic

/-- The kernel program's result and the reference's result are the same function of the fifteen argument arrays. -/
theorem out_eq (a0 : FVec Ideal Cert.ReferenceIdeal.S65536x128 .f32) (a1 : FVec Ideal Cert.ReferenceIdeal.S524288x64 .f32)
    (a2 : IVec Cert.ReferenceIdeal.S524288x2 32)
    (a3 : FVec Ideal Cert.ReferenceIdeal.S320x256 .f32) (a4 : FVec Ideal Cert.ReferenceIdeal.S256 .f32)
    (a5 : FVec Ideal Cert.ReferenceIdeal.S256x256 .f32) (a6 : FVec Ideal Cert.ReferenceIdeal.S256 .f32)
    (a7 : FVec Ideal Cert.ReferenceIdeal.S256x128 .f32) (a8 : FVec Ideal Cert.ReferenceIdeal.S128 .f32)
    (a9 : FVec Ideal Cert.ReferenceIdeal.S384x256 .f32) (a10 : FVec Ideal Cert.ReferenceIdeal.S256 .f32)
    (a11 : FVec Ideal Cert.ReferenceIdeal.S256x256 .f32) (a12 : FVec Ideal Cert.ReferenceIdeal.S256 .f32)
    (a13 : FVec Ideal Cert.ReferenceIdeal.S256x128 .f32) (a14 : FVec Ideal Cert.ReferenceIdeal.S128 .f32) :
    Cert.KernelIdeal.Hand.kernelOut a0 a1 a2 a3 a4 a5 a6 a7 a8 a9 a10 a11 a12 a13 a14
      = Cert.ReferenceIdeal.Hand.refOut a0 a1 a2 a3 a4 a5 a6 a7 a8 a9 a10 a11 a12 a13 a14 := by
  rw [Cert.KernelIdeal.Hand.kernelOut_eq_spec,
    Cert.ReferenceIdeal.Hand.refOut_eq_spec a0 a1 a2 a3 a4 a5 a6 a7 a8 a9 a10 a11 a12 a13 a14
      Cert.KernelIdeal.Facts₀.shapeCasts_S256_S1x256 Cert.KernelIdeal.Facts₀.shapeCasts_S128_S1x128]
  rfl

end Cert.Bridge

end
-- ==== Proof.lean ====
/-
  One layer of a message-passing graph network on 65536 nodes and 524288 edges, written two ways, and the proof that
  the two programs agree.

  THE KERNEL'S PROGRAM gathers, for every edge, the states of its two endpoints, and applies the message network — three
  dense layers, the middle ones followed by a maximum with zero — in a first kernel, 4096 edges per grid point, the
  first layer's product written as three products (first endpoint's state, second endpoint's state, edge features)
  against the matching row groups of the weight matrix. It then accumulates the messages into the nodes with ONE
  scatter over the edge list laid end to end with itself, once keyed by the first endpoints and once by the second.
  A second kernel, 2048 nodes (one graph) per grid point, reads the node states through two windows — the graph's own
  block and the block of the partner graph of its pair — forms their difference, and applies the update network to
  (state | aggregate | difference), again with the first product split in three. THE REFERENCE concatenates the three
  column groups and uses one product per layer, accumulates the messages twice and adds, and builds the differences by
  reshaping the states into pairs of graphs.

  At the ideal values (floats as extended reals, every operation exact, a change of format the identity) the two
  agree, and the only laws used are that a finite sum may be split into consecutive runs and regrouped: a product over
  320 (or 384) columns is the sum of the products over its three column groups; a sum over the doubled edge list is the
  sum over its two halves. No distributive law, no cancellation, hence no finiteness of the inputs is needed: the
  precondition is never opened.

  The three frames (each program terminates on every weakly fair execution, faults nowhere and leaves its arguments
  unchanged) come from the programs' runs: the kernel program's run is composed of its two regions and the host
  lines around them, at any float instance, and read at the word-level instance for the printed kernel and at
  the ideal one for its idealization; the reference's run is the fold of its host operations. The idealization
  rewrote no operation, so the preservation claim is trivial.
-/
import proofs.«100937_j83021717831844_2_alg».proof.Defs
import proofs.«100937_j83021717831844_2_alg».proof.Proof.Gen.Kernel
import proofs.«100937_j83021717831844_2_alg».proof.Proof.Gen.KernelIdeal
import proofs.«100937_j83021717831844_2_alg».proof.Proof.Gen.ReferenceIdeal
import proofs.«100937_j83021717831844_2_alg».proof.Proof.Gen.Pre_finite_inputs
import proofs.«100937_j83021717831844_2_alg».proof.Proof.K.Run
import proofs.«100937_j83021717831844_2_alg».proof.Proof.KI.KernelValue
import proofs.«100937_j83021717831844_2_alg».proof.Proof.Ref.Run
import proofs.«100937_j83021717831844_2_alg».proof.Proof.Bridge

noncomputable section

namespace Cert.Proof

open Idealize.ShloMosaic Idealize.SL.Sem

/-- The printed kernel program runs to its end and leaves its arguments unchanged. -/
theorem frame_k : Cert.frame_Kernel (hKernel := Cert.Kernel.Gen.facts) (hPre_finite_inputs := Cert.Pre_finite_inputs.Gen.facts) := fun m ρ _ =>
  (θ_run (Cert.Kernel.defs (F := Bits)) _ _).mono (fun _ h c => (h c).2) (Cert.Kernel.Hand.run_main (F := Bits) m ρ)

/-- So does its idealization. -/
theorem frame_ki : Cert.frame_KernelIdeal (hKernelIdeal := Cert.KernelIdeal.Gen.facts) (hPre_finite_inputs := Cert.Pre_finite_inputs.Gen.facts) := fun m ρ _ =>
  (θ_run (Cert.KernelIdeal.defs (F := Ideal)) _ _).mono (fun _ h c => (h c).2) (Cert.KernelIdeal.Hand.run_main (F := Ideal) m ρ)

/-- So does the reference. -/
theorem frame_ri : Cert.frame_ReferenceIdeal (hReferenceIdeal := Cert.ReferenceIdeal.Gen.facts) (hPre_finite_inputs := Cert.Pre_finite_inputs.Gen.facts) := fun m ρ _ =>
  (θ_run (Cert.ReferenceIdeal.defs (F := Ideal)) _ _).mono (fun _ h c => (h c).2) (Cert.ReferenceIdeal.Hand.run m ρ)

/-- At the ideal values, from memories agreeing on the arguments, both programs run and end with equal results: the
    kernel program's result is one function of its arguments, the reference's is the same function of its own, and the
    arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), Cert.KernelIdeal.Hand.kernel_run m ρ, ?_⟩
  refine (θ_run (Cert.ReferenceIdeal.defs (F := Ideal)) _ _).mono (fun _ h c => ⟨(h c).1.trans ?_, (h c).2⟩)
    (Cert.ReferenceIdeal.Hand.run m' ρ')
  obtain ⟨e0, e1, e2, e3, e4, e5, e6, e7, e8, e9, e10, e11, e12, e13, e14⟩ := hagree c
  rw [e0, e1, e2, e3, e4, e5, e6, e7, e8, e9, e10, e11, e12, e13, e14]
  exact (Cert.Bridge.out_eq _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
